-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x64 : Shape := ⟨2, ![131072, 64]⟩
abbrev S2097152x2 : Shape := ⟨2, ![2097152, 2]⟩
abbrev S64x6 : Shape := ⟨2, ![64, 6]⟩
abbrev S64x128 : Shape := ⟨2, ![64, 128]⟩
abbrev S128 : Shape := ⟨1, ![128]⟩
abbrev S2x128 : Shape := ⟨2, ![2, 128]⟩
abbrev S3x128x128 : Shape := ⟨3, ![3, 128, 128]⟩
abbrev S3x128 : Shape := ⟨2, ![3, 128]⟩
abbrev S6x32 : Shape := ⟨2, ![6, 32]⟩
abbrev S32 : Shape := ⟨1, ![32]⟩
abbrev S160x128 : Shape := ⟨2, ![160, 128]⟩
abbrev S2097152 : Shape := ⟨1, ![2097152]⟩
abbrev S131072 : Shape := ⟨1, ![131072]⟩
abbrev S_ : Shape := ⟨0, ![]⟩

class Facts : Prop where
  bcast_S_S131072x64 : S_.BroadcastsInDim S131072x64 (![] : Fin 0 → Fin S131072x64.rank)
  reducesTo_S131072x64_S_d0_1 : S131072x64.ReducesTo [0, 1] S_
  h_S_ : 0 < S_.numel
  bcast_S_S2097152x2 : S_.BroadcastsInDim S2097152x2 (![] : Fin 0 → Fin S2097152x2.rank)
  reducesTo_S2097152x2_S_d0_1 : S2097152x2.ReducesTo [0, 1] S_
  bcast_S_S64x6 : S_.BroadcastsInDim S64x6 (![] : Fin 0 → Fin S64x6.rank)
  reducesTo_S64x6_S_d0_1 : S64x6.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S6x32 : S_.BroadcastsInDim S6x32 (![] : Fin 0 → Fin S6x32.rank)
  reducesTo_S6x32_S_d0_1 : S6x32.ReducesTo [0, 1] S_
  bcast_S_S32 : S_.BroadcastsInDim S32 (![] : Fin 0 → Fin S32.rank)
  reducesTo_S32_S_d0 : S32.ReducesTo [0] S_
  bcast_S_S160x128 : S_.BroadcastsInDim S160x128 (![] : Fin 0 → Fin S160x128.rank)
  reducesTo_S160x128_S_d0_1 : S160x128.ReducesTo [0, 1] S_

variable [Facts]

def fn_part5 {F : FTy → Type} [FloatOps F] (main_arg12 : FVec F S3x128 .f32) (main_v83 : IVec S_ 1) (main_v84 : FVec F S3x128 .f32) : IVec S_ 1 :=
  let main_v85 : IVec S3x128 1 := cmpf .oge main_arg12 main_v84
  let main_c_33 : IVec S_ 1 := constantI S_ 1 1#1
  let main_v86 : IVec S_ 1 := (fun x v => Host.reduce IntOp.andi x v reducesTo_S3x128_S_d0_1 h_S_) main_v85 main_c_33
  let main_v87 : IVec S_ 1 := andi main_v83 main_v86
  main_v87

def fn_part4 {F : FTy → Type} [FloatOps F] (main_arg12 : FVec F S3x128 .f32) (main_arg14 : FVec F S32 .f32) (main_arg15 : FVec F S160x128 .f32) (main_arg16 : FVec F S128 .f32) (main_v63 : IVec S_ 1) (main_v67 : IVec S_ 1) : IVec S_ 1 :=
  let main_v68 : IVec S_ 1 := andi main_v63 main_v67
  let main_v69 : FVec F S32 .f32 := Host.absf main_arg14
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S160x128 .f32 := Host.absf main_arg15
  let main_cst_28 : FVec F S_ .f32 := constant S_ .f32 0x7F800000#32
  let main_v75 : FVec F S160x128 .f32 := broadcastInDim S160x128 ![] bcast_S_S160x128 main_cst_28
  let main_v76 : IVec S160x128 1 := cmpf .olt main_v74 main_v75
  let main_c_29 : IVec S_ 1 := constantI S_ 1 1#1
  let main_v77 : IVec S_ 1 := (fun x v => Host.reduce IntOp.andi x v reducesTo_S160x128_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_cst_32 : FVec F S_ .f32 := constant S_ .f32 0x00000000#32
  let main_v84 : FVec F S3x128 .f32 := broadcastInDim S3x128 ![] bcast_S_S3x128 main_cst_32
  fn_part5 (F := F) main_arg12 main_v83 main_v84

def fn_part3 {F : FTy → Type} [FloatOps F] (main_arg11 : FVec F S3x128 .f32) (main_arg12 : FVec F S3x128 .f32) (main_arg13 : FVec F S6x32 .f32) (main_arg14 : FVec F S32 .f32) (main_arg15 : FVec F S160x128 .f32) (main_arg16 : FVec F S128 .f32) (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  let main_v54 : FVec F S3x128 .f32 := Host.absf main_arg11
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S3x128 .f32 := Host.absf main_arg12
  let main_cst_22 : FVec F S_ .f32 := constant S_ .f32 0x7F800000#32
  let main_v60 : FVec F S3x128 .f32 := broadcastInDim S3x128 ![] bcast_S_S3x128 main_cst_22
  let main_v61 : IVec S3x128 1 := cmpf .olt main_v59 main_v60
  let main_c_23 : IVec S_ 1 := constantI S_ 1 1#1
  let main_v62 : IVec S_ 1 := (fun x v => Host.reduce IntOp.andi x v reducesTo_S3x128_S_d0_1 h_S_) main_v61 main_c_23
  let main_v63 : IVec S_ 1 := andi main_v58 main_v62
  let main_v64 : FVec F S6x32 .f32 := Host.absf main_arg13
  let main_cst_24 : FVec F S_ .f32 := constant S_ .f32 0x7F800000#32
  let main_v65 : FVec F S6x32 .f32 := broadcastInDim S6x32 ![] bcast_S_S6x32 main_cst_24
  let main_v66 : IVec S6x32 1 := cmpf .olt main_v64 main_v65
  let main_c_25 : IVec S_ 1 := constantI S_ 1 1#1
  let main_v67 : IVec S_ 1 := (fun x v => Host.reduce IntOp.andi x v reducesTo_S6x32_S_d0_1 h_S_) main_v66 main_c_25
  fn_part4 (F := F) main_arg12 main_arg14 main_arg15 main_arg16 main_v63 main_v67

def fn_part2 {F : FTy → Type} [FloatOps F] (main_arg7 : FVec F S3x128x128 .f32) (main_arg8 : FVec F S3x128 .f32) (main_arg9 : FVec F S3x128 .f32) (main_arg10 : FVec F S3x128 .f32) (main_arg11 : FVec F S3x128 .f32) (main_arg12 : FVec F S3x128 .f32) (main_arg13 : FVec F S6x32 .f32) (main_arg14 : FVec F S32 .f32) (main_arg15 : FVec F S160x128 .f32) (main_arg16 : FVec F S128 .f32) (main_v33 : IVec S_ 1) : IVec S_ 1 :=
  let main_v34 : FVec F S3x128x128 .f32 := Host.absf main_arg7
  let main_cst_12 : FVec F S_ .f32 := constant S_ .f32 0x7F800000#32
  let main_v35 : FVec F S3x128x128 .f32 := broadcastInDim S3x128x128 ![] bcast_S_S3x128x128 main_cst_12
  let main_v36 : IVec S3x128x128 1 := cmpf .olt main_v34 main_v35
  let main_c_13 : IVec S_ 1 := constantI S_ 1 1#1
  let main_v37 : IVec S_ 1 := (fun x v => Host.reduce IntOp.andi x v reducesTo_S3x128x128_S_d0_1_2 h_S_) main_v36 main_c_13
  let main_v38 : IVec S_ 1 := andi main_v33 main_v37
  let main_v39 : FVec F S3x128 .f32 := Host.absf main_arg8
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x128 .f32 := Host.absf main_arg9
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S3x128 .f32 := Host.absf main_arg10
  let main_cst_18 : FVec F S_ .f32 := constant S_ .f32 0x7F800000#32
  let main_v50 : FVec F S3x128 .f32 := broadcastInDim S3x128 ![] bcast_S_S3x128 main_cst_18
  fn_part3 (F := F) main_arg11 main_arg12 main_arg13 main_arg14 main_arg15 main_arg16 main_v48 main_v49 main_v50

def fn_part1 {F : FTy → Type} [FloatOps F] (main_arg4 : FVec F S128 .f32) (main_arg5 : FVec F S2x128 .f32) (main_arg6 : FVec F S128 .f32) (main_arg7 : FVec F S3x128x128 .f32) (main_arg8 : FVec F S3x128 .f32) (main_arg9 : FVec F S3x128 .f32) (main_arg10 : FVec F S3x128 .f32) (main_arg11 : FVec F S3x128 .f32) (main_arg12 : FVec F S3x128 .f32) (main_arg13 : FVec F S6x32 .f32) (main_arg14 : FVec F S32 .f32) (main_arg15 : FVec F S160x128 .f32) (main_arg16 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S2x128 .f32 := Host.absf main_arg5
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S131072x64 .f32) (main_arg1 : FVec F S2097152x2 .f32) (main_arg2 : FVec F S64x6 .f32) (main_arg3 : FVec F S64x128 .f32) (main_arg4 : FVec F S128 .f32) (main_arg5 : FVec F S2x128 .f32) (main_arg6 : FVec F S128 .f32) (main_arg7 : FVec F S3x128x128 .f32) (main_arg8 : FVec F S3x128 .f32) (main_arg9 : FVec F S3x128 .f32) (main_arg10 : FVec F S3x128 .f32) (main_arg11 : FVec F S3x128 .f32) (main_arg12 : FVec F S3x128 .f32) (main_arg13 : FVec F S6x32 .f32) (main_arg14 : FVec F S32 .f32) (main_arg15 : FVec F S160x128 .f32) (main_arg16 : FVec F S128 .f32) (main_arg17 : IVec S2097152 32) (main_arg18 : IVec S2097152 32) (main_arg19 : IVec S131072 32) : IVec S_ 1 :=
  let main_v0 : FVec F S131072x64 .f32 := Host.absf main_arg0
  let main_cst : FVec F S_ .f32 := constant S_ .f32 0x7F800000#32
  let main_v1 : FVec F S131072x64 .f32 := broadcastInDim S131072x64 ![] bcast_S_S131072x64 main_cst
  let main_v2 : IVec S131072x64 1 := cmpf .olt main_v0 main_v1
  let main_c : IVec S_ 1 := constantI S_ 1 1#1
  let main_v3 : IVec S_ 1 := (fun x v => Host.reduce IntOp.andi x v reducesTo_S131072x64_S_d0_1 h_S_) main_v2 main_c
  let main_v4 : FVec F S2097152x2 .f32 := Host.absf main_arg1
  let main_cst_0 : FVec F S_ .f32 := constant S_ .f32 0x7F800000#32
  let main_v5 : FVec F S2097152x2 .f32 := broadcastInDim S2097152x2 ![] bcast_S_S2097152x2 main_cst_0
  let main_v6 : IVec S2097152x2 1 := cmpf .olt main_v4 main_v5
  let main_c_1 : IVec S_ 1 := constantI S_ 1 1#1
  let main_v7 : IVec S_ 1 := (fun x v => Host.reduce IntOp.andi x v reducesTo_S2097152x2_S_d0_1 h_S_) main_v6 main_c_1
  let main_v8 : IVec S_ 1 := andi main_v3 main_v7
  let main_v9 : FVec F S64x6 .f32 := Host.absf main_arg2
  let main_cst_2 : FVec F S_ .f32 := constant S_ .f32 0x7F800000#32
  let main_v10 : FVec F S64x6 .f32 := broadcastInDim S64x6 ![] bcast_S_S64x6 main_cst_2
  let main_v11 : IVec S64x6 1 := cmpf .olt main_v9 main_v10
  let main_c_3 : IVec S_ 1 := constantI S_ 1 1#1
  let main_v12 : IVec S_ 1 := (fun x v => Host.reduce IntOp.andi x v reducesTo_S64x6_S_d0_1 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S131072x64 : Shape := ⟨2, ![131072, 64]⟩
abbrev S2097152x2 : Shape := ⟨2, ![2097152, 2]⟩
abbrev S64x6 : Shape := ⟨2, ![64, 6]⟩
abbrev S64x128 : Shape := ⟨2, ![64, 128]⟩
abbrev S128 : Shape := ⟨1, ![128]⟩
abbrev S2x128 : Shape := ⟨2, ![2, 128]⟩
abbrev S3x128x128 : Shape := ⟨3, ![3, 128, 128]⟩
abbrev S3x128 : Shape := ⟨2, ![3, 128]⟩
abbrev S6x32 : Shape := ⟨2, ![6, 32]⟩
abbrev S32 : Shape := ⟨1, ![32]⟩
abbrev S160x128 : Shape := ⟨2, ![160, 128]⟩
abbrev S2097152 : Shape := ⟨1, ![2097152]⟩
abbrev S131072 : Shape := ⟨1, ![131072]⟩
abbrev S1x128 : Shape := ⟨2, ![1, 128]⟩
abbrev S131072x128 : Shape := ⟨2, ![131072, 128]⟩
abbrev S4096x64 : Shape := ⟨2, ![4096, 64]⟩
abbrev S4096x128 : Shape := ⟨2, ![4096, 128]⟩
abbrev S2097152x128 : Shape := ⟨2, ![2097152, 128]⟩
abbrev S4096x2 : Shape := ⟨2, ![4096, 2]⟩
abbrev S_ : Shape := ⟨0, ![]⟩
abbrev S2097152x1 : Shape := ⟨2, ![2097152, 1]⟩
abbrev S131072x1 : Shape := ⟨2, ![131072, 1]⟩
abbrev S3x1x128 : Shape := ⟨3, ![3, 1, 128]⟩
abbrev S1x128x128 : Shape := ⟨3, ![1, 128, 128]⟩
abbrev S128x128 : Shape := ⟨2, ![128, 128]⟩
abbrev S64 : Shape := ⟨1, ![64]⟩
abbrev S64x1 : Shape := ⟨2, ![64, 1]⟩
abbrev S64x32 : Shape := ⟨2, ![64, 32]⟩
abbrev S1x32 : Shape := ⟨2, ![1, 32]⟩
abbrev S64x160 : Shape := ⟨2, ![64, 160]⟩

abbrev nBuf : Space → Nat
  | .hbm => 144
  | .vmem => 30
  | .smem => 0
  | _ => 0

abbrev hbmTy0_0 (i : Nat) : BufTy := match i % 128 with
  | 0 => ⟨S131072x64, .f32⟩
  | 1 => ⟨S2097152x2, .f32⟩
  | 2 => ⟨S64x6, .f32⟩
  | 3 => ⟨S64x128, .f32⟩
  | 4 => ⟨S128, .f32⟩
  | 5 => ⟨S2x128, .f32⟩
  | 6 => ⟨S128, .f32⟩
  | 7 => ⟨S3x128x128, .f32⟩
  | 8 => ⟨S3x128, .f32⟩
  | 9 => ⟨S3x128, .f32⟩
  | 10 => ⟨S3x128, .f32⟩
  | 11 => ⟨S3x128, .f32⟩
  | 12 => ⟨S3x128, .f32⟩
  | 13 => ⟨S6x32, .f32⟩
  | 14 => ⟨S32, .f32⟩
  | 15 => ⟨S160x128, .f32⟩
  | 16 => ⟨S128, .f32⟩
  | 17 => ⟨S2097152, .i32⟩
  | 18 => ⟨S2097152, .i32⟩
  | 19 => ⟨S131072, .i32⟩
  | 20 => ⟨S1x128, .f32⟩
  | 21 => ⟨S131072x128, .f32⟩
  | 22 => ⟨S1x128, .f32⟩
  | 23 => ⟨S2097152x128, .f32⟩
  | 24 => ⟨S_, .f32⟩
  | 25 => ⟨S2097152, .f32⟩
  | 26 => ⟨S_, .f32⟩
  | 27 => ⟨S131072, .f32⟩
  | 28 => ⟨S2097152x1, .i32⟩
  | 29 => ⟨S131072, .f32⟩
  | 30 => ⟨S_, .f32⟩
  | 31 => ⟨S_, .f32⟩
  | 32 => ⟨S131072, .f32⟩
  | 33 => ⟨S131072, .f32⟩
  | 34 => ⟨S131072x1, .f32⟩
  | 35 => ⟨S_, .f32⟩
  | 36 => ⟨S3x128, .f32⟩
  | 37 => ⟨S3x128, .f32⟩
  | 38 => ⟨S3x128, .f32⟩
  | 39 => ⟨S3x128, .f32⟩
  | 40 => ⟨S3x1x128, .f32⟩
  | 41 => ⟨S3x128x128, .f32⟩
  | 42 => ⟨S3x128x128, .f32⟩
  | 43 => ⟨S3x128, .f32⟩
  | 44 => ⟨S3x128, .f32⟩
  | 45 => ⟨S3x128, .f32⟩
  | 46 => ⟨S_, .i32⟩
  | 47 => ⟨S2097152, .i32⟩
  | 48 => ⟨S2097152, .i1⟩
  | 49 => ⟨S_, .i32⟩
  | 50 => ⟨S2097152, .i32⟩
  | 51 => ⟨S2097152, .i32⟩
  | 52 => ⟨S2097152, .i32⟩
  | 53 => ⟨S2097152x1, .i32⟩
  | 54 => ⟨S2097152x128, .f32⟩
  | 55 => ⟨S2097152x128, .f32⟩
  | 56 => ⟨S_, .f32⟩
  | 57 => ⟨S131072x128, .f32⟩
  | 58 => ⟨S2097152x1, .i32⟩
  | 59 => ⟨S131072x128, .f32⟩
  | 60 => ⟨S131072x128, .f32⟩
  | 61 => ⟨S131072x128, .f32⟩
  | 62 => ⟨S131072x128, .f32⟩
  | 63 => ⟨S1x128x128, .f32⟩
  | 64 => ⟨S128x128, .f32⟩
  | 65 => ⟨S1x128, .f32⟩
  | 66 => ⟨S128, .f32⟩
  | 67 => ⟨S1x128, .f32⟩
  | 68 => ⟨S131072x128, .f32⟩
  | 69 => ⟨S_, .i32⟩
  | 70 => ⟨S2097152, .i32⟩
  | 71 => ⟨S2097152, .i1⟩
  | 72 => ⟨S_, .i32⟩
  | 73 => ⟨S2097152, .i32⟩
  | 74 => ⟨S2097152, .i32⟩
  | 75 => ⟨S2097152, .i32⟩
  | 76 => ⟨S2097152x1, .i32⟩
  | 77 => ⟨S2097152x128, .f32⟩
  | 78 => ⟨S2097152x128, .f32⟩
  | 79 => ⟨S_, .f32⟩
  | 80 => ⟨S131072x128, .f32⟩
  | 81 => ⟨S2097152x1, .i32⟩
  | 82 => ⟨S131072x128, .f32⟩
  | 83 => ⟨S131072x128, .f32⟩
  | 84 => ⟨S131072x128, .f32⟩
  | 85 => ⟨S131072x128, .f32⟩
  | 86 => ⟨S1x128x128, .f32⟩
  | 87 => ⟨S128x128, .f32⟩
  | 88 => ⟨S1x128, .f32⟩
  | 89 => ⟨S128, .f32⟩
  | 90 => ⟨S1x128, .f32⟩
  | 91 => ⟨S131072x128, .f32⟩
  | 92 => ⟨S_, .i32⟩
  | 93 => ⟨S2097152, .i32⟩
  | 94 => ⟨S2097152, .i1⟩
  | 95 => ⟨S_, .i32⟩
  | 96 => ⟨S2097152, .i32⟩
  | 97 => ⟨S2097152, .i32⟩
  | 98 => ⟨S2097152, .i32⟩
  | 99 => ⟨S2097152x1, .i32⟩
  | 100 => ⟨S2097152x128, .f32⟩
  | 101 => ⟨S2097152x128, .f32⟩
  | 102 => ⟨S_, .f32⟩
  | 103 => ⟨S131072x128, .f32⟩
  | 104 => ⟨S2097152x1, .i32⟩
  | 105 => ⟨S131072x128, .f32⟩
  | 106 => ⟨S131072x128, .f32⟩
  | 107 => ⟨S131072x128, .f32⟩
  | 108 => ⟨S131072x128, .f32⟩
  | 109 => ⟨S1x128x128, .f32⟩
  | 110 => ⟨S128x128, .f32⟩
  | 111 => ⟨S1x128, .f32⟩
  | 112 => ⟨S128, .f32⟩
  | 113 => ⟨S1x128, .f32⟩
  | 114 => ⟨S131072x128, .f32⟩
  | 115 => ⟨S_, .f32⟩
  | 116 => ⟨S64x128, .f32⟩
  | 117 => ⟨S131072x1, .i32⟩
  | 118 => ⟨S64x128, .f32⟩
  | 119 => ⟨S_, .f32⟩
  | 120 => ⟨S131072, .f32⟩
  | 121 => ⟨S_, .f32⟩
  | 122 => ⟨S64, .f32⟩
  | 123 => ⟨S131072x1, .i32⟩
  | 124 => ⟨S64, .f32⟩
  | 125 => ⟨S_, .f32⟩
  | 126 => ⟨S_, .f32⟩
  | 127 => ⟨S64, .f32⟩
  | _ => ⟨S131072x64, .f32⟩

abbrev hbmTy0_1 (i : Nat) : BufTy := match i % 128 with
  | 0 => ⟨S64, .f32⟩
  | 1 => ⟨S64x1, .f32⟩
  | 2 => ⟨S64x128, .f32⟩
  | 3 => ⟨S64x128, .f32⟩
  | 4 => ⟨S64x32, .f32⟩
  | 5 => ⟨S1x32, .f32⟩
  | 6 => ⟨S64x32, .f32⟩
  | 7 => ⟨S64x32, .f32⟩
  | 8 => ⟨S_, .f32⟩
  | 9 => ⟨S64x32, .f32⟩
  | 10 => ⟨S64x32, .f32⟩
  | 11 => ⟨S64x160, .f32⟩
  | 12 => ⟨S64x128, .f32⟩
  | 13 => ⟨S1x128, .f32⟩
  | 14 => ⟨S64x128, .f32⟩
  | 15 => ⟨S64x128, .f32⟩
  | _ => ⟨S131072x64, .f32⟩

abbrev hbmTy (i : Nat) : BufTy := match i / 128 with
  | 0 => hbmTy0_0 i
  | 1 => hbmTy0_1 i
  | _ => ⟨S131072x64, .f32⟩

abbrev bufTy : (tb : Table) → Fin (tcTables nBuf tb) → BufTy
  | .hbm, ⟨i, _⟩ => hbmTy i
  | .local _ .vmem, ⟨0, _⟩ => ⟨S4096x64, .f32⟩
  | .local _ .vmem, ⟨1, _⟩ => ⟨S4096x64, .f32⟩
  | .local _ .vmem, ⟨2, _⟩ => ⟨S64x128, .f32⟩
  | .local _ .vmem, ⟨3, _⟩ => ⟨S1x128, .f32⟩
  | .local _ .vmem, ⟨4, _⟩ => ⟨S4096x128, .f32⟩
  | .local _ .vmem, ⟨5, _⟩ => ⟨S4096x128, .f32⟩
  | .local _ .vmem, ⟨6, _⟩ => ⟨S4096x2, .f32⟩
  | .local _ .vmem, ⟨7, _⟩ => ⟨S4096x2, .f32⟩
  | .local _ .vmem, ⟨8, _⟩ => ⟨S2x128, .f32⟩
  | .local _ .vmem, ⟨9, _⟩ => ⟨S1x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S128x128, .f32⟩
  | .local _ .vmem, ⟨15, _⟩ => ⟨S1x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S128x128, .f32⟩
  | .local _ .vmem, ⟨21, _⟩ => ⟨S1x128, .f32⟩
  | .local _ .vmem, ⟨22, _⟩ => ⟨S4096x128, .f32⟩
  | .local _ .vmem, ⟨23, _⟩ => ⟨S4096x128, .f32⟩
  | .local _ .vmem, ⟨24, _⟩ => ⟨S4096x128, .f32⟩
  | .local _ .vmem, ⟨25, _⟩ => ⟨S4096x128, .f32⟩
  | .local _ .vmem, ⟨26, _⟩ => ⟨S128x128, .f32⟩
  | .local _ .vmem, ⟨27, _⟩ => ⟨S1x128, .f32⟩
  | .local _ .vmem, ⟨28, _⟩ => ⟨S4096x128, .f32⟩
  | .local _ .vmem, ⟨29, _⟩ => ⟨S4096x128, .f32⟩
  | _, _ => ⟨S131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_call0_v0 : Ref sig .tc := ⟨.hbm, 31, rfl⟩
abbrev main_call0_v1 : Ref sig .tc := ⟨.hbm, 32, rfl⟩
abbrev main_v8 : Ref sig .tc := ⟨.hbm, 33, rfl⟩
abbrev main_v9 : Ref sig .tc := ⟨.hbm, 34, rfl⟩
abbrev main_cst_2 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c : Ref sig .tc := ⟨.hbm, 46, rfl⟩
abbrev main_v20 : Ref sig .tc := ⟨.hbm, 47, rfl⟩
abbrev main_v21 : Ref sig .tc := ⟨.hbm, 48, rfl⟩
abbrev main_c_3 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_4 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_5 : Ref sig .tc := ⟨.hbm, 69, rfl⟩
abbrev main_v40 : Ref sig .tc := ⟨.hbm, 70, rfl⟩
abbrev main_v41 : Ref sig .tc := ⟨.hbm, 71, rfl⟩
abbrev main_c_6 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_7 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_c_8 : Ref sig .tc := ⟨.hbm, 92, rfl⟩
abbrev main_v60 : Ref sig .tc := ⟨.hbm, 93, rfl⟩
abbrev main_v61 : Ref sig .tc := ⟨.hbm, 94, rfl⟩
abbrev main_c_9 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_10 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_11 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_12 : Ref sig .tc := ⟨.hbm, 119, rfl⟩
abbrev main_v83 : Ref sig .tc := ⟨.hbm, 120, rfl⟩
abbrev main_cst_13 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_14 : Ref sig .tc := ⟨.hbm, 125, rfl⟩
abbrev main_call1_v0 : Ref sig .tc := ⟨.hbm, 126, rfl⟩
abbrev main_call1_v1 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_call2_cst : Ref sig .tc := ⟨.hbm, 136, rfl⟩
abbrev main_call2_v0 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![512], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4096x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4096x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4096x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S128_S1x128 : S128.ShapeCasts S1x128
  inb_S4096x64_S4096x64_0_0 : ∀ a, (![0, 0] : Fin 2 → Nat) a + S4096x64.size a ≤ S4096x64.size a
  h_S4096x64 : 0 < S4096x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  inb_S4096x2_S4096x2_0_0 : ∀ a, (![0, 0] : Fin 2 → Nat) a + S4096x2.size a ≤ S4096x2.size a
  h_S4096x2 : 0 < S4096x2.numel
  inb_S2x128_S2x128_0_0 : ∀ a, (![0, 0] : Fin 2 → Nat) a + S2x128.size a ≤ S2x128.size a
  h_S2x128 : 0 < S2x128.numel
  bcast_S_S2097152 : S_.BroadcastsInDim S2097152 (![] : Fin 0 → Fin S2097152.rank)
  bcast_S_S131072 : S_.BroadcastsInDim S131072 (![] : Fin 0 → Fin S131072.rank)
  bcast_S2097152_S2097152x1_0 : S2097152.BroadcastsInDim S2097152x1 (![0] : Fin 1 → Fin S2097152x1.rank)
  bcast_S131072_S131072x1_0 : S131072.BroadcastsInDim S131072x1 (![0] : Fin 1 → Fin S131072x1.rank)
  bcast_S_S3x128 : S_.BroadcastsInDim S3x128 (![] : Fin 0 → Fin S3x128.rank)
  bcast_S3x128_S3x1x128_0_2 : S3x128.BroadcastsInDim S3x1x128 (![0, 2] : Fin 2 → Fin S3x1x128.rank)
  bcast_S3x1x128_S3x128x128_0_1_2 : S3x1x128.BroadcastsInDim S3x128x128 (![0, 1, 2] : Fin 3 → Fin S3x128x128.rank)
  bcast_S_S131072x128 : S_.BroadcastsInDim S131072x128 (![] : Fin 0 → Fin S131072x128.rank)
  bcast_S131072x1_S131072x128_0_1 : S131072x1.BroadcastsInDim S131072x128 (![0, 1] : Fin 2 → Fin S131072x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  concatenates_S64x128_S64x32_S64x160_d1 : Shape.Concatenates [S64x128, S64x32] S64x160 1
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  dot_S4096x64_S64x128_S4096x128_1_0_0_1_n_n_wf : DotDims.WF S4096x64 S64x128 S4096x128 [1] [0] [0] [1] [] []
  dot_S4096x2_S2x128_S4096x128_1_0_0_1_n_n_wf : DotDims.WF S4096x2 S2x128 S4096x128 [1] [0] [0] [1] [] []
  scatter_S131072_S2097152x1_S2097152_n_0_0_1_wf : ScatterDims.WF S131072 S2097152x1 S2097152 [] [0] [0] 1
  gather_S131072x128_S2097152x1_S2097152x128_1_0_n_n_0_1_1128_wf : GatherDims.WF S131072x128 S2097152x1 S2097152x128 [1] [0] [] [0] [] 1 ![1, 128]
  scatter_S131072x128_S2097152x1_S2097152x128_1_0_0_1_wf : ScatterDims.WF S131072x128 S2097152x1 S2097152x128 [1] [0] [0] 1
  dot_S4096x128_S128x128_S4096x128_1_0_0_1_n_n_wf : DotDims.WF S4096x128 S128x128 S4096x128 [1] [0] [0] [1] [] []
  scatter_S64x128_S131072x1_S131072x128_1_0_0_1_wf : ScatterDims.WF S64x128 S131072x1 S131072x128 [1] [0] [0] 1
  scatter_S64_S131072x1_S131072_n_0_0_1_wf : ScatterDims.WF S64 S131072x1 S131072 [] [0] [0] 1
  dot_S64x6_S6x32_S64x32_1_0_0_1_n_n_wf : DotDims.WF S64x6 S6x32 S64x32 [1] [0] [0] [1] [] []
  dot_S64x160_S160x128_S64x128_1_0_0_1_n_n_wf : DotDims.WF S64x160 S160x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S131072x64.size a
  hwx0_0 : ∀ i : grid0.Coords, EltTy.bits .f32 = 32 ∨ (Rect.block (s := S131072x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S131072x128.size a
  hwx0_3 : ∀ i : grid0.Coords, EltTy.bits .f32 = 32 ∨ (Rect.block (s := S131072x128) S4096x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x2.size a ≤ S2097152x2.size a
  hwx1_0 : ∀ i : grid1.Coords, EltTy.bits .f32 = 32 ∨ (Rect.block (s := S2097152x2) S4096x2.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x128.size a ≤ S2x128.size a
  hwx1_1 : ∀ i : grid1.Coords, EltTy.bits .f32 = 32 ∨ (Rect.block (s := S2x128) S2x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x128.size a ≤ S2097152x128.size a
  hwx1_3 : ∀ i : grid1.Coords, EltTy.bits .f32 = 32 ∨ (Rect.block (s := S2097152x128) S4096x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S131072x128.size a
  hwx2_0 : ∀ i : grid2.Coords, EltTy.bits .f32 = 32 ∨ (Rect.block (s := S131072x128) S4096x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x128.size a ≤ S131072x128.size a
  hwx2_3 : ∀ i : grid2.Coords, EltTy.bits .f32 = 32 ∨ (Rect.block (s := S131072x128) S4096x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x128.size a ≤ S131072x128.size a
  hwx3_0 : ∀ i : grid3.Coords, EltTy.bits .f32 = 32 ∨ (Rect.block (s := S131072x128) S4096x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4096x128.size a ≤ S131072x128.size a
  hwx3_3 : ∀ i : grid3.Coords, EltTy.bits .f32 = 32 ∨ (Rect.block (s := S131072x128) S4096x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x128.size a ≤ S131072x128.size a
  hwx4_0 : ∀ i : grid4.Coords, EltTy.bits .f32 = 32 ∨ (Rect.block (s := S131072x128) S4096x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4096x128.size a ≤ S131072x128.size a
  hwx4_3 : ∀ i : grid4.Coords, EltTy.bits .f32 = 32 ∨ (Rect.block (s := S131072x128) S4096x128.size (cc4_transform_3 i) (hinb4_3 i)).WholeWords (EltTy.packing .f32)

variable [Facts₀]

def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x2_S2x128_S4096x128_1_0_0_1_n_n : DotDims S4096x2 S2x128 S4096x128 where
  lhsContracting := [1]
  rhsContracting := [0]
  lhsNonContracting := [0]
  rhsNonContracting := [1]
  lhsBatch := []
  rhsBatch := []
  wf := dot_S4096x2_S2x128_S4096x128_1_0_0_1_n_n_wf
def scatter_S131072_S2097152x1_S2097152_n_0_0_1 : ScatterDims S131072 S2097152x1 S2097152 where
  updateWindowDims := []
  insertedWindowDims := [0]
  scatterDimsToOperandDims := [0]
  indexVectorDim := 1
  wf := scatter_S131072_S2097152x1_S2097152_n_0_0_1_wf
def gather_S131072x128_S2097152x1_S2097152x128_1_0_n_n_0_1_1128 : GatherDims S131072x128 S2097152x1 S2097152x128 where
  offsetDims := [1]
  collapsedSliceDims := [0]
  operandBatchingDims := []
  startIndicesBatchingDims := []
  startIndexMap := [0]
  indexVectorDim := 1
  sliceSizes := ![1, 128]
  wf := gather_S131072x128_S2097152x1_S2097152x128_1_0_n_n_0_1_1128_wf
def scatter_S131072x128_S2097152x1_S2097152x128_1_0_0_1 : ScatterDims S131072x128 S2097152x1 S2097152x128 where
  updateWindowDims := [1]
  insertedWindowDims := [0]
  scatterDimsToOperandDims := [0]
  indexVectorDim := 1
  wf := scatter_S131072x128_S2097152x1_S2097152x128_1_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def scatter_S64x128_S131072x1_S131072x128_1_0_0_1 : ScatterDims S64x128 S131072x1 S131072x128 where
  updateWindowDims := [1]
  insertedWindowDims := [0]
  scatterDimsToOperandDims := [0]
  indexVectorDim := 1
  wf := scatter_S64x128_S131072x1_S131072x128_1_0_0_1_wf
def scatter_S64_S131072x1_S131072_n_0_0_1 : ScatterDims S64 S131072x1 S131072 where
  updateWindowDims := []
  insertedWindowDims := [0]
  scatterDimsToOperandDims := [0]
  indexVectorDim := 1
  wf := scatter_S64_S131072x1_S131072_n_0_0_1_wf
def dot_S64x6_S6x32_S64x32_1_0_0_1_n_n : DotDims S64x6 S6x32 S64x32 where
  lhsContracting := [1]
  rhsContracting := [0]
  lhsNonContracting := [0]
  rhsNonContracting := [1]
  lhsBatch := []
  rhsBatch := []
  wf := dot_S64x6_S6x32_S64x32_1_0_0_1_n_n_wf
def dot_S64x160_S160x128_S64x128_1_0_0_1_n_n : DotDims S64x160 S160x128 S64x128 where
  lhsContracting := [1]
  rhsContracting := [0]
  lhsNonContracting := [0]
  rhsNonContracting := [1]
  lhsBatch := []
  rhsBatch := []
  wf := dot_S64x160_S160x128_S64x128_1_0_0_1_n_n_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S4096x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S2x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S4096x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v33) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S4096x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v53) S4096x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v59) S4096x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v73) S4096x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v75) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v78) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v79) S4096x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S131072x64 : Shape := ⟨2, ![131072, 64]⟩
abbrev S2097152x2 : Shape := ⟨2, ![2097152, 2]⟩
abbrev S64x6 : Shape := ⟨2, ![64, 6]⟩
abbrev S64x128 : Shape := ⟨2, ![64, 128]⟩
abbrev S128 : Shape := ⟨1, ![128]⟩
abbrev S2x128 : Shape := ⟨2, ![2, 128]⟩
abbrev S3x128x128 : Shape := ⟨3, ![3, 128, 128]⟩
abbrev S3x128 : Shape := ⟨2, ![3, 128]⟩
abbrev S6x32 : Shape := ⟨2, ![6, 32]⟩
abbrev S32 : Shape := ⟨1, ![32]⟩
abbrev S160x128 : Shape := ⟨2, ![160, 128]⟩
abbrev S2097152 : Shape := ⟨1, ![2097152]⟩
abbrev S131072 : Shape := ⟨1, ![131072]⟩
abbrev S131072x128 : Shape := ⟨2, ![131072, 128]⟩
abbrev S1x128 : Shape := ⟨2, ![1, 128]⟩
abbrev S2097152x128 : Shape := ⟨2, ![2097152, 128]⟩
abbrev S_ : Shape := ⟨0, ![]⟩
abbrev S2097152x1 : Shape := ⟨2, ![2097152, 1]⟩
abbrev S131072x1 : Shape := ⟨2, ![131072, 1]⟩
abbrev S1x128x128 : Shape := ⟨3, ![1, 128, 128]⟩
abbrev S128x128 : Shape := ⟨2, ![128, 128]⟩
abbrev S64 : Shape := ⟨1, ![64]⟩
abbrev S64x1 : Shape := ⟨2, ![64, 1]⟩
abbrev S64x32 : Shape := ⟨2, ![64, 32]⟩
abbrev S1x32 : Shape := ⟨2, ![1, 32]⟩
abbrev S64x160 : Shape := ⟨2, ![64, 160]⟩

abbrev nBuf : Space → Nat
  | .hbm => 218
  | .vmem => 0
  | .smem => 0
  | _ => 0

abbrev hbmTy0_0 (i : Nat) : BufTy := match i % 128 with
  | 0 => ⟨S131072x64, .f32⟩
  | 1 => ⟨S2097152x2, .f32⟩
  | 2 => ⟨S64x6, .f32⟩
  | 3 => ⟨S64x128, .f32⟩
  | 4 => ⟨S128, .f32⟩
  | 5 => ⟨S2x128, .f32⟩
  | 6 => ⟨S128, .f32⟩
  | 7 => ⟨S3x128x128, .f32⟩
  | 8 => ⟨S3x128, .f32⟩
  | 9 => ⟨S3x128, .f32⟩
  | 10 => ⟨S3x128, .f32⟩
  | 11 => ⟨S3x128, .f32⟩
  | 12 => ⟨S3x128, .f32⟩
  | 13 => ⟨S6x32, .f32⟩
  | 14 => ⟨S32, .f32⟩
  | 15 => ⟨S160x128, .f32⟩
  | 16 => ⟨S128, .f32⟩
  | 17 => ⟨S2097152, .i32⟩
  | 18 => ⟨S2097152, .i32⟩
  | 19 => ⟨S131072, .i32⟩
  | 20 => ⟨S131072x128, .f32⟩
  | 21 => ⟨S1x128, .f32⟩
  | 22 => ⟨S131072x128, .f32⟩
  | 23 => ⟨S131072x128, .f32⟩
  | 24 => ⟨S2097152x128, .f32⟩
  | 25 => ⟨S1x128, .f32⟩
  | 26 => ⟨S2097152x128, .f32⟩
  | 27 => ⟨S2097152x128, .f32⟩
  | 28 => ⟨S_, .f32⟩
  | 29 => ⟨S2097152, .f32⟩
  | 30 => ⟨S_, .f32⟩
  | 31 => ⟨S131072, .f32⟩
  | 32 => ⟨S2097152x1, .i32⟩
  | 33 => ⟨S131072, .f32⟩
  | 34 => ⟨S_, .f32⟩
  | 35 => ⟨S_, .f32⟩
  | 36 => ⟨S131072, .f32⟩
  | 37 => ⟨S131072, .f32⟩
  | 38 => ⟨S131072x1, .f32⟩
  | 39 => ⟨S_, .i32⟩
  | 40 => ⟨S2097152, .i32⟩
  | 41 => ⟨S2097152, .i1⟩
  | 42 => ⟨S_, .i32⟩
  | 43 => ⟨S2097152, .i32⟩
  | 44 => ⟨S2097152, .i32⟩
  | 45 => ⟨S2097152, .i32⟩
  | 46 => ⟨S2097152x1, .i32⟩
  | 47 => ⟨S2097152x128, .f32⟩
  | 48 => ⟨S2097152x128, .f32⟩
  | 49 => ⟨S_, .f32⟩
  | 50 => ⟨S131072x128, .f32⟩
  | 51 => ⟨S2097152x1, .i32⟩
  | 52 => ⟨S131072x128, .f32⟩
  | 53 => ⟨S131072x128, .f32⟩
  | 54 => ⟨S131072x128, .f32⟩
  | 55 => ⟨S131072x128, .f32⟩
  | 56 => ⟨S1x128x128, .f32⟩
  | 57 => ⟨S128x128, .f32⟩
  | 58 => ⟨S131072x128, .f32⟩
  | 59 => ⟨S1x128, .f32⟩
  | 60 => ⟨S128, .f32⟩
  | 61 => ⟨S1x128, .f32⟩
  | 62 => ⟨S131072x128, .f32⟩
  | 63 => ⟨S131072x128, .f32⟩
  | 64 => ⟨S1x128, .f32⟩
  | 65 => ⟨S128, .f32⟩
  | 66 => ⟨S1x128, .f32⟩
  | 67 => ⟨S131072x128, .f32⟩
  | 68 => ⟨S131072x128, .f32⟩
  | 69 => ⟨S1x128, .f32⟩
  | 70 => ⟨S128, .f32⟩
  | 71 => ⟨S1x128, .f32⟩
  | 72 => ⟨S128, .f32⟩
  | 73 => ⟨S_, .f32⟩
  | 74 => ⟨S128, .f32⟩
  | 75 => ⟨S128, .f32⟩
  | 76 => ⟨S128, .f32⟩
  | 77 => ⟨S128, .f32⟩
  | 78 => ⟨S1x128, .f32⟩
  | 79 => ⟨S131072x128, .f32⟩
  | 80 => ⟨S131072x128, .f32⟩
  | 81 => ⟨S1x128, .f32⟩
  | 82 => ⟨S128, .f32⟩
  | 83 => ⟨S1x128, .f32⟩
  | 84 => ⟨S131072x128, .f32⟩
  | 85 => ⟨S131072x128, .f32⟩
  | 86 => ⟨S_, .f32⟩
  | 87 => ⟨S131072x128, .f32⟩
  | 88 => ⟨S131072x128, .f32⟩
  | 89 => ⟨S_, .i32⟩
  | 90 => ⟨S2097152, .i32⟩
  | 91 => ⟨S2097152, .i1⟩
  | 92 => ⟨S_, .i32⟩
  | 93 => ⟨S2097152, .i32⟩
  | 94 => ⟨S2097152, .i32⟩
  | 95 => ⟨S2097152, .i32⟩
  | 96 => ⟨S2097152x1, .i32⟩
  | 97 => ⟨S2097152x128, .f32⟩
  | 98 => ⟨S2097152x128, .f32⟩
  | 99 => ⟨S_, .f32⟩
  | 100 => ⟨S131072x128, .f32⟩
  | 101 => ⟨S2097152x1, .i32⟩
  | 102 => ⟨S131072x128, .f32⟩
  | 103 => ⟨S131072x128, .f32⟩
  | 104 => ⟨S131072x128, .f32⟩
  | 105 => ⟨S131072x128, .f32⟩
  | 106 => ⟨S1x128x128, .f32⟩
  | 107 => ⟨S128x128, .f32⟩
  | 108 => ⟨S131072x128, .f32⟩
  | 109 => ⟨S1x128, .f32⟩
  | 110 => ⟨S128, .f32⟩
  | 111 => ⟨S1x128, .f32⟩
  | 112 => ⟨S131072x128, .f32⟩
  | 113 => ⟨S131072x128, .f32⟩
  | 114 => ⟨S1x128, .f32⟩
  | 115 => ⟨S128, .f32⟩
  | 116 => ⟨S1x128, .f32⟩
  | 117 => ⟨S131072x128, .f32⟩
  | 118 => ⟨S131072x128, .f32⟩
  | 119 => ⟨S1x128, .f32⟩
  | 120 => ⟨S128, .f32⟩
  | 121 => ⟨S1x128, .f32⟩
  | 122 => ⟨S128, .f32⟩
  | 123 => ⟨S_, .f32⟩
  | 124 => ⟨S128, .f32⟩
  | 125 => ⟨S128, .f32⟩
  | 126 => ⟨S128, .f32⟩
  | 127 => ⟨S128, .f32⟩
  | _ => ⟨S131072x64, .f32⟩

abbrev hbmTy0_1 (i : Nat) : BufTy := match i % 128 with
  | 0 => ⟨S1x128, .f32⟩
  | 1 => ⟨S131072x128, .f32⟩
  | 2 => ⟨S131072x128, .f32⟩
  | 3 => ⟨S1x128, .f32⟩
  | 4 => ⟨S128, .f32⟩
  | 5 => ⟨S1x128, .f32⟩
  | 6 => ⟨S131072x128, .f32⟩
  | 7 => ⟨S131072x128, .f32⟩
  | 8 => ⟨S_, .f32⟩
  | 9 => ⟨S131072x128, .f32⟩
  | 10 => ⟨S131072x128, .f32⟩
  | 11 => ⟨S_, .i32⟩
  | 12 => ⟨S2097152, .i32⟩
  | 13 => ⟨S2097152, .i1⟩
  | 14 => ⟨S_, .i32⟩
  | 15 => ⟨S2097152, .i32⟩
  | 16 => ⟨S2097152, .i32⟩
  | 17 => ⟨S2097152, .i32⟩
  | 18 => ⟨S2097152x1, .i32⟩
  | 19 => ⟨S2097152x128, .f32⟩
  | 20 => ⟨S2097152x128, .f32⟩
  | 21 => ⟨S_, .f32⟩
  | 22 => ⟨S131072x128, .f32⟩
  | 23 => ⟨S2097152x1, .i32⟩
  | 24 => ⟨S131072x128, .f32⟩
  | 25 => ⟨S131072x128, .f32⟩
  | 26 => ⟨S131072x128, .f32⟩
  | 27 => ⟨S131072x128, .f32⟩
  | 28 => ⟨S1x128x128, .f32⟩
  | 29 => ⟨S128x128, .f32⟩
  | 30 => ⟨S131072x128, .f32⟩
  | 31 => ⟨S1x128, .f32⟩
  | 32 => ⟨S128, .f32⟩
  | 33 => ⟨S1x128, .f32⟩
  | 34 => ⟨S131072x128, .f32⟩
  | 35 => ⟨S131072x128, .f32⟩
  | 36 => ⟨S1x128, .f32⟩
  | 37 => ⟨S128, .f32⟩
  | 38 => ⟨S1x128, .f32⟩
  | 39 => ⟨S131072x128, .f32⟩
  | 40 => ⟨S131072x128, .f32⟩
  | 41 => ⟨S1x128, .f32⟩
  | 42 => ⟨S128, .f32⟩
  | 43 => ⟨S1x128, .f32⟩
  | 44 => ⟨S128, .f32⟩
  | 45 => ⟨S_, .f32⟩
  | 46 => ⟨S128, .f32⟩
  | 47 => ⟨S128, .f32⟩
  | 48 => ⟨S128, .f32⟩
  | 49 => ⟨S128, .f32⟩
  | 50 => ⟨S1x128, .f32⟩
  | 51 => ⟨S131072x128, .f32⟩
  | 52 => ⟨S131072x128, .f32⟩
  | 53 => ⟨S1x128, .f32⟩
  | 54 => ⟨S128, .f32⟩
  | 55 => ⟨S1x128, .f32⟩
  | 56 => ⟨S131072x128, .f32⟩
  | 57 => ⟨S131072x128, .f32⟩
  | 58 => ⟨S_, .f32⟩
  | 59 => ⟨S131072x128, .f32⟩
  | 60 => ⟨S131072x128, .f32⟩
  | 61 => ⟨S_, .f32⟩
  | 62 => ⟨S64x128, .f32⟩
  | 63 => ⟨S131072x1, .i32⟩
  | 64 => ⟨S64x128, .f32⟩
  | 65 => ⟨S_, .f32⟩
  | 66 => ⟨S131072, .f32⟩
  | 67 => ⟨S_, .f32⟩
  | 68 => ⟨S64, .f32⟩
  | 69 => ⟨S131072x1, .i32⟩
  | 70 => ⟨S64, .f32⟩
  | 71 => ⟨S_, .f32⟩
  | 72 => ⟨S_, .f32⟩
  | 73 => ⟨S64, .f32⟩
  | 74 => ⟨S64, .f32⟩
  | 75 => ⟨S64x1, .f32⟩
  | 76 => ⟨S64x128, .f32⟩
  | 77 => ⟨S64x128, .f32⟩
  | 78 => ⟨S64x32, .f32⟩
  | 79 => ⟨S1x32, .f32⟩
  | 80 => ⟨S64x32, .f32⟩
  | 81 => ⟨S64x32, .f32⟩
  | 82 => ⟨S_, .f32⟩
  | 83 => ⟨S64x32, .f32⟩
  | 84 => ⟨S64x32, .f32⟩
  | 85 => ⟨S64x160, .f32⟩
  | 86 => ⟨S64x128, .f32⟩
  | 87 => ⟨S1x128, .f32⟩
  | 88 => ⟨S64x128, .f32⟩
  | 89 => ⟨S64x128, .f32⟩
  | _ => ⟨S131072x64, .f32⟩

abbrev hbmTy (i : Nat) : BufTy := match i / 128 with
  | 0 => hbmTy0_0 i
  | 1 => hbmTy0_1 i
  | _ => ⟨S131072x64, .f32⟩

abbrev bufTy : (tb : Table) → Fin (tcTables nBuf tb) → BufTy
  | .hbm, ⟨i, _⟩ => hbmTy i
  | _, _ => ⟨S131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_cst_0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_1 : Ref sig .tc := ⟨.hbm, 34, rfl⟩
abbrev main_call0_v0 : Ref sig .tc := ⟨.hbm, 35, rfl⟩
abbrev main_call0_v1 : Ref sig .tc := ⟨.hbm, 36, rfl⟩
abbrev main_v12 : Ref sig .tc := ⟨.hbm, 37, rfl⟩
abbrev main_v13 : Ref sig .tc := ⟨.hbm, 38, rfl⟩
abbrev main_c : Ref sig .tc := ⟨.hbm, 39, rfl⟩
abbrev main_v14 : Ref sig .tc := ⟨.hbm, 40, rfl⟩
abbrev main_v15 : Ref sig .tc := ⟨.hbm, 41, rfl⟩
abbrev main_c_2 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_3 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_4 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_call1_cst : Ref sig .tc := ⟨.hbm, 86, rfl⟩
abbrev main_call1_v0 : Ref sig .tc := ⟨.hbm, 87, rfl⟩
abbrev main_v57 : Ref sig .tc := ⟨.hbm, 88, rfl⟩
abbrev main_c_5 : Ref sig .tc := ⟨.hbm, 89, rfl⟩
abbrev main_v58 : Ref sig .tc := ⟨.hbm, 90, rfl⟩
abbrev main_v59 : Ref sig .tc := ⟨.hbm, 91, rfl⟩
abbrev main_c_6 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_7 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_8 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_call2_cst : Ref sig .tc := ⟨.hbm, 136, rfl⟩
abbrev main_call2_v0 : Ref sig .tc := ⟨.hbm, 137, rfl⟩
abbrev main_v101 : Ref sig .tc := ⟨.hbm, 138, rfl⟩
abbrev main_c_9 : Ref sig .tc := ⟨.hbm, 139, rfl⟩
abbrev main_v102 : Ref sig .tc := ⟨.hbm, 140, rfl⟩
abbrev main_v103 : Ref sig .tc := ⟨.hbm, 141, rfl⟩
abbrev main_c_10 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_11 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_cst_12 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_call3_cst : Ref sig .tc := ⟨.hbm, 186, rfl⟩
abbrev main_call3_v0 : Ref sig .tc := ⟨.hbm, 187, rfl⟩
abbrev main_v145 : Ref sig .tc := ⟨.hbm, 188, rfl⟩
abbrev main_cst_13 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_cst_14 : Ref sig .tc := ⟨.hbm, 193, rfl⟩
abbrev main_v149 : Ref sig .tc := ⟨.hbm, 194, rfl⟩
abbrev main_cst_15 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_cst_16 : Ref sig .tc := ⟨.hbm, 199, rfl⟩
abbrev main_call4_v0 : Ref sig .tc := ⟨.hbm, 200, rfl⟩
abbrev main_call4_v1 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_call5_cst : Ref sig .tc := ⟨.hbm, 210, rfl⟩
abbrev main_call5_v0 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S1x128_S2097152x128_0_1 : S1x128.BroadcastsInDim S2097152x128 (![0, 1] : Fin 2 → Fin S2097152x128.rank)
  bcast_S_S2097152 : S_.BroadcastsInDim S2097152 (![] : Fin 0 → Fin S2097152.rank)
  bcast_S_S131072 : S_.BroadcastsInDim S131072 (![] : Fin 0 → Fin S131072.rank)
  bcast_S2097152_S2097152x1_0 : S2097152.BroadcastsInDim S2097152x1 (![0] : Fin 1 → Fin S2097152x1.rank)
  bcast_S131072_S131072x1_0 : S131072.BroadcastsInDim S131072x1 (![0] : Fin 1 → Fin S131072x1.rank)
  bcast_S_S131072x128 : S_.BroadcastsInDim S131072x128 (![] : Fin 0 → Fin S131072x128.rank)
  bcast_S131072x1_S131072x128_0_1 : S131072x1.BroadcastsInDim S131072x128 (![0, 1] : Fin 2 → Fin S131072x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  concatenates_S64x128_S64x32_S64x160_d1 : Shape.Concatenates [S64x128, S64x32] S64x160 1
  bcast_S1x128_S64x128_0_1 : S1x128.BroadcastsInDim S64x128 (![0, 1] : Fin 2 → Fin S64x128.rank)
  dot_S131072x64_S64x128_S131072x128_1_0_0_1_n_n_wf : DotDims.WF S131072x64 S64x128 S131072x128 [1] [0] [0] [1] [] []
  dot_S2097152x2_S2x128_S2097152x128_1_0_0_1_n_n_wf : DotDims.WF S2097152x2 S2x128 S2097152x128 [1] [0] [0] [1] [] []
  scatter_S131072_S2097152x1_S2097152_n_0_0_1_wf : ScatterDims.WF S131072 S2097152x1 S2097152 [] [0] [0] 1
  gather_S131072x128_S2097152x1_S2097152x128_1_0_n_n_0_1_1128_wf : GatherDims.WF S131072x128 S2097152x1 S2097152x128 [1] [0] [] [0] [] 1 ![1, 128]
  scatter_S131072x128_S2097152x1_S2097152x128_1_0_0_1_wf : ScatterDims.WF S131072x128 S2097152x1 S2097152x128 [1] [0] [0] 1
  dot_S131072x128_S128x128_S131072x128_1_0_0_1_n_n_wf : DotDims.WF S131072x128 S128x128 S131072x128 [1] [0] [0] [1] [] []
  scatter_S64x128_S131072x1_S131072x128_1_0_0_1_wf : ScatterDims.WF S64x128 S131072x1 S131072x128 [1] [0] [0] 1
  scatter_S64_S131072x1_S131072_n_0_0_1_wf : ScatterDims.WF S64 S131072x1 S131072 [] [0] [0] 1
  dot_S64x6_S6x32_S64x32_1_0_0_1_n_n_wf : DotDims.WF S64x6 S6x32 S64x32 [1] [0] [0] [1] [] []
  dot_S64x160_S160x128_S64x128_1_0_0_1_n_n_wf : DotDims.WF S64x160 S160x128 S64x128 [1] [0] [0] [1] [] []

variable [Facts₀]

def dot_S131072x64_S64x128_S131072x128_1_0_0_1_n_n : DotDims S131072x64 S64x128 S131072x128 where
  lhsContracting := [1]
  rhsContracting := [0]
  lhsNonContracting := [0]
  rhsNonContracting := [1]
  lhsBatch := []
  rhsBatch := []
  wf := dot_S131072x64_S64x128_S131072x128_1_0_0_1_n_n_wf
def dot_S2097152x2_S2x128_S2097152x128_1_0_0_1_n_n : DotDims S2097152x2 S2x128 S2097152x128 where
  lhsContracting := [1]
  rhsContracting := [0]
  lhsNonContracting := [0]
  rhsNonContracting := [1]
  lhsBatch := []
  rhsBatch := []
  wf := dot_S2097152x2_S2x128_S2097152x128_1_0_0_1_n_n_wf
def scatter_S131072_S2097152x1_S2097152_n_0_0_1 : ScatterDims S131072 S2097152x1 S2097152 where
  updateWindowDims := []
  insertedWindowDims := [0]
  scatterDimsToOperandDims := [0]
  indexVectorDim := 1
  wf := scatter_S131072_S2097152x1_S2097152_n_0_0_1_wf
def gather_S131072x128_S2097152x1_S2097152x128_1_0_n_n_0_1_1128 : GatherDims S131072x128 S2097152x1 S2097152x128 where
  offsetDims := [1]
  collapsedSliceDims := [0]
  operandBatchingDims := []
  startIndicesBatchingDims := []
  startIndexMap := [0]
  indexVectorDim := 1
  sliceSizes := ![1, 128]
  wf := gather_S131072x128_S2097152x1_S2097152x128_1_0_n_n_0_1_1128_wf
def scatter_S131072x128_S2097152x1_S2097152x128_1_0_0_1 : ScatterDims S131072x128 S2097152x1 S2097152x128 where
  updateWindowDims := [1]
  insertedWindowDims := [0]
  scatterDimsToOperandDims := [0]
  indexVectorDim := 1
  wf := scatter_S131072x128_S2097152x1_S2097152x128_1_0_0_1_wf
def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf
def scatter_S64x128_S131072x1_S131072x128_1_0_0_1 : ScatterDims S64x128 S131072x1 S131072x128 where
  updateWindowDims := [1]
  insertedWindowDims := [0]
  scatterDimsToOperandDims := [0]
  indexVectorDim := 1
  wf := scatter_S64x128_S131072x1_S131072x128_1_0_0_1_wf
def scatter_S64_S131072x1_S131072_n_0_0_1 : ScatterDims S64 S131072x1 S131072 where
  updateWindowDims := []
  insertedWindowDims := [0]
  scatterDimsToOperandDims := [0]
  indexVectorDim := 1
  wf := scatter_S64_S131072x1_S131072_n_0_0_1_wf
def dot_S64x6_S6x32_S64x32_1_0_0_1_n_n : DotDims S64x6 S6x32 S64x32 where
  lhsContracting := [1]
  rhsContracting := [0]
  lhsNonContracting := [0]
  rhsNonContracting := [1]
  lhsBatch := []
  rhsBatch := []
  wf := dot_S64x6_S6x32_S64x32_1_0_0_1_n_n_wf
def dot_S64x160_S160x128_S64x128_1_0_0_1_n_n : DotDims S64x160 S160x128 S64x128 where
  lhsContracting := [1]
  rhsContracting := [0]
  lhsNonContracting := [0]
  rhsNonContracting := [1]
  lhsBatch := []
  rhsBatch := []
  wf := dot_S64x160_S160x128_S64x128_1_0_0_1_n_n_wf

class Facts : Prop extends Facts₀ where

variable [Facts]
-- ==== Proof.KernelRun.lean ====
/-
  The kernel program's run with its result named.

  Every weakly fair execution of the host program with its five kernel launches terminates without a fault;
  at the end the result buffer holds the last boundary's contents `W17 m ρ c` (the fold of the host stretches
  and the regions' write-backs from the launch memory) and the twenty argument arrays are unchanged. This is the
  launch over the program's seventeen segments, read at one more buffer than the frame claim reads.
-/
import proofs.«111450_j42666205118859_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v100) = W17 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v100 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c),
       (h c _ (mem_uc main_arg14 (by decide))).trans (W17_main_arg14 m ρ c),
       (h c _ (mem_uc main_arg15 (by decide))).trans (W17_main_arg15 m ρ c),
       (h c _ (mem_uc main_arg16 (by decide))).trans (W17_main_arg16 m ρ c),
       (h c _ (mem_uc main_arg17 (by decide))).trans (W17_main_arg17 m ρ c),
       (h c _ (mem_uc main_arg18 (by decide))).trans (W17_main_arg18 m ρ c),
       (h c _ (mem_uc main_arg19 (by decide))).trans (W17_main_arg19 m ρ c)⟩)

end Cert.KernelIdeal.ValueRun

end
-- ==== Proof.LibTypedRef.lean ====
/-
  A typed reference's transports cancel.

  A typed reference pairs a buffer with a proof that the buffer's declared type is a given one; a host operation built
  over typed references carries its operands from the buffers' types to the given types and its result back, along
  those equations.  Carrying a value to the buffer's type and back again is the identity, whatever proof of the equation
  the reference holds — so a chain of such operations, each reading what the one before wrote, composes to the plain
  composition of their functions.
-/
import Idealize.ShloMosaic.Lib.StableHlo

namespace Idealize.ShloMosaic.StableHlo.TRef

variable {sig : RefSig} {Val : EltTy → Type} {T : BufTy}

/-- To the buffer's type and back. -/
theorem ofBuf_toBuf (x : TRef sig T) (v : T.Contents Val) : x.ofBuf (x.toBuf v) = v := by
  obtain ⟨r, rfl, _, _⟩ := x
  rfl

/-- From the buffer's type and back. -/
theorem toBuf_ofBuf (x : TRef sig T) (v : x.ref.ty.Contents Val) : x.toBuf (x.ofBuf v) = v := by
  obtain ⟨r, rfl, _, _⟩ := x
  rfl

end Idealize.ShloMosaic.StableHlo.TRef
-- ==== Proof.RefRun.lean ====
/-
  The reference program's run. Its @main is a straight line of 198 host operations (the list `ops` of RefOps), so every
  weakly fair execution terminates with each buffer at the fold of the operations' results over the launch contents.
  Read at the result buffer, that fold is the operations' composed term of the arguments (the outlined clip and rectifier
  functions carry their operands to the buffers' declared types and back: those paired transports cancel first); read at an
  argument buffer it is the launch contents, since no operation writes an argument. One lemma per buffer, so that
  the twenty-one readings are checked side by side.
-/
import proofs.«111450_j42666205118859_2_alg».proof.Proof.RefOps
import proofs.«111450_j42666205118859_2_alg».proof.Proof.LibTypedRef
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-! ## No operation writes an argument -/

set_option maxRecDepth 8192 in
set_option maxHeartbeats 8000000 in
theorem kept_arg0 (V : Valuation τ sig (Elt F)) :
    after (ops (F := F)) V (Proc.devRef .tc main_arg0) = V (Proc.devRef .tc main_arg0) := by
  after_results_simp <;> rfl
set_option maxRecDepth 8192 in
set_option maxHeartbeats 8000000 in
theorem kept_arg1 (V : Valuation τ sig (Elt F)) :
    after (ops (F := F)) V (Proc.devRef .tc main_arg1) = V (Proc.devRef .tc main_arg1) := by
  after_results_simp <;> rfl
set_option maxRecDepth 8192 in
set_option maxHeartbeats 8000000 in
theorem kept_arg2 (V : Valuation τ sig (Elt F)) :
    after (ops (F := F)) V (Proc.devRef .tc main_arg2) = V (Proc.devRef .tc main_arg2) := by
  after_results_simp <;> rfl
set_option maxRecDepth 8192 in
set_option maxHeartbeats 8000000 in
theorem kept_arg3 (V : Valuation τ sig (Elt F)) :
    after (ops (F := F)) V (Proc.devRef .tc main_arg3) = V (Proc.devRef .tc main_arg3) := by
  after_results_simp <;> rfl
set_option maxRecDepth 8192 in
set_option maxHeartbeats 8000000 in
theorem kept_arg4 (V : Valuation τ sig (Elt F)) :
    after (ops (F := F)) V (Proc.devRef .tc main_arg4) = V (Proc.devRef .tc main_arg4) := by
  after_results_simp <;> rfl
set_option maxRecDepth 8192 in
set_option maxHeartbeats 8000000 in
theorem kept_arg5 (V : Valuation τ sig (Elt F)) :
    after (ops (F := F)) V (Proc.devRef .tc main_arg5) = V (Proc.devRef .tc main_arg5) := by
  after_results_simp <;> rfl
set_option maxRecDepth 8192 in
set_option maxHeartbeats 8000000 in
theorem kept_arg6 (V : Valuation τ sig (Elt F)) :
    after (ops (F := F)) V (Proc.devRef .tc main_arg6) = V (Proc.devRef .tc main_arg6) := by
  after_results_simp <;> rfl
set_option maxRecDepth 8192 in
set_option maxHeartbeats 8000000 in
theorem kept_arg7 (V : Valuation τ sig (Elt F)) :
    after (ops (F := F)) V (Proc.devRef .tc main_arg7) = V (Proc.devRef .tc main_arg7) := by
  after_results_simp <;> rfl
set_option maxRecDepth 8192 in
set_option maxHeartbeats 8000000 in
theorem kept_arg8 (V : Valuation τ sig (Elt F)) :
    after (ops (F := F)) V (Proc.devRef .tc main_arg8) = V (Proc.devRef .tc main_arg8) := by
  after_results_simp <;> rfl
set_option maxRecDepth 8192 in
set_option maxHeartbeats 8000000 in
theorem kept_arg9 (V : Valuation τ sig (Elt F)) :
    after (ops (F := F)) V (Proc.devRef .tc main_arg9) = V (Proc.devRef .tc main_arg9) := by
  after_results_simp <;> rfl
set_option maxRecDepth 8192 in
set_option maxHeartbeats 8000000 in
theorem kept_arg10 (V : Valuation τ sig (Elt F)) :
    after (ops (F := F)) V (Proc.devRef .tc main_arg10) = V (Proc.devRef .tc main_arg10) := by
  after_results_simp <;> rfl
set_option maxRecDepth 8192 in
set_option maxHeartbeats 8000000 in
theorem kept_arg11 (V : Valuation τ sig (Elt F)) :
    after (ops (F := F)) V (Proc.devRef .tc main_arg11) = V (Proc.devRef .tc main_arg11) := by
  after_results_simp <;> rfl
set_option maxRecDepth 8192 in
set_option maxHeartbeats 8000000 in
theorem kept_arg12 (V : Valuation τ sig (Elt F)) :
    after (ops (F := F)) V (Proc.devRef .tc main_arg12) = V (Proc.devRef .tc main_arg12) := by
  after_results_simp <;> rfl
set_option maxRecDepth 8192 in
set_option maxHeartbeats 8000000 in
theorem kept_arg13 (V : Valuation τ sig (Elt F)) :
    after (ops (F := F)) V (Proc.devRef .tc main_arg13) = V (Proc.devRef .tc main_arg13) := by
  after_results_simp <;> rfl
set_option maxRecDepth 8192 in
set_option maxHeartbeats 8000000 in
theorem kept_arg14 (V : Valuation τ sig (Elt F)) :
    after (ops (F := F)) V (Proc.devRef .tc main_arg14) = V (Proc.devRef .tc main_arg14) := by
  after_results_simp <;> rfl
set_option maxRecDepth 8192 in
set_option maxHeartbeats 8000000 in
theorem kept_arg15 (V : Valuation τ sig (Elt F)) :
    after (ops (F := F)) V (Proc.devRef .tc main_arg15) = V (Proc.devRef .tc main_arg15) := by
  after_results_simp <;> rfl
set_option maxRecDepth 8192 in
set_option maxHeartbeats 8000000 in
theorem kept_arg16 (V : Valuation τ sig (Elt F)) :
    after (ops (F := F)) V (Proc.devRef .tc main_arg16) = V (Proc.devRef .tc main_arg16) := by
  after_results_simp <;> rfl
set_option maxRecDepth 8192 in
set_option maxHeartbeats 8000000 in
theorem kept_arg17 (V : Valuation τ sig (Elt F)) :
    after (ops (F := F)) V (Proc.devRef .tc main_arg17) = V (Proc.devRef .tc main_arg17) := by
  after_results_simp <;> rfl
set_option maxRecDepth 8192 in
set_option maxHeartbeats 8000000 in
theorem kept_arg18 (V : Valuation τ sig (Elt F)) :
    after (ops (F := F)) V (Proc.devRef .tc main_arg18) = V (Proc.devRef .tc main_arg18) := by
  after_results_simp <;> rfl
set_option maxRecDepth 8192 in
set_option maxHeartbeats 8000000 in
theorem kept_arg19 (V : Valuation τ sig (Elt F)) :
    after (ops (F := F)) V (Proc.devRef .tc main_arg19) = V (Proc.devRef .tc main_arg19) := by
  after_results_simp <;> rfl

/-! ## The result buffer holds the composed term -/

set_option maxRecDepth 8192 in
set_option maxHeartbeats 79200000 in
theorem result_term (m : (ℓ : Loc nD τ sig) → Buf (Elt F) ℓ) (c : Dev nD) :
    after (ops (F := F)) (launchContents m c) (Proc.devRef .tc main_v166) = res_main_v166 m c := by
  after_results_simp
  try simp only [StableHlo.TRef.ofBuf_toBuf, StableHlo.TRef.toBuf_ofBuf]
  unfold res_main_v166
  rfl

/-! ## The run -/

set_option maxRecDepth 8192 in
set_option maxHeartbeats 8000000 in
/-- On every device, for any float values, from any memory with zero counters: every weakly fair execution of
    @main terminates with the result at the operations' composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v166) = res_main_v166 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v166).trans (result_term m c),
      (h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _),
      (h c main_arg8).trans (kept_arg8 _),
      (h c main_arg9).trans (kept_arg9 _),
      (h c main_arg10).trans (kept_arg10 _),
      (h c main_arg11).trans (kept_arg11 _),
      (h c main_arg12).trans (kept_arg12 _),
      (h c main_arg13).trans (kept_arg13 _),
      (h c main_arg14).trans (kept_arg14 _),
      (h c main_arg15).trans (kept_arg15 _),
      (h c main_arg16).trans (kept_arg16 _),
      (h c main_arg17).trans (kept_arg17 _),
      (h c main_arg18).trans (kept_arg18 _),
      (h c main_arg19).trans (kept_arg19 _)⟩)
    (run_seq scopedRefs_eq scopedSems_eq defs main (fun _ => ops) main_eq (fun _ => ops_sub) m ρ)

end Cert.ReferenceIdeal.ValueP

end
-- ==== Proof.Congr.lean ====
/-
  The reference's composed function respects equality of its arguments.

  In the final assembly the function that takes the twenty argument arrays to the reference's result is applied
  twice: to the reference's own arguments, and to the kernel's. The two lists agree entry by entry. The one fact
  used there is stated here over plain variables: equal arguments, equal values.
-/
import proofs.«111450_j42666205118859_2_alg».proof.Proof.RefRead

noncomputable section

namespace Cert.Gcn

open Cert.ReferenceIdeal Cert.ReferenceIdeal.ReadP Idealize.ShloMosaic Idealize.ShloMosaic.TcCoe Idealize.SL.Sem Idealize.ShloMosaic.StableHlo

variable {F : FTy → Type} [FloatOps F]

/-- Twenty equations between the arguments give the equation between the results: substitute each, and the two
    sides are one term. -/
theorem val166_congr
    {x0 y0 : (⟨S131072x64, .f32⟩ : BufTy).Contents (Elt F)}
    {x1 y1 : (⟨S2097152x2, .f32⟩ : BufTy).Contents (Elt F)}
    {x2 y2 : (⟨S64x6, .f32⟩ : BufTy).Contents (Elt F)}
    {x3 y3 : (⟨S64x128, .f32⟩ : BufTy).Contents (Elt F)}
    {x4 y4 : (⟨S128, .f32⟩ : BufTy).Contents (Elt F)}
    {x5 y5 : (⟨S2x128, .f32⟩ : BufTy).Contents (Elt F)}
    {x6 y6 : (⟨S128, .f32⟩ : BufTy).Contents (Elt F)}
    {x7 y7 : (⟨S3x128x128, .f32⟩ : BufTy).Contents (Elt F)}
    {x8 y8 : (⟨S3x128, .f32⟩ : BufTy).Contents (Elt F)}
    {x9 y9 : (⟨S3x128, .f32⟩ : BufTy).Contents (Elt F)}
    {x10 y10 : (⟨S3x128, .f32⟩ : BufTy).Contents (Elt F)}
    {x11 y11 : (⟨S3x128, .f32⟩ : BufTy).Contents (Elt F)}
    {x12 y12 : (⟨S3x128, .f32⟩ : BufTy).Contents (Elt F)}
    {x13 y13 : (⟨S6x32, .f32⟩ : BufTy).Contents (Elt F)}
    {x14 y14 : (⟨S32, .f32⟩ : BufTy).Contents (Elt F)}
    {x15 y15 : (⟨S160x128, .f32⟩ : BufTy).Contents (Elt F)}
    {x16 y16 : (⟨S128, .f32⟩ : BufTy).Contents (Elt F)}
    {x17 y17 : (⟨S2097152, .i32⟩ : BufTy).Contents (Elt F)}
    {x18 y18 : (⟨S2097152, .i32⟩ : BufTy).Contents (Elt F)}
    {x19 y19 : (⟨S131072, .i32⟩ : BufTy).Contents (Elt F)}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) :
    val_main_v166 (F := F) x0 x1 x2 x3 x4 x5 x6 x7 x8 x9 x10 x11 x12 x13 x14 x15 x16 x17 x18 x19 = val_main_v166 (F := F) y0 y1 y2 y3 y4 y5 y6 y7 y8 y9 y10 y11 y12 y13 y14 y15 y16 y17 y18 y19 := by
  subst h0 h1 h2 h3 h4 h5 h6 h7 h8 h9 h10 h11 h12 h13 h14 h15 h16 h17 h18 h19
  rfl

end Cert.Gcn

end
-- ==== Proof.KernelArgs.lean ====
/-
  What the kernel program's buffers hold at the boundaries between its segments, for the buffers no later
  segment writes: every argument array still holds its launch contents when a host stretch or a region reads it, and
  the four arrays computed once and read by every layer — the edge features, the clipped degree column, the scaled
  weights and the folded bias — are carried unchanged across the regions in between. One line per array and boundary.
-/
import proofs.«111450_j42666205118859_2_alg».proof.Proof.Gen.KernelIdeal.Frame
import Idealize.ShloMosaic.PureOps.Ideal

noncomputable section

namespace Cert.KernelIdeal.Fold

open Cert.KernelIdeal Cert.KernelIdeal.Gen
open Idealize.ShloMosaic Idealize.ShloMosaic.TcCoe Idealize.SL.Sem Idealize.ShloMosaic.StableHlo

/-- Walks a buffer that no segment on the way writes back to the launch memory: across a region by the fact that
    the region rewrites only its own arrays, across a host stretch by reading each operation's result at another buffer. -/
macro "arg_back" : tactic => `(tactic| (
  repeat (first
    | rfl
    | rw [W12_of_ne _ _ _ _ (by decide)]
    | rw [W10_of_ne _ _ _ _ (by decide)]
    | rw [W8_of_ne _ _ _ _ (by decide)]
    | rw [W4_of_ne _ _ _ _ (by decide)]
    | rw [W2_of_ne _ _ _ _ (by decide)]
    | (show StableHlo.after _ _ _ = _; after_results))))

variable (m : (ℓ : Loc nD τ sig) → Buf (Elt Ideal) ℓ) (ρ : Dev nD → PrngReg) (c : Dev nD)

/-! ## The arguments, where they are read -/

set_option maxHeartbeats 4000000
theorem W1_arg0 : W1 m ρ c (Proc.devRef .tc main_arg0) = m ((c : Thread nD τ).loc main_arg0) := by arg_back
theorem W1_arg3 : W1 m ρ c (Proc.devRef .tc main_arg3) = m ((c : Thread nD τ).loc main_arg3) := by arg_back
theorem W1_arg4 : W1 m ρ c (Proc.devRef .tc main_arg4) = m ((c : Thread nD τ).loc main_arg4) := by arg_back
theorem W2_arg6 : W2 m ρ c (Proc.devRef .tc main_arg6) = m ((c : Thread nD τ).loc main_arg6) := by arg_back
theorem W3_arg1 : W3 m ρ c (Proc.devRef .tc main_arg1) = m ((c : Thread nD τ).loc main_arg1) := by arg_back
theorem W3_arg5 : W3 m ρ c (Proc.devRef .tc main_arg5) = m ((c : Thread nD τ).loc main_arg5) := by arg_back
theorem W4_arg7 : W4 m ρ c (Proc.devRef .tc main_arg7) = m ((c : Thread nD τ).loc main_arg7) := by arg_back
theorem W4_arg8 : W4 m ρ c (Proc.devRef .tc main_arg8) = m ((c : Thread nD τ).loc main_arg8) := by arg_back
theorem W4_arg9 : W4 m ρ c (Proc.devRef .tc main_arg9) = m ((c : Thread nD τ).loc main_arg9) := by arg_back
theorem W4_arg10 : W4 m ρ c (Proc.devRef .tc main_arg10) = m ((c : Thread nD τ).loc main_arg10) := by arg_back
theorem W4_arg11 : W4 m ρ c (Proc.devRef .tc main_arg11) = m ((c : Thread nD τ).loc main_arg11) := by arg_back
theorem W4_arg12 : W4 m ρ c (Proc.devRef .tc main_arg12) = m ((c : Thread nD τ).loc main_arg12) := by arg_back
theorem W4_arg17 : W4 m ρ c (Proc.devRef .tc main_arg17) = m ((c : Thread nD τ).loc main_arg17) := by arg_back
theorem W4_arg18 : W4 m ρ c (Proc.devRef .tc main_arg18) = m ((c : Thread nD τ).loc main_arg18) := by arg_back
theorem W8_arg17 : W8 m ρ c (Proc.devRef .tc main_arg17) = m ((c : Thread nD τ).loc main_arg17) := by arg_back
theorem W8_arg18 : W8 m ρ c (Proc.devRef .tc main_arg18) = m ((c : Thread nD τ).loc main_arg18) := by arg_back
theorem W10_arg17 : W10 m ρ c (Proc.devRef .tc main_arg17) = m ((c : Thread nD τ).loc main_arg17) := by arg_back
theorem W10_arg18 : W10 m ρ c (Proc.devRef .tc main_arg18) = m ((c : Thread nD τ).loc main_arg18) := by arg_back
theorem W12_arg2 : W12 m ρ c (Proc.devRef .tc main_arg2) = m ((c : Thread nD τ).loc main_arg2) := by arg_back
theorem W12_arg13 : W12 m ρ c (Proc.devRef .tc main_arg13) = m ((c : Thread nD τ).loc main_arg13) := by arg_back
theorem W12_arg14 : W12 m ρ c (Proc.devRef .tc main_arg14) = m ((c : Thread nD τ).loc main_arg14) := by arg_back
theorem W12_arg15 : W12 m ρ c (Proc.devRef .tc main_arg15) = m ((c : Thread nD τ).loc main_arg15) := by arg_back
theorem W12_arg16 : W12 m ρ c (Proc.devRef .tc main_arg16) = m ((c : Thread nD τ).loc main_arg16) := by arg_back
theorem W12_arg19 : W12 m ρ c (Proc.devRef .tc main_arg19) = m ((c : Thread nD τ).loc main_arg19) := by arg_back

/-! ## The arrays computed once and read again later -/

/-- The first layer's output is not touched between its region and the host stretch that reads it. -/
theorem W4_v1_carry : W4 m ρ c (Proc.devRef .tc main_v1) = W2 m ρ c (Proc.devRef .tc main_v1) := by
  rw [W4_of_ne _ _ _ _ (by decide)]
  show StableHlo.after _ _ _ = _; after_results
theorem W8_v3_carry : W8 m ρ c (Proc.devRef .tc main_v3) = W4 m ρ c (Proc.devRef .tc main_v3) := by
  rw [W8_of_ne _ _ _ _ (by decide)]
  first | rfl | (show StableHlo.after _ _ _ = _; after_results)
theorem W8_v9_carry : W8 m ρ c (Proc.devRef .tc main_v9) = W7 m ρ c (Proc.devRef .tc main_v9) := by
  rw [W8_of_ne _ _ _ _ (by decide)]
theorem W8_v16_carry : W8 m ρ c (Proc.devRef .tc main_v16) = W7 m ρ c (Proc.devRef .tc main_v16) := by
  rw [W8_of_ne _ _ _ _ (by decide)]
theorem W8_v19_carry : W8 m ρ c (Proc.devRef .tc main_v19) = W7 m ρ c (Proc.devRef .tc main_v19) := by
  rw [W8_of_ne _ _ _ _ (by decide)]
theorem W10_v3_carry : W10 m ρ c (Proc.devRef .tc main_v3) = W8 m ρ c (Proc.devRef .tc main_v3) := by
  rw [W10_of_ne _ _ _ _ (by decide)]
  first | rfl | (show StableHlo.after _ _ _ = _; after_results)
theorem W10_v9_carry : W10 m ρ c (Proc.devRef .tc main_v9) = W8 m ρ c (Proc.devRef .tc main_v9) := by
  rw [W10_of_ne _ _ _ _ (by decide)]
  first | rfl | (show StableHlo.after _ _ _ = _; after_results)
theorem W10_v16_carry : W10 m ρ c (Proc.devRef .tc main_v16) = W8 m ρ c (Proc.devRef .tc main_v16) := by
  rw [W10_of_ne _ _ _ _ (by decide)]
  first | rfl | (show StableHlo.after _ _ _ = _; after_results)
theorem W10_v19_carry : W10 m ρ c (Proc.devRef .tc main_v19) = W8 m ρ c (Proc.devRef .tc main_v19) := by
  rw [W10_of_ne _ _ _ _ (by decide)]
  first | rfl | (show StableHlo.after _ _ _ = _; after_results)

end Cert.KernelIdeal.Fold

end
-- ==== Proof.Spec.lean ====
/-
  Shared vocabulary of the proof.

  An array at the ideal instance is a function from indices to extended reals. Two predicates say that its
  entries are ordinary real numbers (`IsReal`) or real numbers that are at least one (`GeOne`, what a clipped
  degree is). `dense` is a fully connected layer read at one entry: row `p` of the activations against column
  `q` of the weights, plus entry `q` of the bias row; `denseRelu` clamps it below at zero.
-/
import Idealize.ShloMosaic.PureOps.Ideal
import Idealize.ShloMosaic.Lib.ValueIdx

noncomputable section

namespace Cert.Gcn

open Idealize.ShloMosaic Idealize.ShloMosaic.ValueIdx

/-- Every entry of the array is a real number: neither infinity occurs. -/
def IsReal {S : Shape} (v : S.Idx → EReal) : Prop := ∀ i, ∃ r : ℝ, v i = (r : EReal)

/-- Every entry of the array is a real number that is at least one. -/
def GeOne {S : Shape} (v : S.Idx → EReal) : Prop := ∀ i, ∃ r : ℝ, 1 ≤ r ∧ v i = (r : EReal)

theorem GeOne.isReal {S : Shape} {v : S.Idx → EReal} (h : GeOne v) : IsReal v :=
  fun i => let ⟨r, _, e⟩ := h i; ⟨r, e⟩

/-- A vector of length `H` laid out as the one-row matrix `[1, H]`: entry `(0, q)` is entry `q`. -/
def rowOf {H : Nat} (v : (⟨1, ![H]⟩ : Shape).Idx → EReal) : (⟨2, ![1, H]⟩ : Shape).Idx → EReal :=
  fun j => v (ix1 (j 1))

/-- A fully connected layer at the entry `(p, q)`: the sum over `k` of `x[p, k] * w[k, q]`, plus `b[0, q]`. -/
def dense {M K H : Nat} (x : (⟨2, ![M, K]⟩ : Shape).Idx → EReal) (w : (⟨2, ![K, H]⟩ : Shape).Idx → EReal)
    (b : (⟨2, ![1, H]⟩ : Shape).Idx → EReal) : (⟨2, ![M, H]⟩ : Shape).Idx → EReal :=
  fun i => (∑ k : Fin K, x (ix2 (i 0) k) * w (ix2 k (i 1))) + b (ix2 (0 : Fin 1) (i 1))

/-- The same layer followed by the rectifier: the larger of the entry and zero. -/
def denseRelu {M K H : Nat} (x : (⟨2, ![M, K]⟩ : Shape).Idx → EReal) (w : (⟨2, ![K, H]⟩ : Shape).Idx → EReal)
    (b : (⟨2, ![1, H]⟩ : Shape).Idx → EReal) : (⟨2, ![M, H]⟩ : Shape).Idx → EReal :=
  fun i => max (dense x w b i) 0

theorem dense_apply {M K H : Nat} (x : (⟨2, ![M, K]⟩ : Shape).Idx → EReal) (w : (⟨2, ![K, H]⟩ : Shape).Idx → EReal)
    (b : (⟨2, ![1, H]⟩ : Shape).Idx → EReal) (p : Fin M) (q : Fin H) :
    dense x w b (ix2 p q) = (∑ k : Fin K, x (ix2 p k) * w (ix2 k q)) + b (ix2 (0 : Fin 1) q) := rfl

theorem denseRelu_apply {M K H : Nat} (x : (⟨2, ![M, K]⟩ : Shape).Idx → EReal) (w : (⟨2, ![K, H]⟩ : Shape).Idx → EReal)
    (b : (⟨2, ![1, H]⟩ : Shape).Idx → EReal) (p : Fin M) (q : Fin H) :
    denseRelu x w b (ix2 p q) = max ((∑ k : Fin K, x (ix2 p k) * w (ix2 k q)) + b (ix2 (0 : Fin 1) q)) 0 := rfl

end Cert.Gcn

end
-- ==== Proof.RegionA.lean ====
/-
  Regions 0 and 1 of the kernel as functions of whole arrays.

  Each of the two regions walks a grid of blocks of 4096 rows. At a grid point the body loads a block of
  activations, the whole weight matrix and the whole bias row, narrows the first two to bf16 (the identity on
  extended reals), multiplies them into a zero accumulator, adds the bias row spread down the rows, and stores
  the block. So the entry `(p, q)` of the block at grid point `t` is

      (sum over k of x[4096 t + p, k] * w[k, q]) + b[0, q],

  which is the entry `(4096 t + p, q)` of the fully connected layer `Cert.Gcn.dense x w b` of the whole arrays.
  The blocks of 4096 rows tile the result (row `r` lies in block `r / 4096`), hence after the last grid point the
  result array IS that layer. Everything is stated at the buffer contents `V` the region finds on entry.

  Per region: the operand indices of the contraction (`lhsK_row` … `rhsK_col`), the product at an entry
  (`matmulK_apply`), the bias row at an entry (`biasRowsK_apply`), the payload at an entry (`payK_apply`), the
  block indices over the grid (`blockIndexK`), the payload entry as a layer entry (`blockEntryK`), what a grid
  point writes back (`flushedK_eq`), block membership and the cover (`mem_blkK`, `coverK`), and the whole array
  (`regionK`).
-/
import proofs.«111450_j42666205118859_2_alg».proof.Proof.Gen.KernelIdeal.Frame
import proofs.«111450_j42666205118859_2_alg».proof.Proof.Spec
import Idealize.ShloMosaic.Lib.ValueIdx
import Idealize.ShloMosaic.Lib.Pipeline.Value
import Idealize.ShloMosaic.PureOps.Ideal.Laws

noncomputable section

namespace Cert.KernelIdeal.RegionValue

open Cert.KernelIdeal Cert.KernelIdeal.Gen
open Idealize.ShloMosaic Idealize.ShloMosaic.TcCoe Idealize.ShloMosaic.ValueIdx
open Idealize.ShloMosaic.Pipeline (Dat)

/-- The zero offsets of a whole-buffer access, however they are spelt. -/
theorem hz : (![0, 0] : Fin 2 → Nat) = fun _ => 0 := funext fun a => by fin_cases a <;> rfl

/-! ## Region 0: the body's payload at one entry -/

theorem lhs0_row (i : S4096x128.Idx) (k : dot_S4096x64_S64x128_S4096x128_1_0_0_1_n_n.contr.Idx) :
    (dot_S4096x64_S64x128_S4096x128_1_0_0_1_n_n.lhsIdx i k 0).val = (i 0).val := by
  unfold DotDims.lhsIdx
  rw [dif_neg (show ¬(0 : Fin S4096x64.rank) ∈ dot_S4096x64_S64x128_S4096x128_1_0_0_1_n_n.lhsBatch by decide), dif_pos (show (0 : Fin S4096x64.rank) ∈ dot_S4096x64_S64x128_S4096x128_1_0_0_1_n_n.lhsNonContracting by decide)]
  rfl
theorem lhs0_contr (i : S4096x128.Idx) (k : dot_S4096x64_S64x128_S4096x128_1_0_0_1_n_n.contr.Idx) :
    (dot_S4096x64_S64x128_S4096x128_1_0_0_1_n_n.lhsIdx i k 1).val = (k ⟨0, by decide⟩).val :=
  dot_S4096x64_S64x128_S4096x128_1_0_0_1_n_n.lhsIdx_val_of_single rfl i k
theorem rhs0_contr (i : S4096x128.Idx) (k : dot_S4096x64_S64x128_S4096x128_1_0_0_1_n_n.contr.Idx) :
    (dot_S4096x64_S64x128_S4096x128_1_0_0_1_n_n.rhsIdx i k 0).val = (k ⟨0, by decide⟩).val :=
  dot_S4096x64_S64x128_S4096x128_1_0_0_1_n_n.rhsIdx_val_of_single rfl i k
theorem rhs0_col (i : S4096x128.Idx) (k : dot_S4096x64_S64x128_S4096x128_1_0_0_1_n_n.contr.Idx) :
    (dot_S4096x64_S64x128_S4096x128_1_0_0_1_n_n.rhsIdx i k 1).val = (i 1).val := by
  unfold DotDims.rhsIdx
  rw [dif_neg (show ¬(1 : Fin S64x128.rank) ∈ dot_S4096x64_S64x128_S4096x128_1_0_0_1_n_n.rhsBatch by decide), dif_pos (show (1 : Fin S64x128.rank) ∈ dot_S4096x64_S64x128_S4096x128_1_0_0_1_n_n.rhsNonContracting by decide)]
  rfl

/-- The product into a zero accumulator at the entry `(p, q)`: row `p` of the left factor against column `q` of
    the right one, summed over the 64 shared coordinates. -/
theorem matmul0_apply {φ₁ φ₂ : FTy} (a : FVec Ideal S4096x64 φ₁) (b : FVec Ideal S64x128 φ₂) (p : Fin 4096) (q : Fin 128) :
    FloatOps.matmul dot_S4096x64_S64x128_S4096x128_1_0_0_1_n_n none a b (constant S4096x128 .f32 0x00000000#32) (ix2 p q)
      = ∑ k : Fin 64, a (ix2 p k) * b (ix2 k q) := by
  refine (Ideal.matmul_constant_zero_apply dot_S4096x64_S64x128_S4096x128_1_0_0_1_n_n none a b (ix2 p q)).trans ?_
  rw [← Equiv.sum_comp (contrEquiv1 dot_S4096x64_S64x128_S4096x128_1_0_0_1_n_n 64 rfl rfl).symm]
  refine Finset.sum_congr rfl fun k _ => ?_
  have hk := contrEquiv1_symm_val dot_S4096x64_S64x128_S4096x128_1_0_0_1_n_n 64 rfl rfl k
  have el : dot_S4096x64_S64x128_S4096x128_1_0_0_1_n_n.lhsIdx (ix2 p q) ((contrEquiv1 dot_S4096x64_S64x128_S4096x128_1_0_0_1_n_n 64 rfl rfl).symm k) = ix2 p k :=
    funext fun d => Fin.ext (by
      match d with
      | ⟨0, _⟩ => exact lhs0_row _ _
      | ⟨1, _⟩ => exact (lhs0_contr _ _).trans hk)
  have er : dot_S4096x64_S64x128_S4096x128_1_0_0_1_n_n.rhsIdx (ix2 p q) ((contrEquiv1 dot_S4096x64_S64x128_S4096x128_1_0_0_1_n_n 64 rfl rfl).symm k) = ix2 k q :=
    funext fun d => Fin.ext (by
      match d with
      | ⟨0, _⟩ => exact (rhs0_contr _ _).trans hk
      | ⟨1, _⟩ => exact rhs0_col _ _)
  rw [el, er]

/-- The bias row spread down the 4096 rows of a block reads, at `(p, q)`, its entry `(0, q)`. -/
theorem biasRows0_apply (x2 : S1x128.Idx → EReal) (p : Fin 4096) (q : Fin 128) :
    broadcastTo S4096x128 x2 broadcasts_S1x128_S4096x128 (ix2 p q) = x2 (ix2 (0 : Fin 1) q) :=
  broadcastTo_apply x2 broadcasts_S1x128_S4096x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- The payload of region 0 at the entry `(p, q)` of a block: the narrowing to bf16 is the identity on extended
    reals, the product accumulates from zero, and the bias row is added. -/
theorem pay0_apply (x0 : Vec Ideal S4096x64 .f32) (x1 : Vec Ideal S64x128 .f32) (x2 : Vec Ideal S1x128 .f32)
    (p : Fin 4096) (q : Fin 128) :
    k0_pay1 (F := Ideal) x0 x1 x2 (ix2 p q) = (∑ k : Fin 64, x0 (ix2 p k) * x1 (ix2 k q)) + x2 (ix2 (0 : Fin 1) q) := by
  unfold k0_pay1
  rw [shapeCast_self]
  refine (addf_apply _ _ (ix2 p q)).trans ?_
  refine congrArg₂ (· + ·) ?_ (biasRows0_apply x2 p q)
  exact matmul0_apply _ _ p q

/-! ## Region 0: from the blocks to the whole array -/

section Region0

variable (V : (c : Dev nD) → (b : Ref sig .tc) → Buf (Elt Ideal) ((c : Thread nD τ).loc b))

/-- The block indices over the grid: the activations' block and the output's block are block `t` of the rows
    and block `0` of the columns; the weights and the bias row are whole, at block `(0, 0)`. -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One entry of a block's payload is the layer's entry in the row of the whole array that the block's row is:
    stated over plain blocks `x0 x1 x2` and whole arrays `X0 X1 X2` related entry by entry. -/
theorem blockEntry0 (X0 : S131072x64.Idx → EReal) (X1 : S64x128.Idx → EReal) (X2 : S1x128.Idx → EReal)
    (x0 : Vec Ideal S4096x64 .f32) (x1 : Vec Ideal S64x128 .f32) (x2 : Vec Ideal S1x128 .f32)
    (p : Fin 4096) (q : Fin 128) (r : Fin 131072)
    (h0 : ∀ k : Fin 64, x0 (ix2 p k) = X0 (ix2 r k))
    (h1 : ∀ k : Fin 64, x1 (ix2 k q) = X1 (ix2 k q))
    (h2 : x2 (ix2 (0 : Fin 1) q) = X2 (ix2 (0 : Fin 1) q)) :
    k0_pay1 (F := Ideal) x0 x1 x2 (ix2 p q) = Cert.Gcn.dense X0 X1 X2 (ix2 r q) := by
  rw [pay0_apply, Cert.Gcn.dense_apply, h2]
  exact congrArg (· + X2 (ix2 (0 : Fin 1) q)) (Finset.sum_congr rfl fun k _ => by rw [h0 k, h1 k])

set_option maxHeartbeats 400000 in
/-- What grid point `t` writes back is block `t` of the layer applied to the whole arrays: row `p` of the block is
    row `4096 t + p` of the activations and of the result, and the weights and the bias row are read whole. -/
theorem flushed0_eq (c : Dev nD) (t : Fin cfg0.N) :
    (dat0 (F := Ideal) V c).flushed 3 t
      = ((cfg0.win 3).blk t).view.read (Elt Ideal) (Cert.Gcn.dense (V c main_arg0) (V c main_arg3) (V c main_v0)) := by
  show (cfg0.win 3).cut (grid0.coords t) ((dat0 V c).after 3 t) = _
  rw [after0_3]
  unfold out0_3
  rw [View.canon_unit_zero hz]
  simp only [View.ld_unit_zero (S := S4096x64) hz, View.ld_unit_zero (S := S64x128) hz, View.ld_unit_zero (S := S1x128) hz]
  obtain ⟨e00, e01, e10, e11, e20, e21, e30, e31⟩ := blockIndex0 t
  have ht : t.val < 32 := t.isLt
  funext j
  obtain ⟨p, q, rfl⟩ : ∃ (p : Fin 4096) (q : Fin 128), j = ix2 p q := ⟨j 0, j 1, eq_ix2 j⟩
  have hp : p.val < 4096 := p.isLt
  refine (blockEntry0 (V c main_arg0) (V c main_arg3) (V c main_v0) (iblk0 V c 0 t) (iblk0 V c 1 t) (iblk0 V c 2 t) p q
    ⟨t.val * 4096 + p.val, by omega⟩ (fun k => ?_) (fun k => ?_) ?_).trans ?_
  · show V c main_arg0 (((cfg0.win 0).blk t).view.emb (ix2 p k)) = _
    refine congrArg _ (funext fun a => Fin.ext ?_)
    match a with
    | ⟨0, _⟩ => show win0_0.index t (0 : Fin 2) * 4096 + 1 * p.val = t.val * 4096 + p.val; omega
    | ⟨1, _⟩ => show win0_0.index t (1 : Fin 2) * 64 + 1 * k.val = k.val; omega
  · show V c main_arg3 (((cfg0.win 1).blk t).view.emb (ix2 k q)) = _
    refine congrArg _ (funext fun a => Fin.ext ?_)
    match a with
    | ⟨0, _⟩ => show win0_1.index t (0 : Fin 2) * 64 + 1 * k.val = k.val; omega
    | ⟨1, _⟩ => show win0_1.index t (1 : Fin 2) * 128 + 1 * q.val = q.val; omega
  · show V c main_v0 (((cfg0.win 2).blk t).view.emb (ix2 (0 : Fin 1) q)) = _
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * q.val = q.val; omega
  · show _ = Cert.Gcn.dense (V c main_arg0) (V c main_arg3) (V c main_v0) (((cfg0.win 3).blk t).view.emb (ix2 p q))
    refine congrArg _ (funext fun a => Fin.ext ?_)
    match a with
    | ⟨0, _⟩ => show t.val * 4096 + p.val = win0_3.index t (0 : Fin 2) * 4096 + 1 * p.val; omega
    | ⟨1, _⟩ => show q.val = win0_3.index t (1 : Fin 2) * 128 + 1 * q.val; omega

/-- An index of the result array lies in grid point `t`'s block exactly when, on each axis, its coordinate lies
    in the block's range. -/
theorem mem_blk0 (t : Fin cfg0.N) (i : S131072x128.Idx) :
    i ∈ ((cfg0.win 3).blk t).view.set ↔ ∀ a : Fin 2, win0_3.index t a * S4096x128.size a ≤ (i a).val
      ∧ (i a).val < win0_3.index t a * S4096x128.size a + S4096x128.size a := by
  show i ∈ ((View.whole main_v1).slice (win0_3.rect t)).set ↔ _
  rw [View.set_slice_whole, Rect.mem_set_unit]
  exact Iff.rfl

/-- Every row `r` of the result lies in the block of the grid point `r / 4096`, which writes its block back:
    the 32 blocks of 4096 rows tile the 131072 rows. -/
theorem cover0 (i : S131072x128.Idx) :
    ∃ t : Fin cfg0.N, (cfg0.win 3).flush t = true ∧ i ∈ ((cfg0.win 3).blk t).view.set := by
  have hi0 : (i 0).val < 131072 := (i 0).isLt
  have hi1 : (i 1).val < 128 := (i 1).isLt
  have hN : cfg0.N = 32 := N_0
  obtain ⟨t, htv⟩ : ∃ t : Fin cfg0.N, t.val = (i 0).val / 4096 := ⟨⟨(i 0).val / 4096, by rw [hN]; omega⟩, rfl⟩
  obtain ⟨-, -, -, -, -, -, e30, e31⟩ := blockIndex0 t
  refine ⟨t, flush0_3 t, ?_⟩
  rw [mem_blk0]
  intro a
  match a with
  | ⟨0, _⟩ =>
    show win0_3.index t (0 : Fin 2) * 4096 ≤ (i 0).val ∧ (i 0).val < win0_3.index t (0 : Fin 2) * 4096 + 4096
    omega
  | ⟨1, _⟩ =>
    show win0_3.index t (1 : Fin 2) * 128 ≤ (i 1).val ∧ (i 1).val < win0_3.index t (1 : Fin 2) * 128 + 128
    omega

/-- REGION 0 AS A WHOLE-ARRAY FUNCTION: after its 32 grid points the result array is the fully connected layer of
    the activations, the weights and the bias row as the region finds them. -/
theorem region0 (c : Dev nD) :
    (dat0 (F := Ideal) V c).arrAt 3 cfg0.N = Cert.Gcn.dense (V c main_arg0) (V c main_arg3) (V c main_v0) :=
  (dat0 (F := Ideal) V c).arrAt_eq_of_cover 3 _ (fun t _ => flushed0_eq V c t) cover0

end Region0

/-! ## Region 1: the body's payload at one entry -/

theorem lhs1_row (i : S4096x128.Idx) (k : dot_S4096x2_S2x128_S4096x128_1_0_0_1_n_n.contr.Idx) :
    (dot_S4096x2_S2x128_S4096x128_1_0_0_1_n_n.lhsIdx i k 0).val = (i 0).val := by
  unfold DotDims.lhsIdx
  rw [dif_neg (show ¬(0 : Fin S4096x2.rank) ∈ dot_S4096x2_S2x128_S4096x128_1_0_0_1_n_n.lhsBatch by decide), dif_pos (show (0 : Fin S4096x2.rank) ∈ dot_S4096x2_S2x128_S4096x128_1_0_0_1_n_n.lhsNonContracting by decide)]
  rfl
theorem lhs1_contr (i : S4096x128.Idx) (k : dot_S4096x2_S2x128_S4096x128_1_0_0_1_n_n.contr.Idx) :
    (dot_S4096x2_S2x128_S4096x128_1_0_0_1_n_n.lhsIdx i k 1).val = (k ⟨0, by decide⟩).val :=
  dot_S4096x2_S2x128_S4096x128_1_0_0_1_n_n.lhsIdx_val_of_single rfl i k
theorem rhs1_contr (i : S4096x128.Idx) (k : dot_S4096x2_S2x128_S4096x128_1_0_0_1_n_n.contr.Idx) :
    (dot_S4096x2_S2x128_S4096x128_1_0_0_1_n_n.rhsIdx i k 0).val = (k ⟨0, by decide⟩).val :=
  dot_S4096x2_S2x128_S4096x128_1_0_0_1_n_n.rhsIdx_val_of_single rfl i k
theorem rhs1_col (i : S4096x128.Idx) (k : dot_S4096x2_S2x128_S4096x128_1_0_0_1_n_n.contr.Idx) :
    (dot_S4096x2_S2x128_S4096x128_1_0_0_1_n_n.rhsIdx i k 1).val = (i 1).val := by
  unfold DotDims.rhsIdx
  rw [dif_neg (show ¬(1 : Fin S2x128.rank) ∈ dot_S4096x2_S2x128_S4096x128_1_0_0_1_n_n.rhsBatch by decide), dif_pos (show (1 : Fin S2x128.rank) ∈ dot_S4096x2_S2x128_S4096x128_1_0_0_1_n_n.rhsNonContracting by decide)]
  rfl

/-- The product into a zero accumulator at the entry `(p, q)`: row `p` of the left factor against column `q` of
    the right one, summed over the 2 shared coordinates. -/
theorem matmul1_apply {φ₁ φ₂ : FTy} (a : FVec Ideal S4096x2 φ₁) (b : FVec Ideal S2x128 φ₂) (p : Fin 4096) (q : Fin 128) :
    FloatOps.matmul dot_S4096x2_S2x128_S4096x128_1_0_0_1_n_n none a b (constant S4096x128 .f32 0x00000000#32) (ix2 p q)
      = ∑ k : Fin 2, a (ix2 p k) * b (ix2 k q) := by
  refine (Ideal.matmul_constant_zero_apply dot_S4096x2_S2x128_S4096x128_1_0_0_1_n_n none a b (ix2 p q)).trans ?_
  rw [← Equiv.sum_comp (contrEquiv1 dot_S4096x2_S2x128_S4096x128_1_0_0_1_n_n 2 rfl rfl).symm]
  refine Finset.sum_congr rfl fun k _ => ?_
  have hk := contrEquiv1_symm_val dot_S4096x2_S2x128_S4096x128_1_0_0_1_n_n 2 rfl rfl k
  have el : dot_S4096x2_S2x128_S4096x128_1_0_0_1_n_n.lhsIdx (ix2 p q) ((contrEquiv1 dot_S4096x2_S2x128_S4096x128_1_0_0_1_n_n 2 rfl rfl).symm k) = ix2 p k :=
    funext fun d => Fin.ext (by
      match d with
      | ⟨0, _⟩ => exact lhs1_row _ _
      | ⟨1, _⟩ => exact (lhs1_contr _ _).trans hk)
  have er : dot_S4096x2_S2x128_S4096x128_1_0_0_1_n_n.rhsIdx (ix2 p q) ((contrEquiv1 dot_S4096x2_S2x128_S4096x128_1_0_0_1_n_n 2 rfl rfl).symm k) = ix2 k q :=
    funext fun d => Fin.ext (by
      match d with
      | ⟨0, _⟩ => exact (rhs1_contr _ _).trans hk
      | ⟨1, _⟩ => exact rhs1_col _ _)
  rw [el, er]

/-- The bias row spread down the 4096 rows of a block reads, at `(p, q)`, its entry `(0, q)`. -/
theorem biasRows1_apply (x2 : S1x128.Idx → EReal) (p : Fin 4096) (q : Fin 128) :
    broadcastTo S4096x128 x2 broadcasts_S1x128_S4096x128 (ix2 p q) = x2 (ix2 (0 : Fin 1) q) :=
  broadcastTo_apply x2 broadcasts_S1x128_S4096x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- The payload of region 1 at the entry `(p, q)` of a block: the narrowing to bf16 is the identity on extended
    reals, the product accumulates from zero, and the bias row is added. -/
theorem pay1_apply (x0 : Vec Ideal S4096x2 .f32) (x1 : Vec Ideal S2x128 .f32) (x2 : Vec Ideal S1x128 .f32)
    (p : Fin 4096) (q : Fin 128) :
    k1_pay1 (F := Ideal) x0 x1 x2 (ix2 p q) = (∑ k : Fin 2, x0 (ix2 p k) * x1 (ix2 k q)) + x2 (ix2 (0 : Fin 1) q) := by
  unfold k1_pay1
  rw [shapeCast_self]
  refine (addf_apply _ _ (ix2 p q)).trans ?_
  refine congrArg₂ (· + ·) ?_ (biasRows1_apply x2 p q)
  exact matmul1_apply _ _ p q

/-! ## Region 1: from the blocks to the whole array -/

section Region1

variable (V : (c : Dev nD) → (b : Ref sig .tc) → Buf (Elt Ideal) ((c : Thread nD τ).loc b))

/-- The block indices over the grid: the activations' block and the output's block are block `t` of the rows
    and block `0` of the columns; the weights and the bias row are whole, at block `(0, 0)`. -/
theorem blockIndex1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One entry of a block's payload is the layer's entry in the row of the whole array that the block's row is:
    stated over plain blocks `x0 x1 x2` and whole arrays `X0 X1 X2` related entry by entry. -/
theorem blockEntry1 (X0 : S2097152x2.Idx → EReal) (X1 : S2x128.Idx → EReal) (X2 : S1x128.Idx → EReal)
    (x0 : Vec Ideal S4096x2 .f32) (x1 : Vec Ideal S2x128 .f32) (x2 : Vec Ideal S1x128 .f32)
    (p : Fin 4096) (q : Fin 128) (r : Fin 2097152)
    (h0 : ∀ k : Fin 2, x0 (ix2 p k) = X0 (ix2 r k))
    (h1 : ∀ k : Fin 2, x1 (ix2 k q) = X1 (ix2 k q))
    (h2 : x2 (ix2 (0 : Fin 1) q) = X2 (ix2 (0 : Fin 1) q)) :
    k1_pay1 (F := Ideal) x0 x1 x2 (ix2 p q) = Cert.Gcn.dense X0 X1 X2 (ix2 r q) := by
  rw [pay1_apply, Cert.Gcn.dense_apply, h2]
  exact congrArg (· + X2 (ix2 (0 : Fin 1) q)) (Finset.sum_congr rfl fun k _ => by rw [h0 k, h1 k])

set_option maxHeartbeats 400000 in
/-- What grid point `t` writes back is block `t` of the layer applied to the whole arrays: row `p` of the block is
    row `4096 t + p` of the activations and of the result, and the weights and the bias row are read whole. -/
theorem flushed1_eq (c : Dev nD) (t : Fin cfg1.N) :
    (dat1 (F := Ideal) V c).flushed 3 t
      = ((cfg1.win 3).blk t).view.read (Elt Ideal) (Cert.Gcn.dense (V c main_arg1) (V c main_arg5) (V c main_v2)) := by
  show (cfg1.win 3).cut (grid1.coords t) ((dat1 V c).after 3 t) = _
  rw [after1_3]
  unfold out1_3
  rw [View.canon_unit_zero hz]
  simp only [View.ld_unit_zero (S := S4096x2) hz, View.ld_unit_zero (S := S2x128) hz, View.ld_unit_zero (S := S1x128) hz]
  obtain ⟨e00, e01, e10, e11, e20, e21, e30, e31⟩ := blockIndex1 t
  have ht : t.val < 512 := t.isLt
  funext j
  obtain ⟨p, q, rfl⟩ : ∃ (p : Fin 4096) (q : Fin 128), j = ix2 p q := ⟨j 0, j 1, eq_ix2 j⟩
  have hp : p.val < 4096 := p.isLt
  refine (blockEntry1 (V c main_arg1) (V c main_arg5) (V c main_v2) (iblk1 V c 0 t) (iblk1 V c 1 t) (iblk1 V c 2 t) p q
    ⟨t.val * 4096 + p.val, by omega⟩ (fun k => ?_) (fun k => ?_) ?_).trans ?_
  · show V c main_arg1 (((cfg1.win 0).blk t).view.emb (ix2 p k)) = _
    refine congrArg _ (funext fun a => Fin.ext ?_)
    match a with
    | ⟨0, _⟩ => show win1_0.index t (0 : Fin 2) * 4096 + 1 * p.val = t.val * 4096 + p.val; omega
    | ⟨1, _⟩ => show win1_0.index t (1 : Fin 2) * 2 + 1 * k.val = k.val; omega
  · show V c main_arg5 (((cfg1.win 1).blk t).view.emb (ix2 k q)) = _
    refine congrArg _ (funext fun a => Fin.ext ?_)
    match a with
    | ⟨0, _⟩ => show win1_1.index t (0 : Fin 2) * 2 + 1 * k.val = k.val; omega
    | ⟨1, _⟩ => show win1_1.index t (1 : Fin 2) * 128 + 1 * q.val = q.val; omega
  · show V c main_v2 (((cfg1.win 2).blk t).view.emb (ix2 (0 : Fin 1) q)) = _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  · show _ = Cert.Gcn.dense (V c main_arg1) (V c main_arg5) (V c main_v2) (((cfg1.win 3).blk t).view.emb (ix2 p q))
    refine congrArg _ (funext fun a => Fin.ext ?_)
    match a with
    | ⟨0, _⟩ => show t.val * 4096 + p.val = win1_3.index t (0 : Fin 2) * 4096 + 1 * p.val; omega
    | ⟨1, _⟩ => show q.val = win1_3.index t (1 : Fin 2) * 128 + 1 * q.val; omega

/-- An index of the result array lies in grid point `t`'s block exactly when, on each axis, its coordinate lies
    in the block's range. -/
theorem mem_blk1 (t : Fin cfg1.N) (i : S2097152x128.Idx) :
    i ∈ ((cfg1.win 3).blk t).view.set ↔ ∀ a : Fin 2, win1_3.index t a * S4096x128.size a ≤ (i a).val
      ∧ (i a).val < win1_3.index t a * S4096x128.size a + S4096x128.size a := by
  show i ∈ ((View.whole main_v3).slice (win1_3.rect t)).set ↔ _
  rw [View.set_slice_whole, Rect.mem_set_unit]
  exact Iff.rfl

/-- Every row `r` of the result lies in the block of the grid point `r / 4096`, which writes its block back:
    the 512 blocks of 4096 rows tile the 2097152 rows. -/
theorem cover1 (i : S2097152x128.Idx) :
    ∃ t : Fin cfg1.N, (cfg1.win 3).flush t = true ∧ i ∈ ((cfg1.win 3).blk t).view.set := by
  have hi0 : (i 0).val < 2097152 := (i 0).isLt
  have hi1 : (i 1).val < 128 := (i 1).isLt
  have hN : cfg1.N = 512 := N_1
  obtain ⟨t, htv⟩ : ∃ t : Fin cfg1.N, t.val = (i 0).val / 4096 := ⟨⟨(i 0).val / 4096, by rw [hN]; omega⟩, rfl⟩
  obtain ⟨-, -, -, -, -, -, e30, e31⟩ := blockIndex1 t
  refine ⟨t, flush1_3 t, ?_⟩
  rw [mem_blk1]
  intro a
  match a with
  | ⟨0, _⟩ =>
    show win1_3.index t (0 : Fin 2) * 4096 ≤ (i 0).val ∧ (i 0).val < win1_3.index t (0 : Fin 2) * 4096 + 4096
    omega
  | ⟨1, _⟩ =>
    show win1_3.index t (1 : Fin 2) * 128 ≤ (i 1).val ∧ (i 1).val < win1_3.index t (1 : Fin 2) * 128 + 128
    omega

/-- REGION 1 AS A WHOLE-ARRAY FUNCTION: after its 512 grid points the result array is the fully connected layer of
    the activations, the weights and the bias row as the region finds them. -/
theorem region1 (c : Dev nD) :
    (dat1 (F := Ideal) V c).arrAt 3 cfg1.N = Cert.Gcn.dense (V c main_arg1) (V c main_arg5) (V c main_v2) :=
  (dat1 (F := Ideal) V c).arrAt_eq_of_cover 3 _ (fun t _ => flushed1_eq V c t) cover1

end Region1

end Cert.KernelIdeal.RegionValue

end
-- ==== Proof.RefDense.lean ====
/-
  The reference's first two fully connected layers, and the kernel's reshape of a bias vector to a row, in the
  shared vocabulary.

  The reference computes each layer as a contraction `x · w` (entry `(p, q)` is the sum over `k` of
  `x[p, k] * w[k, q]`), spreads the bias vector `b` to the one-row matrix `[1, 128]` and then down all the rows,
  and adds. Read at the entry `(p, q)` that is `(sum over k of x[p, k] * w[k, q]) + b[q]`, which is
  `Cert.Gcn.dense x w (Cert.Gcn.rowOf b)` there: `ref_h0` for the node features, `ref_ea` for the edge features.
  The kernel's program instead reshapes `b` to `[1, 128]` on the host; `reshape_row` says this is `rowOf b` too
  (the entry `(0, q)` of the row and the entry `q` of the vector share their row-major position).
-/
import proofs.«111450_j42666205118859_2_alg».proof.Proof.RefRead
import proofs.«111450_j42666205118859_2_alg».proof.Proof.Gen.KernelIdeal
import proofs.«111450_j42666205118859_2_alg».proof.Proof.Spec
import Idealize.ShloMosaic.Lib.ValueIdx
import Idealize.ShloMosaic.Lib.ValueLayout
import Idealize.ShloMosaic.PureOps.Ideal.Laws

noncomputable section

namespace Cert.Gcn.RefDense

open Idealize.ShloMosaic Idealize.ShloMosaic.ValueIdx
open Cert.ReferenceIdeal

/-- The reference's first fully connected layer: the contraction of the node features with the weights plus the
    bias vector spread first to a row and then down the rows is, entry by entry, `dense` of the three arrays. -/
theorem ref_h0 (x0 : (⟨S131072x64, .f32⟩ : BufTy).Contents (Elt Ideal)) (x3 : (⟨S64x128, .f32⟩ : BufTy).Contents (Elt Ideal))
    (x4 : (⟨S128, .f32⟩ : BufTy).Contents (Elt Ideal)) :
    ReadP.val_main_v3 (F := Ideal) x0 x3 x4 = Cert.Gcn.dense x0 x3 (Cert.Gcn.rowOf x4) := by
  funext i
  obtain ⟨p, q, rfl⟩ : ∃ (p : Fin 131072) (q : Fin 128), i = ix2 p q := ⟨i 0, i 1, eq_ix2 i⟩
  rw [ReadP.val_main_v3_apply, ReadP.val_main_v0_apply, ReadP.val_main_v2_apply, ReadP.val_main_v1_apply]
  have el : ∀ k : Fin 64, ReadP.lidx_main_v0 (ix2 p q) k = ix2 p k := fun k =>
    funext fun a => Fin.ext (by match a with | ⟨0, _⟩ => rfl | ⟨1, _⟩ => rfl)
  have er : ∀ k : Fin 64, ReadP.ridx_main_v0 (ix2 p q) k = ix2 k q := fun k =>
    funext fun a => Fin.ext (by match a with | ⟨0, _⟩ => rfl | ⟨1, _⟩ => rfl)
  have eb : ReadP.idx_main_v1 (ReadP.idx_main_v2 (ix2 p q)) = ix1 q :=
    funext fun a => Fin.ext (by match a with | ⟨0, _⟩ => rfl)
  simp only [el, er, eb, Ideal.addf_def]
  rfl

/-- The reference's edge-attribute layer, the same shape of computation on the edge features. -/
theorem ref_ea (x1 : (⟨S2097152x2, .f32⟩ : BufTy).Contents (Elt Ideal)) (x5 : (⟨S2x128, .f32⟩ : BufTy).Contents (Elt Ideal))
    (x6 : (⟨S128, .f32⟩ : BufTy).Contents (Elt Ideal)) :
    ReadP.val_main_v7 (F := Ideal) x1 x5 x6 = Cert.Gcn.dense x1 x5 (Cert.Gcn.rowOf x6) := by
  funext i
  obtain ⟨p, q, rfl⟩ : ∃ (p : Fin 2097152) (q : Fin 128), i = ix2 p q := ⟨i 0, i 1, eq_ix2 i⟩
  rw [ReadP.val_main_v7_apply, ReadP.val_main_v4_apply, ReadP.val_main_v6_apply, ReadP.val_main_v5_apply]
  have el : ∀ k : Fin 2, ReadP.lidx_main_v4 (ix2 p q) k = ix2 p k := fun k =>
    funext fun a => Fin.ext (by match a with | ⟨0, _⟩ => rfl | ⟨1, _⟩ => rfl)
  have er : ∀ k : Fin 2, ReadP.ridx_main_v4 (ix2 p q) k = ix2 k q := fun k =>
    funext fun a => Fin.ext (by match a with | ⟨0, _⟩ => rfl | ⟨1, _⟩ => rfl)
  have eb : ReadP.idx_main_v5 (ReadP.idx_main_v6 (ix2 p q)) = ix1 q :=
    funext fun a => Fin.ext (by match a with | ⟨0, _⟩ => rfl)
  simp only [el, er, eb, Ideal.addf_def]
  rfl

/-- The kernel program's host reshape of a bias vector of length 128 to the one-row matrix `[1, 128]`: entry
    `(0, q)` of the row is entry `q` of the vector, the two having the same row-major position. -/
theorem reshape_row (x : FVec Ideal Cert.KernelIdeal.S128 .f32) :
    shapeCast Cert.KernelIdeal.S1x128 x Cert.KernelIdeal.Facts₀.shapeCasts_S128_S1x128 = Cert.Gcn.rowOf x := by
  funext j
  obtain ⟨u, q, rfl⟩ : ∃ (u : Fin 1) (q : Fin 128), j = ix2 u q := ⟨j 0, j 1, eq_ix2 j⟩
  exact shapeCast_a_1a_apply x _ u q

end Cert.Gcn.RefDense

end
-- ==== Proof.StagesA.lean ====
/-
  The kernel program's two input layers are the reference's.

  The node-feature region and the edge-feature region each write a dense layer of their argument arrays (a matrix product
  plus the bias laid out as a row), and the reference's first stages are the same dense layers: a kernel's matrix product
  into a zero accumulator and the host's contraction are one sum at the ideal instance.
-/
import proofs.«111450_j42666205118859_2_alg».proof.Proof.KernelArgs
import proofs.«111450_j42666205118859_2_alg».proof.Proof.RegionA
import proofs.«111450_j42666205118859_2_alg».proof.Proof.RefRead
import proofs.«111450_j42666205118859_2_alg».proof.Proof.RefDense

noncomputable section

namespace Cert.Bridge

open Cert.KernelIdeal Cert.KernelIdeal.Gen Cert.KernelIdeal.Fold
open Idealize.ShloMosaic Idealize.ShloMosaic.TcCoe Idealize.SL.Sem Idealize.ShloMosaic.StableHlo
open Cert.ReferenceIdeal.ReadP
open Cert.Gcn

variable (m : (ℓ : Loc nD τ sig) → Buf (Elt Ideal) ℓ) (ρ : Dev nD → PrngReg) (c : Dev nD)

set_option maxHeartbeats 4000000

/-! ## The launch contents of the arguments, by name -/

abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)
abbrev a9 := m ((c : Thread nD τ).loc main_arg9)
abbrev a10 := m ((c : Thread nD τ).loc main_arg10)
abbrev a11 := m ((c : Thread nD τ).loc main_arg11)
abbrev a12 := m ((c : Thread nD τ).loc main_arg12)
abbrev a13 := m ((c : Thread nD τ).loc main_arg13)
abbrev a14 := m ((c : Thread nD τ).loc main_arg14)
abbrev a15 := m ((c : Thread nD τ).loc main_arg15)
abbrev a16 := m ((c : Thread nD τ).loc main_arg16)
abbrev a17 := m ((c : Thread nD τ).loc main_arg17)
abbrev a18 := m ((c : Thread nD τ).loc main_arg18)
abbrev a19 := m ((c : Thread nD τ).loc main_arg19)

/-! ## The two input layers -/

/-- The bias of the node layer as a row. -/
theorem W1_v0 : W1 m ρ c (Proc.devRef .tc main_v0) = rowOf (a4 m c) := by
  show StableHlo.after hostOps0 (W0 m ρ c) (Proc.devRef .tc main_v0) = _
  after_results
  exact RefDense.reshape_row _

/-- The node features `x W_in + b_in`. -/
theorem nodes_eq : W2 m ρ c (Proc.devRef .tc main_v1) = val_main_v3 (F := Ideal) (a0 m c) (a3 m c) (a4 m c) := by
  have e : W2 m ρ c (Proc.devRef .tc main_v1) = dense (V1 m ρ c main_arg0) (V1 m ρ c main_arg3) (V1 m ρ c main_v0) :=
    (W2_arr m ρ c 3).trans (RegionValue.region0 (V1 m ρ) c)
  have e0 : V1 m ρ c main_arg0 = a0 m c := W1_arg0 m ρ c
  have e3 : V1 m ρ c main_arg3 = a3 m c := W1_arg3 m ρ c
  have ev : V1 m ρ c main_v0 = rowOf (a4 m c) := W1_v0 m ρ c
  rw [e, e0, e3, ev]
  exact (RefDense.ref_h0 _ _ _).symm

/-- The bias of the edge layer as a row. -/
theorem W3_v2 : W3 m ρ c (Proc.devRef .tc main_v2) = rowOf (a6 m c) := by
  show StableHlo.after hostOps1 (W2 m ρ c) (Proc.devRef .tc main_v2) = _
  after_results
  rw [W2_arg6]
  exact RefDense.reshape_row _

/-- The edge features `edge_attr W_edge + b_edge`. -/
theorem edges_eq : W4 m ρ c (Proc.devRef .tc main_v3) = val_main_v7 (F := Ideal) (a1 m c) (a5 m c) (a6 m c) := by
  have e : W4 m ρ c (Proc.devRef .tc main_v3) = dense (V3 m ρ c main_arg1) (V3 m ρ c main_arg5) (V3 m ρ c main_v2) :=
    (W4_arr m ρ c 3).trans (RegionValue.region1 (V3 m ρ) c)
  have e1 : V3 m ρ c main_arg1 = a1 m c := W3_arg1 m ρ c
  have e5 : V3 m ρ c main_arg5 = a5 m c := W3_arg5 m ρ c
  have ev : V3 m ρ c main_v2 = rowOf (a6 m c) := W3_v2 m ρ c
  rw [e, e1, e5, ev]
  exact (RefDense.ref_ea _ _ _).symm

end Cert.Bridge

end
-- ==== Proof.Params.lean ====
/-
  The folded batch-normalisation parameters, as the kernel's host program composes them from the argument
  arrays: the per-channel scale `gamma / sqrt (var + eps)` over all three layers at once, the weights with every
  output column multiplied by its scale, the bias `(b - mean) * scale + beta`, and for layer `l` the slice
  `[l, :, :]` of the weights as a 128 x 128 matrix and the slice `[l, :]` of the bias as a one-row matrix.
-/
import proofs.«111450_j42666205118859_2_alg».proof.Proof.Gen.KernelIdeal
import Idealize.ShloMosaic.PureOps.Ideal

noncomputable section

namespace Cert.KernelIdeal.Params

open Cert.KernelIdeal Cert.KernelIdeal.Facts₀ Cert.KernelIdeal.Facts Idealize.ShloMosaic

/-- `gamma / sqrt (var + eps)`, entry by entry over the `[3, 128]` arrays. -/
def scale (x9 x12 : FVec Ideal S3x128 .f32) : FVec Ideal S3x128 .f32 :=
  Host.divf x9 (Host.sqrt (addf x12 (broadcastInDim S3x128 ![] bcast_S_S3x128 (constant (F := Ideal) S_ .f32 0x3727C5AC#32))))

/-- The weights `[3, 128, 128]` with column `q` of layer `l` multiplied by `scale[l, q]`. -/
def wAll (x7 : FVec Ideal S3x128x128 .f32) (x9 x12 : FVec Ideal S3x128 .f32) : FVec Ideal S3x128x128 .f32 :=
  mulf x7 (broadcastInDim S3x128x128 ![0, 1, 2] bcast_S3x1x128_S3x128x128_0_1_2
    (broadcastInDim S3x1x128 ![0, 2] bcast_S3x128_S3x1x128_0_2 (scale x9 x12)))

/-- The bias `(b - mean) * scale + beta` over the `[3, 128]` arrays. -/
def bAll (x8 x9 x10 x11 x12 : FVec Ideal S3x128 .f32) : FVec Ideal S3x128 .f32 :=
  addf (mulf (subf x8 x11) (scale x9 x12)) x10

/-- Layer 0's weights: the slice `[0, :, :]` as a matrix. -/
def w0 (x7 : FVec Ideal S3x128x128 .f32) (x9 x12 : FVec Ideal S3x128 .f32) : FVec Ideal S128x128 .f32 :=
  shapeCast S128x128 (extractStridedSlice S1x128x128 ![0, 0, 0] (wAll x7 x9 x12) slices_S3x128x128_S1x128x128_0_0_0) shapeCasts_S1x128x128_S128x128
/-- Layer 1's weights: the slice `[1, :, :]` as a matrix. -/
def w1 (x7 : FVec Ideal S3x128x128 .f32) (x9 x12 : FVec Ideal S3x128 .f32) : FVec Ideal S128x128 .f32 :=
  shapeCast S128x128 (extractStridedSlice S1x128x128 ![1, 0, 0] (wAll x7 x9 x12) slices_S3x128x128_S1x128x128_1_0_0) shapeCasts_S1x128x128_S128x128
/-- Layer 2's weights: the slice `[2, :, :]` as a matrix. -/
def w2 (x7 : FVec Ideal S3x128x128 .f32) (x9 x12 : FVec Ideal S3x128 .f32) : FVec Ideal S128x128 .f32 :=
  shapeCast S128x128 (extractStridedSlice S1x128x128 ![2, 0, 0] (wAll x7 x9 x12) slices_S3x128x128_S1x128x128_2_0_0) shapeCasts_S1x128x128_S128x128

/-- Layer 0's bias: the slice `[0, :]` as a one-row matrix. -/
def b0 (x8 x9 x10 x11 x12 : FVec Ideal S3x128 .f32) : FVec Ideal S1x128 .f32 :=
  shapeCast S1x128 (shapeCast S128 (extractStridedSlice S1x128 ![0, 0] (bAll x8 x9 x10 x11 x12) slices_S3x128_S1x128_0_0) shapeCasts_S1x128_S128) shapeCasts_S128_S1x128
/-- Layer 1's bias: the slice `[1, :]` as a one-row matrix. -/
def b1 (x8 x9 x10 x11 x12 : FVec Ideal S3x128 .f32) : FVec Ideal S1x128 .f32 :=
  shapeCast S1x128 (shapeCast S128 (extractStridedSlice S1x128 ![1, 0] (bAll x8 x9 x10 x11 x12) slices_S3x128_S1x128_1_0) shapeCasts_S1x128_S128) shapeCasts_S128_S1x128
/-- Layer 2's bias: the slice `[2, :]` as a one-row matrix. -/
def b2 (x8 x9 x10 x11 x12 : FVec Ideal S3x128 .f32) : FVec Ideal S1x128 .f32 :=
  shapeCast S1x128 (shapeCast S128 (extractStridedSlice S1x128 ![2, 0] (bAll x8 x9 x10 x11 x12) slices_S3x128_S1x128_2_0) shapeCasts_S1x128_S128) shapeCasts_S128_S1x128

end Cert.KernelIdeal.Params

end
-- ==== Proof.ChunkDefs.lean ====
/-
  The chains of host operations the kernel program runs between its regions, as functions of arrays. Named
  here once, in the kernel program's own constants: the clipped in-degree column (`Kdeg`), the aggregation
  `h + segment_sum (h[col] * ea, row) / deg` (`Kagg`), the layer slices of the folded parameters, and the closing
  stretch — mean pooling per graph, the projected global features, their concatenation and the output layer (`Ktail`).
-/
import proofs.«111450_j42666205118859_2_alg».proof.Proof.Gen.KernelIdeal.Launch
import proofs.«111450_j42666205118859_2_alg».proof.Proof.Params
import proofs.«111450_j42666205118859_2_alg».proof.Proof.LibTypedRef
import Idealize.ShloMosaic.PureOps.Ideal
import Idealize.ShloMosaic.Lib.StableHlo.Run

noncomputable section

namespace Cert.KernelIdeal.Chunks

open Cert.KernelIdeal Cert.KernelIdeal.Gen
open Idealize.ShloMosaic Idealize.ShloMosaic.TcCoe Idealize.SL.Sem Idealize.ShloMosaic.StableHlo

/-! ## The chains, as functions of arrays -/

/-- The in-degree of every node (the number of edges whose `row` is the node), clipped below at one, as a column. -/
def Kdeg (row : IVec S2097152 32) : FVec Ideal S131072x1 .f32 :=
  broadcastInDim S131072x1 ![0] bcast_S131072_S131072x1_0
    (maximumf (broadcastInDim S131072 ![] bcast_S_S131072 (id (constant (F := Ideal) S_ .f32 0x3F800000#32)))
      (Host.scatterAdd scatter_S131072_S2097152x1_S2097152_n_0_0_1
        (broadcastInDim S131072 ![] bcast_S_S131072 (constant (F := Ideal) S_ .f32 0x00000000#32))
        (broadcastInDim S2097152x1 ![0] bcast_S2097152_S2097152x1_0 row)
        (broadcastInDim S2097152 ![] bcast_S_S2097152 (constant (F := Ideal) S_ .f32 0x3F800000#32))))

/-- `h + segment_sum (h[col] * ea, row) / deg`: the gathered neighbour features weighted by the edge features, summed
    into their target rows, divided by the degree column, added to the node's own features. -/
def Kagg (h : FVec Ideal S131072x128 .f32) (ea : FVec Ideal S2097152x128 .f32) (dg : FVec Ideal S131072x1 .f32)
    (row col : IVec S2097152 32) : FVec Ideal S131072x128 .f32 :=
  addf h (Host.divf
    (Host.scatterAdd scatter_S131072x128_S2097152x1_S2097152x128_1_0_0_1
      (broadcastInDim S131072x128 ![] bcast_S_S131072x128 (constant (F := Ideal) S_ .f32 0x00000000#32))
      (broadcastInDim S2097152x1 ![0] bcast_S2097152_S2097152x1_0 row)
      (mulf (Host.gather gather_S131072x128_S2097152x1_S2097152x128_1_0_n_n_0_1_1128 h
          (broadcastInDim S2097152x1 ![0] bcast_S2097152_S2097152x1_0
            (select (cmpi .slt col (broadcastInDim S2097152 ![] bcast_S_S2097152 (constantI S_ 32 0#32)))
              (addi col (broadcastInDim S2097152 ![] bcast_S_S2097152 (constantI S_ 32 131072#32))) col))) ea))
    (broadcastInDim S131072x128 ![0, 1] bcast_S131072x1_S131072x128_0_1 dg))

/-- Layer `1`'s and layer `2`'s slices of already computed scaled weights and folded biases. -/
def wSlice1 (w : FVec Ideal S3x128x128 .f32) : FVec Ideal S128x128 .f32 :=
  shapeCast S128x128 (extractStridedSlice S1x128x128 ![1, 0, 0] w slices_S3x128x128_S1x128x128_1_0_0) shapeCasts_S1x128x128_S128x128
def wSlice2 (w : FVec Ideal S3x128x128 .f32) : FVec Ideal S128x128 .f32 :=
  shapeCast S128x128 (extractStridedSlice S1x128x128 ![2, 0, 0] w slices_S3x128x128_S1x128x128_2_0_0) shapeCasts_S1x128x128_S128x128
def bSlice1 (b : FVec Ideal S3x128 .f32) : FVec Ideal S1x128 .f32 :=
  shapeCast S1x128 (shapeCast S128 (extractStridedSlice S1x128 ![1, 0] b slices_S3x128_S1x128_1_0) shapeCasts_S1x128_S128) shapeCasts_S128_S1x128
def bSlice2 (b : FVec Ideal S3x128 .f32) : FVec Ideal S1x128 .f32 :=
  shapeCast S1x128 (shapeCast S128 (extractStridedSlice S1x128 ![2, 0] b slices_S3x128_S1x128_2_0) shapeCasts_S1x128_S128) shapeCasts_S128_S1x128

theorem w1_eq (x7 : FVec Ideal S3x128x128 .f32) (x9 x12 : FVec Ideal S3x128 .f32) : wSlice1 (Params.wAll x7 x9 x12) = Params.w1 x7 x9 x12 := rfl
theorem w2_eq (x7 : FVec Ideal S3x128x128 .f32) (x9 x12 : FVec Ideal S3x128 .f32) : wSlice2 (Params.wAll x7 x9 x12) = Params.w2 x7 x9 x12 := rfl
theorem b1_eq (x8 x9 x10 x11 x12 : FVec Ideal S3x128 .f32) : bSlice1 (Params.bAll x8 x9 x10 x11 x12) = Params.b1 x8 x9 x10 x11 x12 := rfl
theorem b2_eq (x8 x9 x10 x11 x12 : FVec Ideal S3x128 .f32) : bSlice2 (Params.bAll x8 x9 x10 x11 x12) = Params.b2 x8 x9 x10 x11 x12 := rfl

/-- The closing stretch: per-graph sums of the node features divided by the clipped graph sizes, joined with the
    rectified projection of the global features, through the output layer. -/
def Ktail (h : FVec Ideal S131072x128 .f32) (x2 : FVec Ideal S64x6 .f32) (x13 : FVec Ideal S6x32 .f32) (x14 : FVec Ideal S32 .f32)
    (x15 : FVec Ideal S160x128 .f32) (x16 : FVec Ideal S128 .f32) (x19 : IVec S131072 32) : FVec Ideal S64x128 .f32 :=
  addf (Host.dotGeneral dot_S64x160_S160x128_S64x128_1_0_0_1_n_n none
      (concatenate S64x160 1
        [⟨S64x128, Host.divf
            (Host.scatterAdd scatter_S64x128_S131072x1_S131072x128_1_0_0_1
              (broadcastInDim S64x128 ![] bcast_S_S64x128 (constant (F := Ideal) S_ .f32 0x00000000#32))
              (broadcastInDim S131072x1 ![0] bcast_S131072_S131072x1_0 x19) h)
            (broadcastInDim S64x128 ![0, 1] bcast_S64x1_S64x128_0_1
              (broadcastInDim S64x1 ![0] bcast_S64_S64x1_0
                (maximumf (broadcastInDim S64 ![] bcast_S_S64 (id (constant (F := Ideal) S_ .f32 0x3F800000#32)))
                  (Host.scatterAdd scatter_S64_S131072x1_S131072_n_0_0_1
                    (broadcastInDim S64 ![] bcast_S_S64 (constant (F := Ideal) S_ .f32 0x00000000#32))
                    (broadcastInDim S131072x1 ![0] bcast_S131072_S131072x1_0 x19)
                    (broadcastInDim S131072 ![] bcast_S_S131072 (constant (F := Ideal) S_ .f32 0x3F800000#32))))))⟩,
         ⟨S64x32, maximumf
            (addf (Host.dotGeneral dot_S64x6_S6x32_S64x32_1_0_0_1_n_n none x2 x13)
              (broadcastInDim S64x32 ![0, 1] bcast_S1x32_S64x32_0_1 (broadcastInDim S1x32 ![1] bcast_S32_S1x32_1 x14)))
            (broadcastInDim S64x32 ![] bcast_S_S64x32 (constant (F := Ideal) S_ .f32 0x00000000#32))⟩]
        concatenates_S64x128_S64x32_S64x160_d1) x15)
    (broadcastInDim S64x128 ![0, 1] bcast_S1x128_S64x128_0_1 (broadcastInDim S1x128 ![1] bcast_S128_S1x128_1 x16))

end Cert.KernelIdeal.Chunks

end
-- ==== Proof.ChunksA.lean ====
/-
  What the kernel program's first host stretches leave in their buffers, for arbitrary entry contents.

  Between its regions the kernel program runs straight lines of array operations on the host. This file reads
  the buffers that later steps use off the first five of those lines: the two bias rows laid out as one-row
  matrices; the clipped in-degree column; the first aggregation `h + segment_sum (h[col] * ea, row) / deg`; and the
  folded batch-normalisation weights and bias, whole and as layer 0's slices. Each line is first read on its own,
  from entry contents that are a variable: a buffer the line writes holds the line's function of the entry
  contents, a buffer it does not write keeps them. The degree and the aggregation pass through three consecutive
  lines (the counting scatter; the clip, which is a called function; the rest), and their values follow by
  substituting the single-line readings into one another.
-/
import proofs.«111450_j42666205118859_2_alg».proof.Proof.ChunkDefs

set_option Elab.async false

noncomputable section

namespace Cert.KernelIdeal.Chunks

open Cert.KernelIdeal Cert.KernelIdeal.Gen
open Idealize.ShloMosaic Idealize.ShloMosaic.TcCoe Idealize.SL.Sem Idealize.ShloMosaic.StableHlo

variable (V : Valuation τ sig (Elt Ideal))

/-! ## The two one-operation lines: a bias vector as a one-row matrix -/

set_option maxHeartbeats 400000 in
theorem seg0_v0 : @Eq (FVec Ideal S1x128 .f32) (StableHlo.after hostOps0 V (Proc.devRef .tc main_v0))
    (shapeCast S1x128 (V (Proc.devRef .tc main_arg4) : FVec Ideal S128 .f32) shapeCasts_S128_S1x128) := by
  after_results_simp <;> rfl

set_option maxHeartbeats 400000 in
theorem seg1_v2 : @Eq (FVec Ideal S1x128 .f32) (StableHlo.after hostOps1 V (Proc.devRef .tc main_v2))
    (shapeCast S1x128 (V (Proc.devRef .tc main_arg6) : FVec Ideal S128 .f32) shapeCasts_S128_S1x128) := by
  after_results_simp <;> rfl

/-! ## The counting line: ones scattered by `row` into zeros, and the constant one the clip will read -/

set_option maxHeartbeats 400000 in
theorem ca_s2_cst1 : @Eq (FVec Ideal S_ .f32) (StableHlo.after hostOps2 V (Proc.devRef .tc main_cst_1))
    (constant (F := Ideal) S_ .f32 0x3F800000#32) := by
  after_results_simp <;> rfl

set_option maxHeartbeats 400000 in
theorem ca_s2_v7 : @Eq (FVec Ideal S131072 .f32) (StableHlo.after hostOps2 V (Proc.devRef .tc main_v7))
    (Host.scatterAdd scatter_S131072_S2097152x1_S2097152_n_0_0_1
      (broadcastInDim S131072 ![] bcast_S_S131072 (constant (F := Ideal) S_ .f32 0x00000000#32))
      (broadcastInDim S2097152x1 ![0] bcast_S2097152_S2097152x1_0 (V (Proc.devRef .tc main_arg17) : IVec S2097152 32))
      (broadcastInDim S2097152 ![] bcast_S_S2097152 (constant (F := Ideal) S_ .f32 0x3F800000#32))) := by
  after_results_simp <;> rfl

/-! ## The clip: the larger of the broadcast constant and the count -/

set_option maxHeartbeats 400000 in
theorem ca_s21_v8 : @Eq (FVec Ideal S131072 .f32) (StableHlo.after hostOps2_1 V (Proc.devRef .tc main_v8))
    (maximumf (broadcastInDim S131072 ![] bcast_S_S131072 (id (V (Proc.devRef .tc main_cst_1) : FVec Ideal S_ .f32)))
      (V (Proc.devRef .tc main_v7) : FVec Ideal S131072 .f32)) := by
  after_results_simp <;> rfl

/-! ## The long line: the degree column, the aggregation, the folded parameters -/

set_option maxHeartbeats 400000 in
theorem ca_s22_v9 : @Eq (FVec Ideal S131072x1 .f32) (StableHlo.after hostOps2_2 V (Proc.devRef .tc main_v9))
    (broadcastInDim S131072x1 ![0] bcast_S131072_S131072x1_0 (V (Proc.devRef .tc main_v8) : FVec Ideal S131072 .f32)) := by
  after_results_simp <;> rfl

set_option maxHeartbeats 400000 in
theorem ca_s22_v33 : @Eq (FVec Ideal S131072x128 .f32) (StableHlo.after hostOps2_2 V (Proc.devRef .tc main_v33))
    (Kagg (V (Proc.devRef .tc main_v1) : FVec Ideal S131072x128 .f32) (V (Proc.devRef .tc main_v3) : FVec Ideal S2097152x128 .f32)
      (broadcastInDim S131072x1 ![0] bcast_S131072_S131072x1_0 (V (Proc.devRef .tc main_v8) : FVec Ideal S131072 .f32))
      (V (Proc.devRef .tc main_arg17) : IVec S2097152 32) (V (Proc.devRef .tc main_arg18) : IVec S2097152 32)) := by
  after_results_simp <;> rfl

set_option maxHeartbeats 400000 in
theorem ca_s22_v16 : @Eq (FVec Ideal S3x128x128 .f32) (StableHlo.after hostOps2_2 V (Proc.devRef .tc main_v16))
    (Params.wAll (V (Proc.devRef .tc main_arg7) : FVec Ideal S3x128x128 .f32) (V (Proc.devRef .tc main_arg9) : FVec Ideal S3x128 .f32) (V (Proc.devRef .tc main_arg12) : FVec Ideal S3x128 .f32)) := by
  after_results_simp <;> rfl

set_option maxHeartbeats 400000 in
theorem ca_s22_v19 : @Eq (FVec Ideal S3x128 .f32) (StableHlo.after hostOps2_2 V (Proc.devRef .tc main_v19))
    (Params.bAll (V (Proc.devRef .tc main_arg8) : FVec Ideal S3x128 .f32) (V (Proc.devRef .tc main_arg9) : FVec Ideal S3x128 .f32) (V (Proc.devRef .tc main_arg10) : FVec Ideal S3x128 .f32) (V (Proc.devRef .tc main_arg11) : FVec Ideal S3x128 .f32) (V (Proc.devRef .tc main_arg12) : FVec Ideal S3x128 .f32)) := by
  after_results_simp <;> rfl

set_option maxHeartbeats 400000 in
theorem ca_s22_v35 : @Eq (FVec Ideal S128x128 .f32) (StableHlo.after hostOps2_2 V (Proc.devRef .tc main_v35))
    (Params.w0 (V (Proc.devRef .tc main_arg7) : FVec Ideal S3x128x128 .f32) (V (Proc.devRef .tc main_arg9) : FVec Ideal S3x128 .f32) (V (Proc.devRef .tc main_arg12) : FVec Ideal S3x128 .f32)) := by
  after_results_simp <;> rfl

set_option maxHeartbeats 400000 in
theorem ca_s22_v38 : @Eq (FVec Ideal S1x128 .f32) (StableHlo.after hostOps2_2 V (Proc.devRef .tc main_v38))
    (Params.b0 (V (Proc.devRef .tc main_arg8) : FVec Ideal S3x128 .f32) (V (Proc.devRef .tc main_arg9) : FVec Ideal S3x128 .f32) (V (Proc.devRef .tc main_arg10) : FVec Ideal S3x128 .f32) (V (Proc.devRef .tc main_arg11) : FVec Ideal S3x128 .f32) (V (Proc.devRef .tc main_arg12) : FVec Ideal S3x128 .f32)) := by
  after_results_simp <;> rfl

/-! ## Buffers the counting line and the clip do not write keep their contents -/

set_option maxHeartbeats 400000 in
theorem ca_k2_v1 : @Eq (FVec Ideal S131072x128 .f32) (StableHlo.after hostOps2 V (Proc.devRef .tc main_v1)) (V (Proc.devRef .tc main_v1)) := by
  after_results_simp <;> rfl
set_option maxHeartbeats 400000 in
theorem ca_k21_v1 : @Eq (FVec Ideal S131072x128 .f32) (StableHlo.after hostOps2_1 V (Proc.devRef .tc main_v1)) (V (Proc.devRef .tc main_v1)) := by
  after_results_simp <;> rfl
set_option maxHeartbeats 400000 in
theorem ca_k2_v3 : @Eq (FVec Ideal S2097152x128 .f32) (StableHlo.after hostOps2 V (Proc.devRef .tc main_v3)) (V (Proc.devRef .tc main_v3)) := by
  after_results_simp <;> rfl
set_option maxHeartbeats 400000 in
theorem ca_k21_v3 : @Eq (FVec Ideal S2097152x128 .f32) (StableHlo.after hostOps2_1 V (Proc.devRef .tc main_v3)) (V (Proc.devRef .tc main_v3)) := by
  after_results_simp <;> rfl
set_option maxHeartbeats 400000 in
theorem ca_k2_arg7 : @Eq (FVec Ideal S3x128x128 .f32) (StableHlo.after hostOps2 V (Proc.devRef .tc main_arg7)) (V (Proc.devRef .tc main_arg7)) := by
  after_results_simp <;> rfl
set_option maxHeartbeats 400000 in
theorem ca_k21_arg7 : @Eq (FVec Ideal S3x128x128 .f32) (StableHlo.after hostOps2_1 V (Proc.devRef .tc main_arg7)) (V (Proc.devRef .tc main_arg7)) := by
  after_results_simp <;> rfl
set_option maxHeartbeats 400000 in
theorem ca_k2_arg8 : @Eq (FVec Ideal S3x128 .f32) (StableHlo.after hostOps2 V (Proc.devRef .tc main_arg8)) (V (Proc.devRef .tc main_arg8)) := by
  after_results_simp <;> rfl
set_option maxHeartbeats 400000 in
theorem ca_k21_arg8 : @Eq (FVec Ideal S3x128 .f32) (StableHlo.after hostOps2_1 V (Proc.devRef .tc main_arg8)) (V (Proc.devRef .tc main_arg8)) := by
  after_results_simp <;> rfl
set_option maxHeartbeats 400000 in
theorem ca_k2_arg9 : @Eq (FVec Ideal S3x128 .f32) (StableHlo.after hostOps2 V (Proc.devRef .tc main_arg9)) (V (Proc.devRef .tc main_arg9)) := by
  after_results_simp <;> rfl
set_option maxHeartbeats 400000 in
theorem ca_k21_arg9 : @Eq (FVec Ideal S3x128 .f32) (StableHlo.after hostOps2_1 V (Proc.devRef .tc main_arg9)) (V (Proc.devRef .tc main_arg9)) := by
  after_results_simp <;> rfl
set_option maxHeartbeats 400000 in
theorem ca_k2_arg10 : @Eq (FVec Ideal S3x128 .f32) (StableHlo.after hostOps2 V (Proc.devRef .tc main_arg10)) (V (Proc.devRef .tc main_arg10)) := by
  after_results_simp <;> rfl
set_option maxHeartbeats 400000 in
theorem ca_k21_arg10 : @Eq (FVec Ideal S3x128 .f32) (StableHlo.after hostOps2_1 V (Proc.devRef .tc main_arg10)) (V (Proc.devRef .tc main_arg10)) := by
  after_results_simp <;> rfl
set_option maxHeartbeats 400000 in
theorem ca_k2_arg11 : @Eq (FVec Ideal S3x128 .f32) (StableHlo.after hostOps2 V (Proc.devRef .tc main_arg11)) (V (Proc.devRef .tc main_arg11)) := by
  after_results_simp <;> rfl
set_option maxHeartbeats 400000 in
theorem ca_k21_arg11 : @Eq (FVec Ideal S3x128 .f32) (StableHlo.after hostOps2_1 V (Proc.devRef .tc main_arg11)) (V (Proc.devRef .tc main_arg11)) := by
  after_results_simp <;> rfl
set_option maxHeartbeats 400000 in
theorem ca_k2_arg12 : @Eq (FVec Ideal S3x128 .f32) (StableHlo.after hostOps2 V (Proc.devRef .tc main_arg12)) (V (Proc.devRef .tc main_arg12)) := by
  after_results_simp <;> rfl
set_option maxHeartbeats 400000 in
theorem ca_k21_arg12 : @Eq (FVec Ideal S3x128 .f32) (StableHlo.after hostOps2_1 V (Proc.devRef .tc main_arg12)) (V (Proc.devRef .tc main_arg12)) := by
  after_results_simp <;> rfl
set_option maxHeartbeats 400000 in
theorem ca_k2_arg17 : @Eq (IVec S2097152 32) (StableHlo.after hostOps2 V (Proc.devRef .tc main_arg17)) (V (Proc.devRef .tc main_arg17)) := by
  after_results_simp <;> rfl
set_option maxHeartbeats 400000 in
theorem ca_k21_arg17 : @Eq (IVec S2097152 32) (StableHlo.after hostOps2_1 V (Proc.devRef .tc main_arg17)) (V (Proc.devRef .tc main_arg17)) := by
  after_results_simp <;> rfl
set_option maxHeartbeats 400000 in
theorem ca_k2_arg18 : @Eq (IVec S2097152 32) (StableHlo.after hostOps2 V (Proc.devRef .tc main_arg18)) (V (Proc.devRef .tc main_arg18)) := by
  after_results_simp <;> rfl
set_option maxHeartbeats 400000 in
theorem ca_k21_arg18 : @Eq (IVec S2097152 32) (StableHlo.after hostOps2_1 V (Proc.devRef .tc main_arg18)) (V (Proc.devRef .tc main_arg18)) := by
  after_results_simp <;> rfl

/-! ## Through the three lines -/

theorem seg2_v9 : @Eq (FVec Ideal S131072x1 .f32) (StableHlo.after hostOps2_2 (StableHlo.after hostOps2_1 (StableHlo.after hostOps2 V)) (Proc.devRef .tc main_v9)) (Kdeg (V (Proc.devRef .tc main_arg17) : IVec S2097152 32)) := by
  rw [ca_s22_v9, ca_s21_v8, ca_s2_cst1, ca_s2_v7]
  rfl

theorem seg2_v33 : @Eq (FVec Ideal S131072x128 .f32) (StableHlo.after hostOps2_2 (StableHlo.after hostOps2_1 (StableHlo.after hostOps2 V)) (Proc.devRef .tc main_v33))
    (Kagg (V (Proc.devRef .tc main_v1) : FVec Ideal S131072x128 .f32) (V (Proc.devRef .tc main_v3) : FVec Ideal S2097152x128 .f32) (Kdeg (V (Proc.devRef .tc main_arg17) : IVec S2097152 32)) (V (Proc.devRef .tc main_arg17) : IVec S2097152 32) (V (Proc.devRef .tc main_arg18) : IVec S2097152 32)) := by
  rw [ca_s22_v33, ca_s21_v8, ca_s2_cst1, ca_s2_v7, ca_k21_v1, ca_k2_v1, ca_k21_v3, ca_k2_v3, ca_k21_arg17, ca_k2_arg17, ca_k21_arg18, ca_k2_arg18]
  rfl

theorem seg2_v16 : @Eq (FVec Ideal S3x128x128 .f32) (StableHlo.after hostOps2_2 (StableHlo.after hostOps2_1 (StableHlo.after hostOps2 V)) (Proc.devRef .tc main_v16))
    (Params.wAll (V (Proc.devRef .tc main_arg7) : FVec Ideal S3x128x128 .f32) (V (Proc.devRef .tc main_arg9) : FVec Ideal S3x128 .f32) (V (Proc.devRef .tc main_arg12) : FVec Ideal S3x128 .f32)) := by
  rw [ca_s22_v16, ca_k21_arg7, ca_k2_arg7, ca_k21_arg9, ca_k2_arg9, ca_k21_arg12, ca_k2_arg12]

theorem seg2_v19 : @Eq (FVec Ideal S3x128 .f32) (StableHlo.after hostOps2_2 (StableHlo.after hostOps2_1 (StableHlo.after hostOps2 V)) (Proc.devRef .tc main_v19))
    (Params.bAll (V (Proc.devRef .tc main_arg8) : FVec Ideal S3x128 .f32) (V (Proc.devRef .tc main_arg9) : FVec Ideal S3x128 .f32) (V (Proc.devRef .tc main_arg10) : FVec Ideal S3x128 .f32) (V (Proc.devRef .tc main_arg11) : FVec Ideal S3x128 .f32) (V (Proc.devRef .tc main_arg12) : FVec Ideal S3x128 .f32)) := by
  rw [ca_s22_v19, ca_k21_arg8, ca_k2_arg8, ca_k21_arg9, ca_k2_arg9, ca_k21_arg10, ca_k2_arg10, ca_k21_arg11, ca_k2_arg11, ca_k21_arg12, ca_k2_arg12]

theorem seg2_v35 : @Eq (FVec Ideal S128x128 .f32) (StableHlo.after hostOps2_2 (StableHlo.after hostOps2_1 (StableHlo.after hostOps2 V)) (Proc.devRef .tc main_v35))
    (Params.w0 (V (Proc.devRef .tc main_arg7) : FVec Ideal S3x128x128 .f32) (V (Proc.devRef .tc main_arg9) : FVec Ideal S3x128 .f32) (V (Proc.devRef .tc main_arg12) : FVec Ideal S3x128 .f32)) := by
  rw [ca_s22_v35, ca_k21_arg7, ca_k2_arg7, ca_k21_arg9, ca_k2_arg9, ca_k21_arg12, ca_k2_arg12]

theorem seg2_v38 : @Eq (FVec Ideal S1x128 .f32) (StableHlo.after hostOps2_2 (StableHlo.after hostOps2_1 (StableHlo.after hostOps2 V)) (Proc.devRef .tc main_v38))
    (Params.b0 (V (Proc.devRef .tc main_arg8) : FVec Ideal S3x128 .f32) (V (Proc.devRef .tc main_arg9) : FVec Ideal S3x128 .f32) (V (Proc.devRef .tc main_arg10) : FVec Ideal S3x128 .f32) (V (Proc.devRef .tc main_arg11) : FVec Ideal S3x128 .f32) (V (Proc.devRef .tc main_arg12) : FVec Ideal S3x128 .f32)) := by
  rw [ca_s22_v38, ca_k21_arg8, ca_k2_arg8, ca_k21_arg9, ca_k2_arg9, ca_k21_arg10, ca_k2_arg10, ca_k21_arg11, ca_k2_arg11, ca_k21_arg12, ca_k2_arg12]

end Cert.KernelIdeal.Chunks

end
-- ==== Proof.RefChains.lean ====
/-
  The reference's stages are the kernel-side chains.

  The reference program computes the clipped degree column, each layer's aggregation and the closing stretch by the same
  host operations as the kernel program, over its own copies of the shape names and dimension records: unfolding the
  reference's stage definitions gives the named chains letter for letter.
-/
import proofs.«111450_j42666205118859_2_alg».proof.Proof.ChunkDefs
import proofs.«111450_j42666205118859_2_alg».proof.Proof.RefRead

noncomputable section

namespace Cert.Bridge

open Idealize.ShloMosaic
open Cert.ReferenceIdeal.ReadP Cert.KernelIdeal.Chunks

set_option maxHeartbeats 2000000

theorem deg_same (x17 : (⟨Cert.ReferenceIdeal.S2097152, .i32⟩ : BufTy).Contents (Elt Ideal)) : val_main_v13 (F := Ideal) x17 = Kdeg x17 := rfl

theorem agg0_same (x0 : (⟨Cert.ReferenceIdeal.S131072x64, .f32⟩ : BufTy).Contents (Elt Ideal)) (x1 : (⟨Cert.ReferenceIdeal.S2097152x2, .f32⟩ : BufTy).Contents (Elt Ideal)) (x3 : (⟨Cert.ReferenceIdeal.S64x128, .f32⟩ : BufTy).Contents (Elt Ideal)) (x4 : (⟨Cert.ReferenceIdeal.S128, .f32⟩ : BufTy).Contents (Elt Ideal)) (x5 : (⟨Cert.ReferenceIdeal.S2x128, .f32⟩ : BufTy).Contents (Elt Ideal)) (x6 : (⟨Cert.ReferenceIdeal.S128, .f32⟩ : BufTy).Contents (Elt Ideal)) (x17 : (⟨Cert.ReferenceIdeal.S2097152, .i32⟩ : BufTy).Contents (Elt Ideal)) (x18 : (⟨Cert.ReferenceIdeal.S2097152, .i32⟩ : BufTy).Contents (Elt Ideal)) :
    val_main_v27 (F := Ideal) x0 x1 x3 x4 x5 x6 x17 x18 = Kagg (val_main_v3 (F := Ideal) x0 x3 x4) (val_main_v7 (F := Ideal) x1 x5 x6) (Kdeg x17) x17 x18 := rfl

theorem agg1_same (x0 : (⟨Cert.ReferenceIdeal.S131072x64, .f32⟩ : BufTy).Contents (Elt Ideal)) (x1 : (⟨Cert.ReferenceIdeal.S2097152x2, .f32⟩ : BufTy).Contents (Elt Ideal)) (x3 : (⟨Cert.ReferenceIdeal.S64x128, .f32⟩ : BufTy).Contents (Elt Ideal)) (x4 : (⟨Cert.ReferenceIdeal.S128, .f32⟩ : BufTy).Contents (Elt Ideal)) (x5 : (⟨Cert.ReferenceIdeal.S2x128, .f32⟩ : BufTy).Contents (Elt Ideal)) (x6 : (⟨Cert.ReferenceIdeal.S128, .f32⟩ : BufTy).Contents (Elt Ideal)) (x7 : (⟨Cert.ReferenceIdeal.S3x128x128, .f32⟩ : BufTy).Contents (Elt Ideal)) (x8 : (⟨Cert.ReferenceIdeal.S3x128, .f32⟩ : BufTy).Contents (Elt Ideal)) (x9 : (⟨Cert.ReferenceIdeal.S3x128, .f32⟩ : BufTy).Contents (Elt Ideal)) (x10 : (⟨Cert.ReferenceIdeal.S3x128, .f32⟩ : BufTy).Contents (Elt Ideal)) (x11 : (⟨Cert.ReferenceIdeal.S3x128, .f32⟩ : BufTy).Contents (Elt Ideal)) (x12 : (⟨Cert.ReferenceIdeal.S3x128, .f32⟩ : BufTy).Contents (Elt Ideal)) (x17 : (⟨Cert.ReferenceIdeal.S2097152, .i32⟩ : BufTy).Contents (Elt Ideal)) (x18 : (⟨Cert.ReferenceIdeal.S2097152, .i32⟩ : BufTy).Contents (Elt Ideal)) :
    val_main_v71 (F := Ideal) x0 x1 x3 x4 x5 x6 x7 x8 x9 x10 x11 x12 x17 x18 = Kagg (val_main_v57 (F := Ideal) x0 x1 x3 x4 x5 x6 x7 x8 x9 x10 x11 x12 x17 x18) (val_main_v7 (F := Ideal) x1 x5 x6) (Kdeg x17) x17 x18 := rfl

theorem agg2_same (x0 : (⟨Cert.ReferenceIdeal.S131072x64, .f32⟩ : BufTy).Contents (Elt Ideal)) (x1 : (⟨Cert.ReferenceIdeal.S2097152x2, .f32⟩ : BufTy).Contents (Elt Ideal)) (x3 : (⟨Cert.ReferenceIdeal.S64x128, .f32⟩ : BufTy).Contents (Elt Ideal)) (x4 : (⟨Cert.ReferenceIdeal.S128, .f32⟩ : BufTy).Contents (Elt Ideal)) (x5 : (⟨Cert.ReferenceIdeal.S2x128, .f32⟩ : BufTy).Contents (Elt Ideal)) (x6 : (⟨Cert.ReferenceIdeal.S128, .f32⟩ : BufTy).Contents (Elt Ideal)) (x7 : (⟨Cert.ReferenceIdeal.S3x128x128, .f32⟩ : BufTy).Contents (Elt Ideal)) (x8 : (⟨Cert.ReferenceIdeal.S3x128, .f32⟩ : BufTy).Contents (Elt Ideal)) (x9 : (⟨Cert.ReferenceIdeal.S3x128, .f32⟩ : BufTy).Contents (Elt Ideal)) (x10 : (⟨Cert.ReferenceIdeal.S3x128, .f32⟩ : BufTy).Contents (Elt Ideal)) (x11 : (⟨Cert.ReferenceIdeal.S3x128, .f32⟩ : BufTy).Contents (Elt Ideal)) (x12 : (⟨Cert.ReferenceIdeal.S3x128, .f32⟩ : BufTy).Contents (Elt Ideal)) (x17 : (⟨Cert.ReferenceIdeal.S2097152, .i32⟩ : BufTy).Contents (Elt Ideal)) (x18 : (⟨Cert.ReferenceIdeal.S2097152, .i32⟩ : BufTy).Contents (Elt Ideal)) :
    val_main_v115 (F := Ideal) x0 x1 x3 x4 x5 x6 x7 x8 x9 x10 x11 x12 x17 x18 = Kagg (val_main_v101 (F := Ideal) x0 x1 x3 x4 x5 x6 x7 x8 x9 x10 x11 x12 x17 x18) (val_main_v7 (F := Ideal) x1 x5 x6) (Kdeg x17) x17 x18 := rfl

theorem tail_same (x0 : (⟨Cert.ReferenceIdeal.S131072x64, .f32⟩ : BufTy).Contents (Elt Ideal)) (x1 : (⟨Cert.ReferenceIdeal.S2097152x2, .f32⟩ : BufTy).Contents (Elt Ideal)) (x2 : (⟨Cert.ReferenceIdeal.S64x6, .f32⟩ : BufTy).Contents (Elt Ideal)) (x3 : (⟨Cert.ReferenceIdeal.S64x128, .f32⟩ : BufTy).Contents (Elt Ideal)) (x4 : (⟨Cert.ReferenceIdeal.S128, .f32⟩ : BufTy).Contents (Elt Ideal)) (x5 : (⟨Cert.ReferenceIdeal.S2x128, .f32⟩ : BufTy).Contents (Elt Ideal)) (x6 : (⟨Cert.ReferenceIdeal.S128, .f32⟩ : BufTy).Contents (Elt Ideal)) (x7 : (⟨Cert.ReferenceIdeal.S3x128x128, .f32⟩ : BufTy).Contents (Elt Ideal)) (x8 : (⟨Cert.ReferenceIdeal.S3x128, .f32⟩ : BufTy).Contents (Elt Ideal)) (x9 : (⟨Cert.ReferenceIdeal.S3x128, .f32⟩ : BufTy).Contents (Elt Ideal)) (x10 : (⟨Cert.ReferenceIdeal.S3x128, .f32⟩ : BufTy).Contents (Elt Ideal)) (x11 : (⟨Cert.ReferenceIdeal.S3x128, .f32⟩ : BufTy).Contents (Elt Ideal)) (x12 : (⟨Cert.ReferenceIdeal.S3x128, .f32⟩ : BufTy).Contents (Elt Ideal)) (x13 : (⟨Cert.ReferenceIdeal.S6x32, .f32⟩ : BufTy).Contents (Elt Ideal)) (x14 : (⟨Cert.ReferenceIdeal.S32, .f32⟩ : BufTy).Contents (Elt Ideal)) (x15 : (⟨Cert.ReferenceIdeal.S160x128, .f32⟩ : BufTy).Contents (Elt Ideal)) (x16 : (⟨Cert.ReferenceIdeal.S128, .f32⟩ : BufTy).Contents (Elt Ideal)) (x17 : (⟨Cert.ReferenceIdeal.S2097152, .i32⟩ : BufTy).Contents (Elt Ideal)) (x18 : (⟨Cert.ReferenceIdeal.S2097152, .i32⟩ : BufTy).Contents (Elt Ideal)) (x19 : (⟨Cert.ReferenceIdeal.S131072, .i32⟩ : BufTy).Contents (Elt Ideal)) :
    val_main_v166 (F := Ideal) x0 x1 x2 x3 x4 x5 x6 x7 x8 x9 x10 x11 x12 x13 x14 x15 x16 x17 x18 x19 = Ktail (val_main_v145 (F := Ideal) x0 x1 x3 x4 x5 x6 x7 x8 x9 x10 x11 x12 x17 x18) x2 x13 x14 x15 x16 x19 := rfl

end Cert.Bridge

end
-- ==== Proof.StagesB.lean ====
/-
  The host stretch before the first layer region, read at the buffers later segments use.

  From the two input layers' outputs and the argument arrays the stretch computes, by the same operations as the
  reference: the clipped degree column; the aggregation `h + segment_sum (h[col] * ea, row) / deg` that the first layer
  reads; and the folded batch-normalisation parameters of all three layers with the first layer's slices of them.
-/
import proofs.«111450_j42666205118859_2_alg».proof.Proof.StagesA
import proofs.«111450_j42666205118859_2_alg».proof.Proof.Params
import proofs.«111450_j42666205118859_2_alg».proof.Proof.ChunksA
import proofs.«111450_j42666205118859_2_alg».proof.Proof.RefChains

noncomputable section

namespace Cert.Bridge

open Cert.KernelIdeal Cert.KernelIdeal.Gen Cert.KernelIdeal.Fold
open Idealize.ShloMosaic Idealize.ShloMosaic.TcCoe Idealize.SL.Sem Idealize.ShloMosaic.StableHlo
open Cert.ReferenceIdeal.ReadP
open Cert.Gcn

variable (m : (ℓ : Loc nD τ sig) → Buf (Elt Ideal) ℓ) (ρ : Dev nD → PrngReg) (c : Dev nD)

set_option maxHeartbeats 4000000

open Cert.KernelIdeal.Chunks

/-- The clipped degree column, computed once before the first layer. -/
theorem W7_v9 : W7 m ρ c (Proc.devRef .tc main_v9) = Kdeg (a17 m c) :=
  (seg2_v9 (W4 m ρ c)).trans (by rw [W4_arg17])

/-- The scaled weights of all three layers, computed once before the first layer. -/
theorem W7_v16 : W7 m ρ c (Proc.devRef .tc main_v16) = Params.wAll (a7 m c) (a9 m c) (a12 m c) :=
  (seg2_v16 (W4 m ρ c)).trans (by rw [W4_arg7, W4_arg9, W4_arg12])

/-- The folded biases of all three layers, computed once before the first layer. -/
theorem W7_v19 : W7 m ρ c (Proc.devRef .tc main_v19) = Params.bAll (a8 m c) (a9 m c) (a10 m c) (a11 m c) (a12 m c) :=
  (seg2_v19 (W4 m ρ c)).trans (by rw [W4_arg8, W4_arg9, W4_arg10, W4_arg11, W4_arg12])

/-- The first layer's weights. -/
theorem W7_v35 : W7 m ρ c (Proc.devRef .tc main_v35) = Params.w0 (a7 m c) (a9 m c) (a12 m c) :=
  (seg2_v35 (W4 m ρ c)).trans (by rw [W4_arg7, W4_arg9, W4_arg12])

/-- The first layer's bias row. -/
theorem W7_v38 : W7 m ρ c (Proc.devRef .tc main_v38) = Params.b0 (a8 m c) (a9 m c) (a10 m c) (a11 m c) (a12 m c) :=
  (seg2_v38 (W4 m ρ c)).trans (by rw [W4_arg8, W4_arg9, W4_arg10, W4_arg11, W4_arg12])

/-- The first layer's input: the node features plus their normalised neighbourhood sums. -/
theorem agg0_eq : W7 m ρ c (Proc.devRef .tc main_v33) = val_main_v27 (F := Ideal) (a0 m c) (a1 m c) (a3 m c) (a4 m c) (a5 m c) (a6 m c) (a17 m c) (a18 m c) :=
  (seg2_v33 (W4 m ρ c)).trans (by
    rw [W4_v1_carry, nodes_eq, edges_eq, W4_arg17, W4_arg18]
    exact (agg0_same _ _ _ _ _ _ _ _).symm)

end Cert.Bridge

end
-- ==== Proof.RegionB.lean ====
/-
  Regions 2, 3 and 4 of the kernel, each read as one function of whole arrays.

  Each of the three regions is a fully connected layer followed by the rectifier. The activations, 131072 rows of
  128 entries, are cut into 32 blocks of 4096 consecutive rows; the weight matrix [128, 128] and the bias row
  [1, 128] are taken whole at every block. Block `t` of the result is computed from block `t` of the activations:
  entry `(p, q)` of that block is the larger of zero and the sum over `k` of `x[4096 t + p, k] * w[k, q]`, plus
  `b[0, q]`. Row `r` of the result lies in block `r / 4096` and in no other, the 32 blocks fill the array, so the
  array the region leaves is `denseRelu` of the three arrays the region found.
-/
import proofs.«111450_j42666205118859_2_alg».proof.Proof.Gen.KernelIdeal.Frame
import proofs.«111450_j42666205118859_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValueB

open Cert.KernelIdeal Cert.KernelIdeal.Gen
open Idealize.ShloMosaic Idealize.ShloMosaic.TcCoe Idealize.SL.Sem Idealize.ShloMosaic.ValueIdx
open Idealize.ShloMosaic.Pipeline (Dat)

/-! ## One entry of a block's result -/

/-- In the product of a block with the weights, the left factor of the entry `j` is read in row `j 0` … -/
theorem left_row (j : S4096x128.Idx) (c : dot_S4096x128_S128x128_S4096x128_1_0_0_1_n_n.contr.Idx) :
    (dot_S4096x128_S128x128_S4096x128_1_0_0_1_n_n.lhsIdx j c 0).val = (j 0).val := by
  unfold DotDims.lhsIdx
  rw [dif_neg (show ¬(0 : Fin S4096x128.rank) ∈ dot_S4096x128_S128x128_S4096x128_1_0_0_1_n_n.lhsBatch by decide),
    dif_pos (show (0 : Fin S4096x128.rank) ∈ dot_S4096x128_S128x128_S4096x128_1_0_0_1_n_n.lhsNonContracting by decide)]
  rfl

/-- … and the right factor in column `j 1`. -/
theorem right_column (j : S4096x128.Idx) (c : dot_S4096x128_S128x128_S4096x128_1_0_0_1_n_n.contr.Idx) :
    (dot_S4096x128_S128x128_S4096x128_1_0_0_1_n_n.rhsIdx j c 1).val = (j 1).val := by
  unfold DotDims.rhsIdx
  rw [dif_neg (show ¬(1 : Fin S128x128.rank) ∈ dot_S4096x128_S128x128_S4096x128_1_0_0_1_n_n.rhsBatch by decide),
    dif_pos (show (1 : Fin S128x128.rank) ∈ dot_S4096x128_S128x128_S4096x128_1_0_0_1_n_n.rhsNonContracting by decide)]
  rfl

/-- The product of a block of 4096 rows with the weight matrix, at the entry `(p, q)`: row `p` of the block
    against column `q` of the weights, summed over the 128 shared coordinates. -/
theorem blockProduct_entry (a : FVec Ideal S4096x128 .bf16) (w : FVec Ideal S128x128 .bf16) (p : Fin 4096) (q : Fin 128) :
    matmul dot_S4096x128_S128x128_S4096x128_1_0_0_1_n_n none a w (constant S4096x128 .f32 0x00000000#32) (ix2 p q)
      = ∑ k : Fin 128, a (ix2 p k) * w (ix2 k q) := by
  refine (Ideal.matmul_constant_zero_apply dot_S4096x128_S128x128_S4096x128_1_0_0_1_n_n none a w (ix2 p q)).trans ?_
  rw [← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 p q)
      ((contrEquiv1 dot_S4096x128_S128x128_S4096x128_1_0_0_1_n_n 128 rfl rfl).symm k) = ix2 p k :=
    funext fun d => Fin.ext (by
      match d with
      | ⟨0, _⟩ => exact left_row _ _
      | ⟨1, _⟩ => exact (dot_S4096x128_S128x128_S4096x128_1_0_0_1_n_n.lhsIdx_val_of_single rfl _ _).trans hk)
  have er : dot_S4096x128_S128x128_S4096x128_1_0_0_1_n_n.rhsIdx (ix2 p q)
      ((contrEquiv1 dot_S4096x128_S128x128_S4096x128_1_0_0_1_n_n 128 rfl rfl).symm k) = ix2 k q :=
    funext fun d => Fin.ext (by
      match d with
      | ⟨0, _⟩ => exact (dot_S4096x128_S128x128_S4096x128_1_0_0_1_n_n.rhsIdx_val_of_single rfl _ _).trans hk
      | ⟨1, _⟩ => exact right_column _ _)
  rw [el, er]

/-- What a grid point computes from its three blocks, at the entry `(p, q)`: the layer's sum plus the bias entry,
    clamped below at zero. The narrowing of the operands to sixteen bits changes nothing at the extended reals. -/
theorem layer_entry (x : Vec Ideal S4096x128 .f32) (w : Vec Ideal S128x128 .f32) (b : Vec Ideal S1x128 .f32)
    (p : Fin 4096) (q : Fin 128) :
    k2_pay1 (F := Ideal) x w b (ix2 p q) = max ((∑ k : Fin 128, x (ix2 p k) * w (ix2 k q)) + b (ix2 (0 : Fin 1) q)) 0 := by
  unfold k2_pay1
  simp only [shapeCast_self]
  refine (maximumf_apply _ _ (ix2 p q)).trans ?_
  refine congrArg₂ max ?_ Ideal.ofBits_zero_f32
  refine (addf_apply _ _ (ix2 p q)).trans ?_
  refine congrArg₂ (· + ·) ?_ ?_
  · exact blockProduct_entry _ _ p q
  · exact broadcastTo_1b_ab_apply b broadcasts_S1x128_S4096x128 p q

/-! ## A block of the result is a block of the layer -/

/-- The entry `j` of the result of a grid point whose activation block starts at row `4096 T`, when that entry sits
    at the index `i` of the whole array: it is the layer of the whole arrays at `i`. The block `x` holds the rows
    `4096 T … 4096 T + 4095` of the activations `X` (`hx`); the weights and the bias row are the whole arrays. -/
theorem layer_of_blocks (X : S131072x128.Idx → EReal) (W : S128x128.Idx → EReal) (B : S1x128.Idx → EReal)
    (x : Vec Ideal S4096x128 .f32) (w : Vec Ideal S128x128 .f32) (b : Vec Ideal S1x128 .f32) (T : Nat)
    (hx : ∀ (y : S4096x128.Idx) (i : S131072x128.Idx), (i 0).val = T * 4096 + (y 0).val → (i 1).val = (y 1).val → x y = X i)
    (hw : ∀ y, w y = W y) (hb : ∀ y, b y = B y)
    (j : S4096x128.Idx) (i : S131072x128.Idx) (hi0 : (i 0).val = T * 4096 + (j 0).val) (hi1 : (i 1).val = (j 1).val) :
    k2_pay1 (F := Ideal) x w b j
      = max ((∑ k : Fin 128, X (ix2 (i 0) k) * W (ix2 k (i 1))) + B (ix2 (0 : Fin 1) (i 1))) 0 := by
  obtain ⟨p, q, rfl⟩ : ∃ (p : Fin 4096) (q : Fin 128), j = ix2 p q := ⟨j 0, j 1, eq_ix2 j⟩
  have hq : (i 1 : Fin 128) = q := Fin.ext hi1
  refine (layer_entry x w b p q).trans ?_
  rw [hq]
  refine congrArg₂ max (congrArg₂ (· + ·) (Finset.sum_congr rfl fun k _ => ?_) (hb _)) rfl
  exact congrArg₂ (· * ·) (hx (ix2 p k) (ix2 (i 0) k) hi0 rfl) (hw _)

/-- Regions 3 and 4 compute the same function of their three blocks as region 2. -/
theorem payload3_eq (x : Vec Ideal S4096x128 .f32) (w : Vec Ideal S128x128 .f32) (b : Vec Ideal S1x128 .f32) :
    k3_pay1 (F := Ideal) x w b = k2_pay1 (F := Ideal) x w b := rfl
theorem payload4_eq (x : Vec Ideal S4096x128 .f32) (w : Vec Ideal S128x128 .f32) (b : Vec Ideal S1x128 .f32) :
    k4_pay1 (F := Ideal) x w b = k2_pay1 (F := Ideal) x w b := rfl

/-- A staging buffer is read and written whole: from offset zero on both axes. -/
theorem zeroOffsets : (![0, 0] : Fin 2 → Nat) = fun _ => 0 := funext fun a => by fin_cases a <;> rfl

/-! ## Region 2 -/

section
variable (V : (c : Dev nD) → (b : Ref sig .tc) → Buf (Elt Ideal) ((c : Thread nD τ).loc b))

/-- Where the blocks of grid point `t` lie: the activations' block and the result's block are block `t` along the
    rows, the weights and the bias row are the one block of their arrays. -/
theorem blockIndex2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

set_option maxHeartbeats 400000 in
/-- What grid point `t` writes back is block `t` of the layer of the arrays the region found. -/
theorem written2 (c : Dev nD) (t : Fin cfg2.N) :
    (dat2 (F := Ideal) V c).flushed 3 t = ((cfg2.win 3).blk t).view.read (Elt Ideal)
      (Cert.Gcn.denseRelu (V c main_v33) (V c main_v35) (V c main_v38)) := by
  show (cfg2.win 3).cut (grid2.coords t) ((dat2 V c).after 3 t) = _
  rw [after2_3]
  unfold out2_3
  rw [View.canon_unit_zero zeroOffsets]
  simp only [View.ld_unit_zero (S := S4096x128) zeroOffsets, View.ld_unit_zero (S := S128x128) zeroOffsets,
    View.ld_unit_zero (S := S1x128) zeroOffsets]
  obtain ⟨e00, e01, e10, e11, e20, e21, e30, e31⟩ := blockIndex2 t
  funext j
  refine layer_of_blocks (V c main_v33) (V c main_v35) (V c main_v38) (iblk2 V c 0 t) (iblk2 V c 1 t) (iblk2 V c 2 t)
    t.val ?_ ?_ ?_ j (((cfg2.win 3).blk t).view.emb j) ?_ ?_
  · intro y i h0 h1
    show V c main_v33 (((cfg2.win 0).blk t).view.emb y) = V c main_v33 i
    refine congrArg (V c main_v33) (funext fun a => Fin.ext ?_)
    match a with
    | ⟨0, _⟩ => show win2_0.index t (0 : Fin 2) * 4096 + 1 * (y 0).val = (i 0).val; omega
    | ⟨1, _⟩ => show win2_0.index t (1 : Fin 2) * 128 + 1 * (y 1).val = (i 1).val; omega
  · intro y
    show V c main_v35 (((cfg2.win 1).blk t).view.emb y) = V c main_v35 y
    refine congrArg (V c main_v35) (funext fun a => Fin.ext ?_)
    match a with
    | ⟨0, _⟩ => show win2_1.index t (0 : Fin 2) * 128 + 1 * (y 0).val = (y 0).val; omega
    | ⟨1, _⟩ => show win2_1.index t (1 : Fin 2) * 128 + 1 * (y 1).val = (y 1).val; omega
  · intro y
    show V c main_v38 (((cfg2.win 2).blk t).view.emb y) = V c main_v38 y
    refine congrArg (V c main_v38) (funext fun a => Fin.ext ?_)
    match a with
    | ⟨0, _⟩ => show win2_2.index t (0 : Fin 2) * 1 + 1 * (y 0).val = (y 0).val; omega
    | ⟨1, _⟩ => show win2_2.index t (1 : Fin 2) * 128 + 1 * (y 1).val = (y 1).val; omega
  · show win2_3.index t (0 : Fin 2) * 4096 + 1 * (j 0).val = t.val * 4096 + (j 0).val; omega
  · show win2_3.index t (1 : Fin 2) * 128 + 1 * (j 1).val = (j 1).val; omega

/-- An index of the result lies in the block of grid point `t` when, on each axis, its coordinate is within the
    block's extent from the block's first coordinate. -/
theorem mem_block2 (t : Fin cfg2.N) (i : S131072x128.Idx) :
    i ∈ ((cfg2.win 3).blk t).view.set ↔ ∀ a : Fin 2, win2_3.index t a * S4096x128.size a ≤ (i a).val
      ∧ (i a).val < win2_3.index t a * S4096x128.size a + S4096x128.size a := by
  show i ∈ ((View.whole main_v39).slice (win2_3.rect t)).set ↔ _
  rw [View.set_slice_whole, Rect.mem_set_unit]
  exact Iff.rfl

/-- Every index of the result is written: row `r` lies in the block of grid point `r / 4096`. -/
theorem covered2 (i : S131072x128.Idx) :
    ∃ t : Fin cfg2.N, (cfg2.win 3).flush t = true ∧ i ∈ ((cfg2.win 3).blk t).view.set := by
  have h0 : (i 0).val < 131072 := (i 0).isLt
  have h1 : (i 1).val < 128 := (i 1).isLt
  have hN : cfg2.N = 32 := N_2
  obtain ⟨t, ht⟩ : ∃ t : Fin cfg2.N, t.val = (i 0).val / 4096 := ⟨⟨(i 0).val / 4096, by rw [hN]; omega⟩, rfl⟩
  obtain ⟨-, -, -, -, -, -, e30, e31⟩ := blockIndex2 t
  refine ⟨t, flush2_3 t, ?_⟩
  rw [mem_block2]
  intro a
  match a with
  | ⟨0, _⟩ =>
    show win2_3.index t (0 : Fin 2) * 4096 ≤ (i 0).val ∧ (i 0).val < win2_3.index t (0 : Fin 2) * 4096 + 4096
    omega
  | ⟨1, _⟩ =>
    show win2_3.index t (1 : Fin 2) * 128 ≤ (i 1).val ∧ (i 1).val < win2_3.index t (1 : Fin 2) * 128 + 128
    omega

/-- Region 2 leaves in its result array the rectified layer of the three arrays it found. -/
theorem region2 (c : Dev nD) :
    (dat2 (F := Ideal) V c).arrAt 3 cfg2.N = Cert.Gcn.denseRelu (V c main_v33) (V c main_v35) (V c main_v38) :=
  (dat2 (F := Ideal) V c).arrAt_eq_of_cover 3 (Cert.Gcn.denseRelu (V c main_v33) (V c main_v35) (V c main_v38))
    (fun t _ => written2 V c t) covered2

end

/-! ## Region 3 -/

section
variable (V : (c : Dev nD) → (b : Ref sig .tc) → Buf (Elt Ideal) ((c : Thread nD τ).loc b))

/-- Where the blocks of grid point `t` lie: the activations' block and the result's block are block `t` along the
    rows, the weights and the bias row are the one block of their arrays. -/
theorem blockIndex3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

set_option maxHeartbeats 400000 in
/-- What grid point `t` writes back is block `t` of the layer of the arrays the region found. -/
theorem written3 (c : Dev nD) (t : Fin cfg3.N) :
    (dat3 (F := Ideal) V c).flushed 3 t = ((cfg3.win 3).blk t).view.read (Elt Ideal)
      (Cert.Gcn.denseRelu (V c main_v53) (V c main_v55) (V c main_v58)) := by
  show (cfg3.win 3).cut (grid3.coords t) ((dat3 V c).after 3 t) = _
  rw [after3_3]
  unfold out3_3
  rw [View.canon_unit_zero zeroOffsets]
  simp only [View.ld_unit_zero (S := S4096x128) zeroOffsets, View.ld_unit_zero (S := S128x128) zeroOffsets,
    View.ld_unit_zero (S := S1x128) zeroOffsets]
  obtain ⟨e00, e01, e10, e11, e20, e21, e30, e31⟩ := blockIndex3 t
  funext j
  refine (congrFun (payload3_eq (iblk3 V c 0 t) (iblk3 V c 1 t) (iblk3 V c 2 t)) j).trans ?_
  refine layer_of_blocks (V c main_v53) (V c main_v55) (V c main_v58) (iblk3 V c 0 t) (iblk3 V c 1 t) (iblk3 V c 2 t)
    t.val ?_ ?_ ?_ j (((cfg3.win 3).blk t).view.emb j) ?_ ?_
  · intro y i h0 h1
    show V c main_v53 (((cfg3.win 0).blk t).view.emb y) = V c main_v53 i
    refine congrArg (V c main_v53) (funext fun a => Fin.ext ?_)
    match a with
    | ⟨0, _⟩ => show win3_0.index t (0 : Fin 2) * 4096 + 1 * (y 0).val = (i 0).val; omega
    | ⟨1, _⟩ => show win3_0.index t (1 : Fin 2) * 128 + 1 * (y 1).val = (i 1).val; omega
  · intro y
    show V c main_v55 (((cfg3.win 1).blk t).view.emb y) = V c main_v55 y
    refine congrArg (V c main_v55) (funext fun a => Fin.ext ?_)
    match a with
    | ⟨0, _⟩ => show win3_1.index t (0 : Fin 2) * 128 + 1 * (y 0).val = (y 0).val; omega
    | ⟨1, _⟩ => show win3_1.index t (1 : Fin 2) * 128 + 1 * (y 1).val = (y 1).val; omega
  · intro y
    show V c main_v58 (((cfg3.win 2).blk t).view.emb y) = V c main_v58 y
    refine congrArg (V c main_v58) (funext fun a => Fin.ext ?_)
    match a with
    | ⟨0, _⟩ => show win3_2.index t (0 : Fin 2) * 1 + 1 * (y 0).val = (y 0).val; omega
    | ⟨1, _⟩ => show win3_2.index t (1 : Fin 2) * 128 + 1 * (y 1).val = (y 1).val; omega
  · show win3_3.index t (0 : Fin 2) * 4096 + 1 * (j 0).val = t.val * 4096 + (j 0).val; omega
  · show win3_3.index t (1 : Fin 2) * 128 + 1 * (j 1).val = (j 1).val; omega

/-- An index of the result lies in the block of grid point `t` when, on each axis, its coordinate is within the
    block's extent from the block's first coordinate. -/
theorem mem_block3 (t : Fin cfg3.N) (i : S131072x128.Idx) :
    i ∈ ((cfg3.win 3).blk t).view.set ↔ ∀ a : Fin 2, win3_3.index t a * S4096x128.size a ≤ (i a).val
      ∧ (i a).val < win3_3.index t a * S4096x128.size a + S4096x128.size a := by
  show i ∈ ((View.whole main_v59).slice (win3_3.rect t)).set ↔ _
  rw [View.set_slice_whole, Rect.mem_set_unit]
  exact Iff.rfl

/-- Every index of the result is written: row `r` lies in the block of grid point `r / 4096`. -/
theorem covered3 (i : S131072x128.Idx) :
    ∃ t : Fin cfg3.N, (cfg3.win 3).flush t = true ∧ i ∈ ((cfg3.win 3).blk t).view.set := by
  have h0 : (i 0).val < 131072 := (i 0).isLt
  have h1 : (i 1).val < 128 := (i 1).isLt
  have hN : cfg3.N = 32 := N_3
  obtain ⟨t, ht⟩ : ∃ t : Fin cfg3.N, t.val = (i 0).val / 4096 := ⟨⟨(i 0).val / 4096, by rw [hN]; omega⟩, rfl⟩
  obtain ⟨-, -, -, -, -, -, e30, e31⟩ := blockIndex3 t
  refine ⟨t, flush3_3 t, ?_⟩
  rw [mem_block3]
  intro a
  match a with
  | ⟨0, _⟩ =>
    show win3_3.index t (0 : Fin 2) * 4096 ≤ (i 0).val ∧ (i 0).val < win3_3.index t (0 : Fin 2) * 4096 + 4096
    omega
  | ⟨1, _⟩ =>
    show win3_3.index t (1 : Fin 2) * 128 ≤ (i 1).val ∧ (i 1).val < win3_3.index t (1 : Fin 2) * 128 + 128
    omega

/-- Region 3 leaves in its result array the rectified layer of the three arrays it found. -/
theorem region3 (c : Dev nD) :
    (dat3 (F := Ideal) V c).arrAt 3 cfg3.N = Cert.Gcn.denseRelu (V c main_v53) (V c main_v55) (V c main_v58) :=
  (dat3 (F := Ideal) V c).arrAt_eq_of_cover 3 (Cert.Gcn.denseRelu (V c main_v53) (V c main_v55) (V c main_v58))
    (fun t _ => written3 V c t) covered3

end

/-! ## Region 4 -/

section
variable (V : (c : Dev nD) → (b : Ref sig .tc) → Buf (Elt Ideal) ((c : Thread nD τ).loc b))

/-- Where the blocks of grid point `t` lie: the activations' block and the result's block are block `t` along the
    rows, the weights and the bias row are the one block of their arrays. -/
theorem blockIndex4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

set_option maxHeartbeats 400000 in
/-- What grid point `t` writes back is block `t` of the layer of the arrays the region found. -/
theorem written4 (c : Dev nD) (t : Fin cfg4.N) :
    (dat4 (F := Ideal) V c).flushed 3 t = ((cfg4.win 3).blk t).view.read (Elt Ideal)
      (Cert.Gcn.denseRelu (V c main_v73) (V c main_v75) (V c main_v78)) := by
  show (cfg4.win 3).cut (grid4.coords t) ((dat4 V c).after 3 t) = _
  rw [after4_3]
  unfold out4_3
  rw [View.canon_unit_zero zeroOffsets]
  simp only [View.ld_unit_zero (S := S4096x128) zeroOffsets, View.ld_unit_zero (S := S128x128) zeroOffsets,
    View.ld_unit_zero (S := S1x128) zeroOffsets]
  obtain ⟨e00, e01, e10, e11, e20, e21, e30, e31⟩ := blockIndex4 t
  funext j
  refine (congrFun (payload4_eq (iblk4 V c 0 t) (iblk4 V c 1 t) (iblk4 V c 2 t)) j).trans ?_
  refine layer_of_blocks (V c main_v73) (V c main_v75) (V c main_v78) (iblk4 V c 0 t) (iblk4 V c 1 t) (iblk4 V c 2 t)
    t.val ?_ ?_ ?_ j (((cfg4.win 3).blk t).view.emb j) ?_ ?_
  · intro y i h0 h1
    show V c main_v73 (((cfg4.win 0).blk t).view.emb y) = V c main_v73 i
    refine congrArg (V c main_v73) (funext fun a => Fin.ext ?_)
    match a with
    | ⟨0, _⟩ => show win4_0.index t (0 : Fin 2) * 4096 + 1 * (y 0).val = (i 0).val; omega
    | ⟨1, _⟩ => show win4_0.index t (1 : Fin 2) * 128 + 1 * (y 1).val = (i 1).val; omega
  · intro y
    show V c main_v75 (((cfg4.win 1).blk t).view.emb y) = V c main_v75 y
    refine congrArg (V c main_v75) (funext fun a => Fin.ext ?_)
    match a with
    | ⟨0, _⟩ => show win4_1.index t (0 : Fin 2) * 128 + 1 * (y 0).val = (y 0).val; omega
    | ⟨1, _⟩ => show win4_1.index t (1 : Fin 2) * 128 + 1 * (y 1).val = (y 1).val; omega
  · intro y
    show V c main_v78 (((cfg4.win 2).blk t).view.emb y) = V c main_v78 y
    refine congrArg (V c main_v78) (funext fun a => Fin.ext ?_)
    match a with
    | ⟨0, _⟩ => show win4_2.index t (0 : Fin 2) * 1 + 1 * (y 0).val = (y 0).val; omega
    | ⟨1, _⟩ => show win4_2.index t (1 : Fin 2) * 128 + 1 * (y 1).val = (y 1).val; omega
  · show win4_3.index t (0 : Fin 2) * 4096 + 1 * (j 0).val = t.val * 4096 + (j 0).val; omega
  · show win4_3.index t (1 : Fin 2) * 128 + 1 * (j 1).val = (j 1).val; omega

/-- An index of the result lies in the block of grid point `t` when, on each axis, its coordinate is within the
    block's extent from the block's first coordinate. -/
theorem mem_block4 (t : Fin cfg4.N) (i : S131072x128.Idx) :
    i ∈ ((cfg4.win 3).blk t).view.set ↔ ∀ a : Fin 2, win4_3.index t a * S4096x128.size a ≤ (i a).val
      ∧ (i a).val < win4_3.index t a * S4096x128.size a + S4096x128.size a := by
  show i ∈ ((View.whole main_v79).slice (win4_3.rect t)).set ↔ _
  rw [View.set_slice_whole, Rect.mem_set_unit]
  exact Iff.rfl

/-- Every index of the result is written: row `r` lies in the block of grid point `r / 4096`. -/
theorem covered4 (i : S131072x128.Idx) :
    ∃ t : Fin cfg4.N, (cfg4.win 3).flush t = true ∧ i ∈ ((cfg4.win 3).blk t).view.set := by
  have h0 : (i 0).val < 131072 := (i 0).isLt
  have h1 : (i 1).val < 128 := (i 1).isLt
  have hN : cfg4.N = 32 := N_4
  obtain ⟨t, ht⟩ : ∃ t : Fin cfg4.N, t.val = (i 0).val / 4096 := ⟨⟨(i 0).val / 4096, by rw [hN]; omega⟩, rfl⟩
  obtain ⟨-, -, -, -, -, -, e30, e31⟩ := blockIndex4 t
  refine ⟨t, flush4_3 t, ?_⟩
  rw [mem_block4]
  intro a
  match a with
  | ⟨0, _⟩ =>
    show win4_3.index t (0 : Fin 2) * 4096 ≤ (i 0).val ∧ (i 0).val < win4_3.index t (0 : Fin 2) * 4096 + 4096
    omega
  | ⟨1, _⟩ =>
    show win4_3.index t (1 : Fin 2) * 128 ≤ (i 1).val ∧ (i 1).val < win4_3.index t (1 : Fin 2) * 128 + 128
    omega

/-- Region 4 leaves in its result array the rectified layer of the three arrays it found. -/
theorem region4 (c : Dev nD) :
    (dat4 (F := Ideal) V c).arrAt 3 cfg4.N = Cert.Gcn.denseRelu (V c main_v73) (V c main_v75) (V c main_v78) :=
  (dat4 (F := Ideal) V c).arrAt_eq_of_cover 3 (Cert.Gcn.denseRelu (V c main_v73) (V c main_v75) (V c main_v78))
    (fun t _ => written4 V c t) covered4

end

end Cert.KernelIdeal.RegionValueB

end
-- ==== Proof.Reals.lean ====
/-
  Real-valued arrays are closed under the operations of a neighbourhood average.

  An array at the ideal instance is a function from indices to extended reals. This file shows that the
  two predicates of the shared vocabulary, "every entry is a real number" and "every entry is a real number
  that is at least one", are preserved by the array operations a mean over graph neighbours is built from:
  entrywise sum, difference, product and maximum; the quotient by an array of reals that are at least one;
  re-indexings (a broadcast, a gather), whose entries are entries of their operand; an accumulating scatter,
  whose entries are an operand entry plus a finite sum of update entries; the constant arrays zero and one;
  and a fully connected layer, a finite sum of products plus a bias entry.
-/
import Idealize.ShloMosaic.PureOps.Ideal
import Idealize.ShloMosaic.PureOps.Ideal.Laws
import Idealize.ShloMosaic.Lib.ValueIdx
import Idealize.ShloMosaic.Lib.IdealHost
import proofs.«111450_j42666205118859_2_alg».proof.Proof.Spec

noncomputable section

namespace Cert.Gcn

open Idealize.ShloMosaic Idealize.ShloMosaic.ValueIdx

/-! ### Scalars -/

/-- The larger of two reals, taken among the extended reals, is the real maximum. -/
theorem coe_max_real (a b : ℝ) : max (a : EReal) (b : EReal) = ((max a b : ℝ) : EReal) :=
  (EReal.coe_strictMono.monotone.map_max).symm

/-- A finite sum of real numbers is a real number. -/
theorem exists_real_sum {ι : Type} (s : Finset ι) (f : ι → EReal) (hf : ∀ j, ∃ r : ℝ, f j = (r : EReal)) :
    ∃ r : ℝ, ∑ j ∈ s, f j = (r : EReal) := by
  classical
  induction s using Finset.induction_on with
  | empty => exact ⟨0, by rw [Finset.sum_empty, EReal.coe_zero]⟩
  | insert a s ha ih =>
    obtain ⟨r, hr⟩ := ih
    obtain ⟨q, hq⟩ := hf a
    exact ⟨q + r, by rw [Finset.sum_insert ha, hq, hr, EReal.coe_add]⟩

/-- A real number plus a finite sum of real numbers is a real number. -/
theorem exists_real_add_sum {ι : Type} (a : EReal) (s : Finset ι) (f : ι → EReal) (ha : ∃ r : ℝ, a = (r : EReal))
    (hf : ∀ j, ∃ r : ℝ, f j = (r : EReal)) : ∃ r : ℝ, a + ∑ j ∈ s, f j = (r : EReal) := by
  obtain ⟨p, hp⟩ := ha
  obtain ⟨q, hq⟩ := exists_real_sum s f hf
  exact ⟨p + q, by rw [hp, hq, EReal.coe_add]⟩

/-! ### Entrywise operations -/

section Elementwise
variable {S : Shape}

theorem IsReal.addf {x y : FVec Ideal S .f32} (hx : IsReal x) (hy : IsReal y) :
    IsReal (Idealize.ShloMosaic.addf x y) := fun i => by
  obtain ⟨a, ha⟩ := hx i
  obtain ⟨b, hb⟩ := hy i
  exact ⟨a + b, by show x i + y i = _; rw [ha, hb, EReal.coe_add]⟩

theorem IsReal.subf {x y : FVec Ideal S .f32} (hx : IsReal x) (hy : IsReal y) :
    IsReal (Idealize.ShloMosaic.subf x y) := fun i => by
  obtain ⟨a, ha⟩ := hx i
  obtain ⟨b, hb⟩ := hy i
  exact ⟨a - b, by show x i - y i = _; rw [ha, hb, EReal.coe_sub]⟩

theorem IsReal.mulf {x y : FVec Ideal S .f32} (hx : IsReal x) (hy : IsReal y) :
    IsReal (Idealize.ShloMosaic.mulf x y) := fun i => by
  obtain ⟨a, ha⟩ := hx i
  obtain ⟨b, hb⟩ := hy i
  exact ⟨a * b, by show x i * y i = _; rw [ha, hb, EReal.coe_mul]⟩

theorem IsReal.maximumf {x y : FVec Ideal S .f32} (hx : IsReal x) (hy : IsReal y) :
    IsReal (Idealize.ShloMosaic.maximumf x y) := fun i => by
  obtain ⟨a, ha⟩ := hx i
  obtain ⟨b, hb⟩ := hy i
  exact ⟨max a b, by show max (x i) (y i) = _; rw [ha, hb, coe_max_real]⟩

/-- The larger of an entry that is at least one and a real entry is a real that is at least one. -/
theorem GeOne.maximumf_left {c y : FVec Ideal S .f32} (hc : GeOne c) (hy : IsReal y) :
    GeOne (Idealize.ShloMosaic.maximumf c y) := fun i => by
  obtain ⟨r, hr, hc'⟩ := hc i
  obtain ⟨b, hb⟩ := hy i
  exact ⟨max r b, le_trans hr (le_max_left r b), by show max (c i) (y i) = _; rw [hc', hb, coe_max_real]⟩

/-- A real divided by a real that is at least one is a real: the divisor is not zero, so the quotient is the
    product with the reciprocal. -/
theorem IsReal.hostDivf {x d : FVec Ideal S .f32} (hx : IsReal x) (hd : GeOne d) :
    IsReal (Host.divf x d) := fun i => by
  obtain ⟨a, ha⟩ := hx i
  obtain ⟨r, hr, hd'⟩ := hd i
  have hr0 : r ≠ 0 := (zero_lt_one.trans_le hr).ne'
  refine ⟨a * (1 / r), ?_⟩
  show Ideal.div (x i) (d i) = _
  rw [hd', Ideal.div_coe hr0, ha, EReal.coe_mul]

end Elementwise

/-! ### Re-indexings: every entry of the result is an entry of the operand -/

theorem IsReal.broadcastInDim {S T : Shape} {dims : Fin S.rank → Fin T.rank} (h : S.BroadcastsInDim T dims)
    {x : S.Idx → EReal} (hx : IsReal x) : IsReal (Idealize.ShloMosaic.broadcastInDim T dims h x) :=
  fun _ => hx _

theorem GeOne.broadcastInDim {S T : Shape} {dims : Fin S.rank → Fin T.rank} (h : S.BroadcastsInDim T dims)
    {x : S.Idx → EReal} (hx : GeOne x) : GeOne (Idealize.ShloMosaic.broadcastInDim T dims h x) :=
  fun _ => hx _

/-- A gather reads the operand at an index computed from the integer indices (clamped into range), so each
    of its entries is an operand entry. -/
theorem IsReal.gather {S SI T : Shape} {w : Nat} (d : GatherDims S SI T) {x : S.Idx → EReal} (hx : IsReal x)
    (idx : IVec SI w) : IsReal (Host.gather d x idx) :=
  fun _ => hx _

/-! ### The accumulating scatter -/

/-- Each entry of an accumulating scatter is the operand's entry plus the sum of the update entries that
    land on it: a real when operand and updates are real. -/
theorem IsReal.scatterAdd {S SI U : Shape} {w : Nat} (d : ScatterDims S SI U) {x : FVec Ideal S .f32}
    {u : FVec Ideal U .f32} (hx : IsReal x) (idx : IVec SI w) (hu : IsReal u) :
    IsReal (Host.scatterAdd d x idx u) := fun i => by
  show ∃ r : ℝ, Ideal.hostScatterAdd d x idx u i = (r : EReal)
  unfold Ideal.hostScatterAdd
  exact exists_real_add_sum _ _ _ (hx i) hu

/-! ### Constant arrays -/

theorem isReal_const_zero (S0 : Shape) : IsReal (constant (F := Ideal) S0 .f32 0x00000000#32) :=
  fun _ => ⟨0, by show Ideal.ofBits .f32 0x00000000#32 = _; rw [Ideal.ofBits_zero_f32, EReal.coe_zero]⟩

theorem geOne_const_one (S0 : Shape) : GeOne (constant (F := Ideal) S0 .f32 0x3F800000#32) :=
  fun _ => ⟨1, le_refl 1, by show Ideal.ofBits .f32 0x3F800000#32 = _; rw [Ideal.ofBits_one_f32, EReal.coe_one]⟩

/-- The array of zeros, a broadcast of the constant zero. -/
theorem isReal_zeros {S0 S : Shape} {dims : Fin S0.rank → Fin S.rank} (h : S0.BroadcastsInDim S dims) :
    IsReal (Idealize.ShloMosaic.broadcastInDim S dims h (constant (F := Ideal) S0 .f32 0x00000000#32)) :=
  (isReal_const_zero S0).broadcastInDim h

/-- The array of ones, a broadcast of the constant one: every entry is at least one. -/
theorem geOne_ones {S0 S : Shape} {dims : Fin S0.rank → Fin S.rank} (h : S0.BroadcastsInDim S dims) :
    GeOne (Idealize.ShloMosaic.broadcastInDim S dims h (constant (F := Ideal) S0 .f32 0x3F800000#32)) :=
  (geOne_const_one S0).broadcastInDim h

theorem isReal_ones {S0 S : Shape} {dims : Fin S0.rank → Fin S.rank} (h : S0.BroadcastsInDim S dims) :
    IsReal (Idealize.ShloMosaic.broadcastInDim S dims h (constant (F := Ideal) S0 .f32 0x3F800000#32)) :=
  (geOne_ones h).isReal

/-- Clipping below at one: the larger of one and a real is a real that is at least one. -/
theorem geOne_clip {S0 S : Shape} {dims : Fin S0.rank → Fin S.rank} (h : S0.BroadcastsInDim S dims)
    {y : FVec Ideal S .f32} (hy : IsReal y) :
    GeOne (Idealize.ShloMosaic.maximumf (φ := .f32)
      (Idealize.ShloMosaic.broadcastInDim S dims h (id (constant (F := Ideal) S0 .f32 0x3F800000#32))) y) :=
  GeOne.maximumf_left (geOne_ones h) hy

/-! ### A fully connected layer -/

theorem IsReal.dense {M K H : Nat} {x : (⟨2, ![M, K]⟩ : Shape).Idx → EReal} {w : (⟨2, ![K, H]⟩ : Shape).Idx → EReal}
    {b : (⟨2, ![1, H]⟩ : Shape).Idx → EReal} (hx : IsReal x) (hw : IsReal w) (hb : IsReal b) :
    IsReal (Cert.Gcn.dense x w b) := fun i => by
  show ∃ r : ℝ, (∑ k : Fin K, x (ix2 (i 0) k) * w (ix2 k (i 1))) + b (ix2 (0 : Fin 1) (i 1)) = (r : EReal)
  obtain ⟨s, hs⟩ := exists_real_sum Finset.univ (fun k : Fin K => x (ix2 (i 0) k) * w (ix2 k (i 1))) (fun k => by
    obtain ⟨a, ha⟩ := hx (ix2 (i 0) k)
    obtain ⟨c, hc⟩ := hw (ix2 k (i 1))
    exact ⟨a * c, by show x (ix2 (i 0) k) * w (ix2 k (i 1)) = _; rw [ha, hc, EReal.coe_mul]⟩)
  obtain ⟨t, ht⟩ := hb (ix2 (0 : Fin 1) (i 1))
  exact ⟨s + t, by rw [hs, ht, EReal.coe_add]⟩

theorem IsReal.denseRelu {M K H : Nat} {x : (⟨2, ![M, K]⟩ : Shape).Idx → EReal}
    {w : (⟨2, ![K, H]⟩ : Shape).Idx → EReal} {b : (⟨2, ![1, H]⟩ : Shape).Idx → EReal}
    (hx : IsReal x) (hw : IsReal w) (hb : IsReal b) : IsReal (Cert.Gcn.denseRelu x w b) := fun i => by
  obtain ⟨r, hr⟩ := hx.dense hw hb i
  exact ⟨max r 0, by show max (Cert.Gcn.dense x w b i) 0 = _; rw [hr, ← EReal.coe_zero, coe_max_real]⟩

end Cert.Gcn

end
-- ==== Proof.AggReal.lean ====
/-
  The neighbourhood average keeps node features real.

  One aggregation step of the reference takes node features `h` (one row per node) and edge features `e` (one row
  per edge) and returns `h + (Σ over the edges arriving at a node of h[source] * e) / degree`, where the degree of
  a node is the number of edges arriving at it, clipped below at one. The sum is an accumulating scatter into an
  array of zeros, the rows `h[source]` are a gather, and the degree is an accumulating scatter of ones, clipped
  and broadcast along the feature axis. If `h` and `e` are real then so is the result: the degree is a real that
  is at least one, so the quotient is a product of reals, and every other operation is a finite sum or product of
  reals or a re-indexing. The three steps of the reference differ only in the node features they start from.
-/
import proofs.«111450_j42666205118859_2_alg».proof.Proof.RefRead
import proofs.«111450_j42666205118859_2_alg».proof.Proof.Reals

noncomputable section

namespace Cert.Gcn.AggReal

open Idealize.ShloMosaic Cert.ReferenceIdeal

/-- The clipped degree column: an accumulating scatter of ones into zeros, then the larger of one and that count.
    Every entry is a real number that is at least one. -/
theorem degree_geOne (x17 : (⟨S2097152, .i32⟩ : BufTy).Contents (Elt Ideal)) :
    GeOne (ReadP.val_main_v13 (F := Ideal) x17) := by
  unfold ReadP.val_main_v13 ReadP.val_main_v12 ReadP.val_main_call0_v1 ReadP.val_main_call0_v0 ReadP.val_main_cst_1
    ReadP.val_main_v11 ReadP.val_main_v9 ReadP.val_main_v8 ReadP.val_main_cst ReadP.val_main_cst_0
  refine GeOne.broadcastInDim _ (geOne_clip _ ?_)
  exact IsReal.scatterAdd _ (isReal_zeros _) _ (isReal_ones _)

/-- The first aggregation step, from the embedded node features. -/
theorem agg0 (x0 : (⟨S131072x64, .f32⟩ : BufTy).Contents (Elt Ideal)) (x1 : (⟨S2097152x2, .f32⟩ : BufTy).Contents (Elt Ideal))
    (x3 : (⟨S64x128, .f32⟩ : BufTy).Contents (Elt Ideal)) (x4 : (⟨S128, .f32⟩ : BufTy).Contents (Elt Ideal))
    (x5 : (⟨S2x128, .f32⟩ : BufTy).Contents (Elt Ideal)) (x6 : (⟨S128, .f32⟩ : BufTy).Contents (Elt Ideal))
    (x17 x18 : (⟨S2097152, .i32⟩ : BufTy).Contents (Elt Ideal))
    (h3 : IsReal (ReadP.val_main_v3 (F := Ideal) x0 x3 x4))
    (h7 : IsReal (ReadP.val_main_v7 (F := Ideal) x1 x5 x6)) :
    IsReal (ReadP.val_main_v27 (F := Ideal) x0 x1 x3 x4 x5 x6 x17 x18) := by
  unfold ReadP.val_main_v27 ReadP.val_main_v26 ReadP.val_main_v25 ReadP.val_main_v24 ReadP.val_main_v22
    ReadP.val_main_cst_3 ReadP.val_main_v21 ReadP.val_main_v20
  generalize ReadP.val_main_v3 (F := Ideal) x0 x3 x4 = h at h3 ⊢
  generalize ReadP.val_main_v7 (F := Ideal) x1 x5 x6 = e at h7 ⊢
  refine IsReal.addf h3 (IsReal.hostDivf ?_ (GeOne.broadcastInDim _ (degree_geOne x17)))
  exact IsReal.scatterAdd _ (isReal_zeros _) _ (IsReal.mulf (IsReal.gather _ h3 _) h7)

/-- The second aggregation step, from the first layer's output. -/
theorem agg1 (x0 : (⟨S131072x64, .f32⟩ : BufTy).Contents (Elt Ideal)) (x1 : (⟨S2097152x2, .f32⟩ : BufTy).Contents (Elt Ideal))
    (x3 : (⟨S64x128, .f32⟩ : BufTy).Contents (Elt Ideal)) (x4 : (⟨S128, .f32⟩ : BufTy).Contents (Elt Ideal))
    (x5 : (⟨S2x128, .f32⟩ : BufTy).Contents (Elt Ideal)) (x6 : (⟨S128, .f32⟩ : BufTy).Contents (Elt Ideal))
    (x7 : (⟨S3x128x128, .f32⟩ : BufTy).Contents (Elt Ideal))
    (x8 x9 x10 x11 x12 : (⟨S3x128, .f32⟩ : BufTy).Contents (Elt Ideal))
    (x17 x18 : (⟨S2097152, .i32⟩ : BufTy).Contents (Elt Ideal))
    (h57 : IsReal (ReadP.val_main_v57 (F := Ideal) x0 x1 x3 x4 x5 x6 x7 x8 x9 x10 x11 x12 x17 x18))
    (h7 : IsReal (ReadP.val_main_v7 (F := Ideal) x1 x5 x6)) :
    IsReal (ReadP.val_main_v71 (F := Ideal) x0 x1 x3 x4 x5 x6 x7 x8 x9 x10 x11 x12 x17 x18) := by
  unfold ReadP.val_main_v71 ReadP.val_main_v70 ReadP.val_main_v69 ReadP.val_main_v68 ReadP.val_main_v66
    ReadP.val_main_cst_7 ReadP.val_main_v65 ReadP.val_main_v64
  generalize ReadP.val_main_v57 (F := Ideal) x0 x1 x3 x4 x5 x6 x7 x8 x9 x10 x11 x12 x17 x18 = h at h57 ⊢
  generalize ReadP.val_main_v7 (F := Ideal) x1 x5 x6 = e at h7 ⊢
  refine IsReal.addf h57 (IsReal.hostDivf ?_ (GeOne.broadcastInDim _ (degree_geOne x17)))
  exact IsReal.scatterAdd _ (isReal_zeros _) _ (IsReal.mulf (IsReal.gather _ h57 _) h7)

/-- The third aggregation step, from the second layer's output. -/
theorem agg2 (x0 : (⟨S131072x64, .f32⟩ : BufTy).Contents (Elt Ideal)) (x1 : (⟨S2097152x2, .f32⟩ : BufTy).Contents (Elt Ideal))
    (x3 : (⟨S64x128, .f32⟩ : BufTy).Contents (Elt Ideal)) (x4 : (⟨S128, .f32⟩ : BufTy).Contents (Elt Ideal))
    (x5 : (⟨S2x128, .f32⟩ : BufTy).Contents (Elt Ideal)) (x6 : (⟨S128, .f32⟩ : BufTy).Contents (Elt Ideal))
    (x7 : (⟨S3x128x128, .f32⟩ : BufTy).Contents (Elt Ideal))
    (x8 x9 x10 x11 x12 : (⟨S3x128, .f32⟩ : BufTy).Contents (Elt Ideal))
    (x17 x18 : (⟨S2097152, .i32⟩ : BufTy).Contents (Elt Ideal))
    (h101 : IsReal (ReadP.val_main_v101 (F := Ideal) x0 x1 x3 x4 x5 x6 x7 x8 x9 x10 x11 x12 x17 x18))
    (h7 : IsReal (ReadP.val_main_v7 (F := Ideal) x1 x5 x6)) :
    IsReal (ReadP.val_main_v115 (F := Ideal) x0 x1 x3 x4 x5 x6 x7 x8 x9 x10 x11 x12 x17 x18) := by
  unfold ReadP.val_main_v115 ReadP.val_main_v114 ReadP.val_main_v113 ReadP.val_main_v112 ReadP.val_main_v110
    ReadP.val_main_cst_11 ReadP.val_main_v109 ReadP.val_main_v108
  generalize ReadP.val_main_v101 (F := Ideal) x0 x1 x3 x4 x5 x6 x7 x8 x9 x10 x11 x12 x17 x18 = h at h101 ⊢
  generalize ReadP.val_main_v7 (F := Ideal) x1 x5 x6 = e at h7 ⊢
  refine IsReal.addf h101 (IsReal.hostDivf ?_ (GeOne.broadcastInDim _ (degree_geOne x17)))
  exact IsReal.scatterAdd _ (isReal_zeros _) _ (IsReal.mulf (IsReal.gather _ h101 _) h7)

end Cert.Gcn.AggReal

end
-- ==== Proof.LayerCore.lean ====
/-
  The batch-normalisation fold, entry by entry.

  The reference computes, for one layer, `y = a @ W + b`, then `(y - mean) * (gamma / sqrt (var + eps)) + beta`, then
  the rectifier. The kernel computes one fully connected layer whose weights have every output column multiplied by
  `scale = gamma / sqrt (var + eps)` and whose bias is `(b - mean) * scale + beta`, then the rectifier. On real
  numbers the two agree by distributivity:

      ((sum_k a_k W_kq + b_q) - mean_q) * s_q + beta_q  =  sum_k a_k (W_kq s_q) + ((b_q - mean_q) s_q + beta_q).

  Over the extended reals distributivity fails at the infinities, so every operand is first replaced by the real
  number it is. That needs `scale` to be real: the epsilon is a positive real, so for a real variance that is not
  negative `var + eps` is a positive real, its square root is a positive real, and a real divided by a nonzero real
  is a real.

  This module holds: the scalar facts; the folded parameters read at an entry (`scale`, the weights `w0 w1 w2`, the
  biases `b0 b1 b2`); that those parameters are real; and, for each layer, the folded layer at an entry written in the
  reference's order of operations (`denseRelu_fold0/1/2`).
-/
import proofs.«111450_j42666205118859_2_alg».proof.Proof.Spec
import proofs.«111450_j42666205118859_2_alg».proof.Proof.Params
import Idealize.ShloMosaic.Lib.Pipeline.Value
import Idealize.ShloMosaic.Lib.ValueIdx

noncomputable section

open scoped BigOperators

namespace Cert.Gcn.Layer

open Cert.KernelIdeal Cert.KernelIdeal.Facts₀ Cert.KernelIdeal.Facts Cert.KernelIdeal.Params
open Idealize.ShloMosaic Idealize.ShloMosaic.ValueIdx

/-! ## Scalar facts -/

/-- The batch-normalisation epsilon, the single-precision number nearest to 1e-5, is a positive real number. -/
theorem eps_pos_real : ∃ e : ℝ, 0 < e ∧ Ideal.ofBits .f32 0x3727C5AC#32 = (e : EReal) := by
  refine ⟨_, ?_, by simp [Ideal.ofBits, Ideal.ieee]; rfl⟩
  norm_num

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- For a real `g`, a real `v` that is not negative and a positive real `e`, `g / sqrt (v + e)` is a real number. -/
theorem scale_entry_real (g v e : ℝ) (hv : 0 ≤ v) (he : 0 < e) :
    ∃ s : ℝ, Ideal.div (g : EReal) (Ideal.sqrt ((v : EReal) + (e : EReal))) = (s : EReal) := by
  have hpos : 0 < v + e := by linarith
  have hs : 0 < Real.sqrt (v + e) := Real.sqrt_pos.2 hpos
  refine ⟨g * (1 / Real.sqrt (v + e)), ?_⟩
  rw [← EReal.coe_add, Ideal.sqrt_coe, if_neg (not_lt.2 hpos.le), Ideal.div_coe hs.ne', EReal.coe_mul]

/-- THE SCALAR LAW. Over the reals, a linear form followed by the normalisation `(y - mu) * s + beta` is the linear
    form with every weight multiplied by `s` and the bias `(b - mu) * s + beta`. Stated on the coercions:
    distributivity holds there, as it does not at the infinities. -/
theorem fold_law {K : Nat} (a W : Fin K → ℝ) (b mu s beta : ℝ) :
    (((∑ k, (a k : EReal) * (W k : EReal)) + (b : EReal)) - (mu : EReal)) * (s : EReal) + (beta : EReal)
      = (∑ k, (a k : EReal) * ((W k : EReal) * (s : EReal)))
          + (((b : EReal) - (mu : EReal)) * (s : EReal) + (beta : EReal)) := by
  simp only [← EReal.coe_mul, ← coe_sum, ← EReal.coe_add, ← EReal.coe_sub]
  refine congrArg _ ?_
  have h : ∑ k, a k * (W k * s) = (∑ k, a k * W k) * s := by
    rw [Finset.sum_mul]; exact Finset.sum_congr rfl fun k _ => (mul_assoc _ _ _).symm
  rw [h]; ring

/-! ## The folded parameters read at an entry -/

/-- `scale` at an entry: `gamma / sqrt (var + eps)`. -/
theorem scale_apply (x9 x12 : FVec Ideal S3x128 .f32) (i : S3x128.Idx) :
    scale x9 x12 i = Ideal.div (x9 i) (Ideal.sqrt (x12 i + Ideal.ofBits .f32 0x3727C5AC#32)) := rfl

/-- The folded bias over all layers at an entry. -/
theorem bAll_apply (x8 x9 x10 x11 x12 : FVec Ideal S3x128 .f32) (i : S3x128.Idx) :
    bAll x8 x9 x10 x11 x12 i = (x8 i - x11 i) * scale x9 x12 i + x10 i := rfl

/-- The folded weights over all layers at the entry `(l, k, q)`: the weight times the scale of layer `l`, column `q`.
    The scale reaches it through two broadcasts, `[3, 128] → [3, 1, 128] → [3, 128, 128]`. -/
theorem wAll_apply (x7 : FVec Ideal S3x128x128 .f32) (x9 x12 : FVec Ideal S3x128 .f32) (l : Fin 3) (k q : Fin 128) :
    wAll x7 x9 x12 (ix3 l k q) = x7 (ix3 l k q) * scale x9 x12 (ix2 l q) := by
  unfold wAll
  rw [mulf_apply]
  refine congrArg _ ?_
  refine (broadcastInDim_apply _ bcast_S3x1x128_S3x128x128_0_1_2 _ (ix3 l k q) (ix3 l (0 : Fin 1) q) (fun a => match a with
    | ⟨0, _⟩ => by show l.val = if (3 : Nat) = 1 then 0 else l.val; rw [if_neg (by decide)]
    | ⟨1, _⟩ => by show 0 = if (1 : Nat) = 1 then 0 else k.val; rw [if_pos rfl]
    | ⟨2, _⟩ => by show q.val = if (128 : Nat) = 1 then 0 else q.val; rw [if_neg (by decide)])).trans ?_
  exact broadcastInDim_apply _ bcast_S3x128_S3x1x128_0_2 _ (ix3 l (0 : Fin 1) q) (ix2 l q) (fun a => match a with
    | ⟨0, _⟩ => by show l.val = if (3 : Nat) = 1 then 0 else l.val; rw [if_neg (by decide)]
    | ⟨1, _⟩ => by show q.val = if (128 : Nat) = 1 then 0 else q.val; rw [if_neg (by decide)])

/-- The slice `[l, :, :]` of a `[3, 128, 128]` array, as a matrix, at the entry `(k, q)`: entry `(l, k, q)`. -/
theorem sliceMat_apply {α : Type} (l : Nat) (hl : l < 3) (x : S3x128x128.Idx → α)
    (h : S3x128x128.Slices ![l, 0, 0] S1x128x128) (k q : Fin 128) :
    shapeCast S128x128 (extractStridedSlice S1x128x128 ![l, 0, 0] x h) shapeCasts_S1x128x128_S128x128 (ix2 k q)
      = x (ix3 (⟨l, hl⟩ : Fin 3) k q) := by
  refine (shapeCast_apply _ shapeCasts_S1x128x128_S128x128 (ix2 k q) (ix3 (0 : Fin 1) k q) ?_).trans ?_
  · rw [Shape.rowMajor_val_three, Shape.rowMajor_val_two]
    show (0 * 128 + k.val) * 128 + q.val = k.val * 128 + q.val
    omega
  · exact extractStridedSlice_apply ![l, 0, 0] x h (ix3 (0 : Fin 1) k q) (ix3 (⟨l, hl⟩ : Fin 3) k q) (fun a => match a with
      | ⟨0, _⟩ => by show l = l + 0; omega
      | ⟨1, _⟩ => by show k.val = 0 + k.val; omega
      | ⟨2, _⟩ => by show q.val = 0 + q.val; omega)

/-- The slice `[l, :]` of a `[3, 128]` array, as a one-row matrix, at the entry `(0, q)`: entry `(l, q)`. -/
theorem sliceRow_apply {α : Type} (l : Nat) (hl : l < 3) (x : S3x128.Idx → α) (h : S3x128.Slices ![l, 0] S1x128)
    (q : Fin 128) :
    shapeCast S1x128 (shapeCast S128 (extractStridedSlice S1x128 ![l, 0] x h) shapeCasts_S1x128_S128)
        shapeCasts_S128_S1x128 (ix2 (0 : Fin 1) q)
      = x (ix2 (⟨l, hl⟩ : Fin 3) q) := by
  refine (shapeCast_apply _ shapeCasts_S128_S1x128 (ix2 (0 : Fin 1) q) (ix1 q) ?_).trans ?_
  · rw [Shape.rowMajor_val_one, Shape.rowMajor_val_two]
    show q.val = 0 * 128 + q.val
    omega
  refine (shapeCast_apply _ shapeCasts_S1x128_S128 (ix1 q) (ix2 (0 : Fin 1) q) ?_).trans ?_
  · rw [Shape.rowMajor_val_two, Shape.rowMajor_val_one]
    show 0 * 128 + q.val = q.val
    omega
  · exact extractStridedSlice_apply ![l, 0] x h (ix2 (0 : Fin 1) q) (ix2 (⟨l, hl⟩ : Fin 3) q) (fun a => match a with
      | ⟨0, _⟩ => by show l = l + 0; omega
      | ⟨1, _⟩ => by show q.val = 0 + q.val; omega)

theorem w0_apply (x7 : FVec Ideal S3x128x128 .f32) (x9 x12 : FVec Ideal S3x128 .f32) (k q : Fin 128) :
    w0 x7 x9 x12 (ix2 k q) = x7 (ix3 (0 : Fin 3) k q) * scale x9 x12 (ix2 (0 : Fin 3) q) :=
  (sliceMat_apply 0 (by decide) _ slices_S3x128x128_S1x128x128_0_0_0 k q).trans (wAll_apply x7 x9 x12 0 k q)

theorem w1_apply (x7 : FVec Ideal S3x128x128 .f32) (x9 x12 : FVec Ideal S3x128 .f32) (k q : Fin 128) :
    w1 x7 x9 x12 (ix2 k q) = x7 (ix3 (1 : Fin 3) k q) * scale x9 x12 (ix2 (1 : Fin 3) q) :=
  (sliceMat_apply 1 (by decide) _ slices_S3x128x128_S1x128x128_1_0_0 k q).trans (wAll_apply x7 x9 x12 1 k q)

theorem w2_apply (x7 : FVec Ideal S3x128x128 .f32) (x9 x12 : FVec Ideal S3x128 .f32) (k q : Fin 128) :
    w2 x7 x9 x12 (ix2 k q) = x7 (ix3 (2 : Fin 3) k q) * scale x9 x12 (ix2 (2 : Fin 3) q) :=
  (sliceMat_apply 2 (by decide) _ slices_S3x128x128_S1x128x128_2_0_0 k q).trans (wAll_apply x7 x9 x12 2 k q)

theorem b0_apply (x8 x9 x10 x11 x12 : FVec Ideal S3x128 .f32) (q : Fin 128) :
    b0 x8 x9 x10 x11 x12 (ix2 (0 : Fin 1) q)
      = (x8 (ix2 (0 : Fin 3) q) - x11 (ix2 (0 : Fin 3) q)) * scale x9 x12 (ix2 (0 : Fin 3) q) + x10 (ix2 (0 : Fin 3) q) :=
  (sliceRow_apply 0 (by decide) _ slices_S3x128_S1x128_0_0 q).trans (bAll_apply x8 x9 x10 x11 x12 _)

theorem b1_apply (x8 x9 x10 x11 x12 : FVec Ideal S3x128 .f32) (q : Fin 128) :
    b1 x8 x9 x10 x11 x12 (ix2 (0 : Fin 1) q)
      = (x8 (ix2 (1 : Fin 3) q) - x11 (ix2 (1 : Fin 3) q)) * scale x9 x12 (ix2 (1 : Fin 3) q) + x10 (ix2 (1 : Fin 3) q) :=
  (sliceRow_apply 1 (by decide) _ slices_S3x128_S1x128_1_0 q).trans (bAll_apply x8 x9 x10 x11 x12 _)

theorem b2_apply (x8 x9 x10 x11 x12 : FVec Ideal S3x128 .f32) (q : Fin 128) :
    b2 x8 x9 x10 x11 x12 (ix2 (0 : Fin 1) q)
      = (x8 (ix2 (2 : Fin 3) q) - x11 (ix2 (2 : Fin 3) q)) * scale x9 x12 (ix2 (2 : Fin 3) q) + x10 (ix2 (2 : Fin 3) q) :=
  (sliceRow_apply 2 (by decide) _ slices_S3x128_S1x128_2_0 q).trans (bAll_apply x8 x9 x10 x11 x12 _)

/-! ## The folded parameters are real -/

/-- For real `gamma` and a real variance that is nowhere negative, `gamma / sqrt (var + eps)` is real everywhere. -/
theorem scale_real {x9 x12 : FVec Ideal S3x128 .f32} (h9 : IsReal x9) (h12 : IsReal x12)
    (hv : ∀ i, (0 : EReal) ≤ x12 i) : IsReal (scale x9 x12) := fun i => by
  obtain ⟨g, hg⟩ := h9 i
  obtain ⟨v, hv'⟩ := h12 i
  obtain ⟨e, he, hee⟩ := eps_pos_real
  have hv0 : 0 ≤ v := by have := hv i; rw [hv'] at this; exact_mod_cast this
  rw [scale_apply, hg, hv', hee]
  exact scale_entry_real g v e hv0 he

/-- A product of two reals is real. -/
theorem real_mul {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

/-- `(b - mu) * s + beta` of reals is real. -/
theorem real_bias {b mu s beta : EReal} (hb : ∃ r : ℝ, b = r) (hmu : ∃ r : ℝ, mu = r) (hs : ∃ r : ℝ, s = r)
    (hbeta : ∃ r : ℝ, beta = r) : ∃ r : ℝ, (b - mu) * s + beta = r := by
  obtain ⟨b, rfl⟩ := hb; obtain ⟨mu, rfl⟩ := hmu; obtain ⟨s, rfl⟩ := hs; obtain ⟨beta, rfl⟩ := hbeta
  exact ⟨(b - mu) * s + beta, by rw [EReal.coe_add, EReal.coe_mul, EReal.coe_sub]⟩

section
variable {x7 : FVec Ideal S3x128x128 .f32} {x8 x9 x10 x11 x12 : FVec Ideal S3x128 .f32}

theorem isReal_w0 (h7 : IsReal x7) (h9 : IsReal x9) (h12 : IsReal x12) (hv : ∀ i, (0 : EReal) ≤ x12 i) :
    IsReal (w0 x7 x9 x12) := fun i => by
  obtain ⟨k, q, rfl⟩ : ∃ (k q : Fin 128), i = ix2 k q := ⟨i 0, i 1, eq_ix2 i⟩
  rw [w0_apply]; exact real_mul (h7 _) (scale_real h9 h12 hv _)

theorem isReal_w1 (h7 : IsReal x7) (h9 : IsReal x9) (h12 : IsReal x12) (hv : ∀ i, (0 : EReal) ≤ x12 i) :
    IsReal (w1 x7 x9 x12) := fun i => by
  obtain ⟨k, q, rfl⟩ : ∃ (k q : Fin 128), i = ix2 k q := ⟨i 0, i 1, eq_ix2 i⟩
  rw [w1_apply]; exact real_mul (h7 _) (scale_real h9 h12 hv _)

theorem isReal_w2 (h7 : IsReal x7) (h9 : IsReal x9) (h12 : IsReal x12) (hv : ∀ i, (0 : EReal) ≤ x12 i) :
    IsReal (w2 x7 x9 x12) := fun i => by
  obtain ⟨k, q, rfl⟩ : ∃ (k q : Fin 128), i = ix2 k q := ⟨i 0, i 1, eq_ix2 i⟩
  rw [w2_apply]; exact real_mul (h7 _) (scale_real h9 h12 hv _)

theorem isReal_b0 (h8 : IsReal x8) (h9 : IsReal x9) (h10 : IsReal x10) (h11 : IsReal x11) (h12 : IsReal x12)
    (hv : ∀ i, (0 : EReal) ≤ x12 i) : IsReal (b0 x8 x9 x10 x11 x12) := fun i => by
  obtain ⟨z, q, rfl⟩ : ∃ (z : Fin 1) (q : Fin 128), i = ix2 z q := ⟨i 0, i 1, eq_ix2 i⟩
  obtain rfl : z = 0 := Subsingleton.elim _ _
  rw [b0_apply]; exact real_bias (h8 _) (h11 _) (scale_real h9 h12 hv _) (h10 _)

theorem isReal_b1 (h8 : IsReal x8) (h9 : IsReal x9) (h10 : IsReal x10) (h11 : IsReal x11) (h12 : IsReal x12)
    (hv : ∀ i, (0 : EReal) ≤ x12 i) : IsReal (b1 x8 x9 x10 x11 x12) := fun i => by
  obtain ⟨z, q, rfl⟩ : ∃ (z : Fin 1) (q : Fin 128), i = ix2 z q := ⟨i 0, i 1, eq_ix2 i⟩
  obtain rfl : z = 0 := Subsingleton.elim _ _
  rw [b1_apply]; exact real_bias (h8 _) (h11 _) (scale_real h9 h12 hv _) (h10 _)

theorem isReal_b2 (h8 : IsReal x8) (h9 : IsReal x9) (h10 : IsReal x10) (h11 : IsReal x11) (h12 : IsReal x12)
    (hv : ∀ i, (0 : EReal) ≤ x12 i) : IsReal (b2 x8 x9 x10 x11 x12) := fun i => by
  obtain ⟨z, q, rfl⟩ : ∃ (z : Fin 1) (q : Fin 128), i = ix2 z q := ⟨i 0, i 1, eq_ix2 i⟩
  obtain rfl : z = 0 := Subsingleton.elim _ _
  rw [b2_apply]; exact real_bias (h8 _) (h11 _) (scale_real h9 h12 hv _) (h10 _)

end

/-! ## The layer law at an entry -/

/-- The scalar law on arrays of reals: row `p` of real activations against column `q` of layer `l`'s real weights,
    normalised by a real `s`, is the same row against the weights multiplied by `s`, plus the folded bias. -/
theorem fold_entry {M : Nat} (A : (⟨2, ![M, 128]⟩ : Shape).Idx → EReal) (x7 : S3x128x128.Idx → EReal)
    (x8 x10 x11 : S3x128.Idx → EReal) (s : EReal) (hA : IsReal A) (h7 : IsReal x7) (h8 : IsReal x8) (h10 : IsReal x10)
    (h11 : IsReal x11) (hs : ∃ r : ℝ, s = r) (l : Fin 3) (p : Fin M) (q : Fin 128) :
    (((∑ k : Fin 128, A (ix2 p k) * x7 (ix3 l k q)) + x8 (ix2 l q)) - x11 (ix2 l q)) * s + x10 (ix2 l q)
      = (∑ k : Fin 128, A (ix2 p k) * (x7 (ix3 l k q) * s)) + ((x8 (ix2 l q) - x11 (ix2 l q)) * s + x10 (ix2 l q)) := by
  choose a ha using fun k : Fin 128 => hA (ix2 p k)
  choose W hW using fun k : Fin 128 => h7 (ix3 l k q)
  obtain ⟨b, hb⟩ := h8 (ix2 l q)
  obtain ⟨mu, hmu⟩ := h11 (ix2 l q)
  obtain ⟨beta, hbeta⟩ := h10 (ix2 l q)
  obtain ⟨s, rfl⟩ := hs
  simp only [ha, hW, hb, hmu, hbeta]
  exact fold_law a W b mu s beta

section
variable {M : Nat} (A : (⟨2, ![M, 128]⟩ : Shape).Idx → EReal) (x7 : FVec Ideal S3x128x128 .f32)
  (x8 x9 x10 x11 x12 : FVec Ideal S3x128 .f32)

/-- Layer 0 of the kernel at the entry `(p, q)`, written in the reference's order of operations. -/
theorem denseRelu_fold0 (hA : IsReal A) (h7 : IsReal x7) (h8 : IsReal x8) (h9 : IsReal x9) (h10 : IsReal x10)
    (h11 : IsReal x11) (h12 : IsReal x12) (hv : ∀ i, (0 : EReal) ≤ x12 i) (p : Fin M) (q : Fin 128) :
    denseRelu A (w0 x7 x9 x12) (b0 x8 x9 x10 x11 x12) (ix2 p q)
      = max ((((∑ k : Fin 128, A (ix2 p k) * x7 (ix3 (0 : Fin 3) k q)) + x8 (ix2 (0 : Fin 3) q)) - x11 (ix2 (0 : Fin 3) q))
          * scale x9 x12 (ix2 (0 : Fin 3) q) + x10 (ix2 (0 : Fin 3) q)) 0 := by
  rw [denseRelu_apply, b0_apply]
  simp only [w0_apply]
  rw [fold_entry A x7 x8 x10 x11 _ hA h7 h8 h10 h11 (scale_real h9 h12 hv _) 0 p q]

/-- Layer 1 of the kernel at the entry `(p, q)`, written in the reference's order of operations. -/
theorem denseRelu_fold1 (hA : IsReal A) (h7 : IsReal x7) (h8 : IsReal x8) (h9 : IsReal x9) (h10 : IsReal x10)
    (h11 : IsReal x11) (h12 : IsReal x12) (hv : ∀ i, (0 : EReal) ≤ x12 i) (p : Fin M) (q : Fin 128) :
    denseRelu A (w1 x7 x9 x12) (b1 x8 x9 x10 x11 x12) (ix2 p q)
      = max ((((∑ k : Fin 128, A (ix2 p k) * x7 (ix3 (1 : Fin 3) k q)) + x8 (ix2 (1 : Fin 3) q)) - x11 (ix2 (1 : Fin 3) q))
          * scale x9 x12 (ix2 (1 : Fin 3) q) + x10 (ix2 (1 : Fin 3) q)) 0 := by
  rw [denseRelu_apply, b1_apply]
  simp only [w1_apply]
  rw [fold_entry A x7 x8 x10 x11 _ hA h7 h8 h10 h11 (scale_real h9 h12 hv _) 1 p q]

/-- Layer 2 of the kernel at the entry `(p, q)`, written in the reference's order of operations. -/
theorem denseRelu_fold2 (hA : IsReal A) (h7 : IsReal x7) (h8 : IsReal x8) (h9 : IsReal x9) (h10 : IsReal x10)
    (h11 : IsReal x11) (h12 : IsReal x12) (hv : ∀ i, (0 : EReal) ≤ x12 i) (p : Fin M) (q : Fin 128) :
    denseRelu A (w2 x7 x9 x12) (b2 x8 x9 x10 x11 x12) (ix2 p q)
      = max ((((∑ k : Fin 128, A (ix2 p k) * x7 (ix3 (2 : Fin 3) k q)) + x8 (ix2 (2 : Fin 3) q)) - x11 (ix2 (2 : Fin 3) q))
          * scale x9 x12 (ix2 (2 : Fin 3) q) + x10 (ix2 (2 : Fin 3) q)) 0 := by
  rw [denseRelu_apply, b2_apply]
  simp only [w2_apply]
  rw [fold_entry A x7 x8 x10 x11 _ hA h7 h8 h10 h11 (scale_real h9 h12 hv _) 2 p q]

end

end Cert.Gcn.Layer

end
-- ==== Proof.Layer0.lean ====
/-
  Layer 0 of the reference is layer 0 of the kernel, entry by entry.

  The reference's layer is a chain of array operations: the slice `[0, :, :]` of the weights as a matrix, the product
  with the layer's input, then the bias, mean, scale and shift rows `[0, :]`, each sliced out, flattened and broadcast
  along the rows, and the rectifier against a broadcast zero. Read at the entry `(p, q)` each operand is one entry of an
  argument array: the weight `W[0, k, q]`, and `b[0, q]`, `mean[0, q]`, `beta[0, q]`, and
  `gamma[0, q] / sqrt (var[0, q] + eps)`, which is the kernel's `scale` at `(0, q)`. What is left is the
  folded layer at an entry in the reference's order of operations, which is `denseRelu_fold0`.
-/
import proofs.«111450_j42666205118859_2_alg».proof.Proof.LayerCore
import proofs.«111450_j42666205118859_2_alg».proof.Proof.RefRead

noncomputable section

open scoped BigOperators

namespace Cert.Gcn.Layer0

open Cert.ReferenceIdeal Cert.ReferenceIdeal.ReadP Idealize.ShloMosaic Idealize.ShloMosaic.ValueIdx
open Cert.Gcn Cert.Gcn.Layer

variable (x0 : (⟨S131072x64, .f32⟩ : BufTy).Contents (Elt Ideal)) (x1 : (⟨S2097152x2, .f32⟩ : BufTy).Contents (Elt Ideal)) (x3 : (⟨S64x128, .f32⟩ : BufTy).Contents (Elt Ideal))
  (x4 : (⟨S128, .f32⟩ : BufTy).Contents (Elt Ideal)) (x5 : (⟨S2x128, .f32⟩ : BufTy).Contents (Elt Ideal)) (x6 : (⟨S128, .f32⟩ : BufTy).Contents (Elt Ideal))
  (x7 : (⟨S3x128x128, .f32⟩ : BufTy).Contents (Elt Ideal)) (x8 x9 x10 x11 x12 : (⟨S3x128, .f32⟩ : BufTy).Contents (Elt Ideal))
  (x17 x18 : (⟨S2097152, .i32⟩ : BufTy).Contents (Elt Ideal))

/-- A row `[0, :]` of a `[3, 128]` array, flattened and broadcast along the rows, read at `(p, q)` sits at `(0, q)`:
    the index the slice, the flattening and the two broadcasts compose to. -/
theorem rowIdx (q : Fin 128) (j : S3x128.Idx) (h0 : (j 0).val = 0) (h1 : (j 1).val = q.val % 128) :
    j = ix2 (0 : Fin 3) q := by
  funext a
  match a with
  | ⟨0, _⟩ => exact Fin.ext h0
  | ⟨1, _⟩ => exact Fin.ext (h1.trans (Nat.mod_eq_of_lt q.isLt))

/-- The bias row of the layer at `(p, q)`. -/
theorem bias_entry (p : Fin 131072) (q : Fin 128) :
    val_main_v34 (F := Ideal) x8 (ix2 p q) = x8 (ix2 (0 : Fin 3) q) := by
  rw [val_main_v34_apply, val_main_v33_apply, val_main_v32_apply, val_main_v31_apply]
  exact congrArg x8 (rowIdx q _ rfl rfl)

/-- The running-mean row of the layer at `(p, q)`. -/
theorem mean_entry (p : Fin 131072) (q : Fin 128) :
    val_main_v39 (F := Ideal) x11 (ix2 p q) = x11 (ix2 (0 : Fin 3) q) := by
  rw [val_main_v39_apply, val_main_v38_apply, val_main_v37_apply, val_main_v36_apply]
  exact congrArg x11 (rowIdx q _ rfl rfl)

/-- The shift row of the layer at `(p, q)`. -/
theorem beta_entry (p : Fin 131072) (q : Fin 128) :
    val_main_v55 (F := Ideal) x10 (ix2 p q) = x10 (ix2 (0 : Fin 3) q) := by
  rw [val_main_v55_apply, val_main_v54_apply, val_main_v53_apply, val_main_v52_apply]
  exact congrArg x10 (rowIdx q _ rfl rfl)

/-- The reference's `gamma / sqrt (var + eps)` row of the layer at `(p, q)` is the kernel's `scale` at `(0, q)`. -/
theorem scale_entry (p : Fin 131072) (q : Fin 128) :
    val_main_v50 (F := Ideal) x9 x12 (ix2 p q) = Cert.KernelIdeal.Params.scale x9 x12 (ix2 (0 : Fin 3) q) := by
  rw [val_main_v50_apply, val_main_v49_apply, val_main_v48_apply, val_main_v42_apply, val_main_v41_apply,
    val_main_v47_apply, val_main_v46_apply, val_main_v44_apply, val_main_v43_apply, val_main_v45_apply,
    val_main_cst_4_apply, scale_apply,
    rowIdx q (idx_main_v41 (idx_main_v42 (idx_main_v49 (idx_main_v50 (ix2 p q))))) rfl rfl,
    rowIdx q (idx_main_v43 (idx_main_v44 (idx_main_v49 (idx_main_v50 (ix2 p q))))) rfl rfl]
  rfl

/-- The slice `[0, :, :]` of the weights, as a matrix, at `(k, q)`. -/
theorem weight_entry (k q : Fin 128) :
    val_main_v29 (F := Ideal) x7 (ix2 k q) = x7 (ix3 (0 : Fin 3) k q) := by
  rw [val_main_v29_apply, val_main_v28_apply]
  refine congrArg x7 (funext fun a => ?_)
  have hk := k.isLt
  have hq := q.isLt
  match a with
  | ⟨0, _⟩ => exact Fin.ext rfl
  | ⟨1, _⟩ => exact Fin.ext (by show (k.val * 128 + q.val) / 128 % 128 = k.val; omega)
  | ⟨2, _⟩ => exact Fin.ext (by show (k.val * 128 + q.val) % 128 = q.val; omega)

/-- The rectifier's broadcast zero. -/
theorem relu_zero (i : S131072x128.Idx) : val_main_call1_v0 (F := Ideal) i = 0 := by
  rw [val_main_call1_v0_apply, val_main_call1_cst_apply, Ideal.ofBits_def, Ideal.ofBits_zero_f32]

/-- THE LAYER LAW for the first layer. On real inputs (and a variance that is nowhere negative) the reference's
    "linear, then batch normalisation, then rectifier" is the kernel's one fully connected layer with the normalisation
    folded into its weights and bias, then the rectifier. -/
theorem layer0 (ha : IsReal (val_main_v27 (F := Ideal) x0 x1 x3 x4 x5 x6 x17 x18)) (h7 : IsReal x7) (h8 : IsReal x8)
    (h9 : IsReal x9) (h10 : IsReal x10) (h11 : IsReal x11) (h12 : IsReal x12) (hv : ∀ i, (0 : EReal) ≤ x12 i) :
    val_main_v57 (F := Ideal) x0 x1 x3 x4 x5 x6 x7 x8 x9 x10 x11 x12 x17 x18
      = denseRelu (val_main_v27 (F := Ideal) x0 x1 x3 x4 x5 x6 x17 x18)
          (Cert.KernelIdeal.Params.w0 x7 x9 x12) (Cert.KernelIdeal.Params.b0 x8 x9 x10 x11 x12) := by
  funext i
  obtain ⟨p, q, rfl⟩ : ∃ (p : Fin 131072) (q : Fin 128), i = ix2 p q := ⟨i 0, i 1, eq_ix2 i⟩
  refine Eq.trans ?_ (denseRelu_fold0 _ x7 x8 x9 x10 x11 x12 ha h7 h8 h9 h10 h11 h12 hv p q).symm
  rw [val_main_v57_apply, val_main_v56_apply, val_main_v51_apply, val_main_v40_apply, val_main_v35_apply, val_main_v30_apply,
    bias_entry, mean_entry, scale_entry, beta_entry, relu_zero]
  generalize val_main_v27 (F := Ideal) x0 x1 x3 x4 x5 x6 x17 x18 = A
  have hsum : (∑ k : Fin 128, A (lidx_main_v30 (ix2 p q) k) * val_main_v29 (F := Ideal) x7 (ridx_main_v30 (ix2 p q) k))
      = ∑ k : Fin 128, A (ix2 p k) * x7 (ix3 (0 : Fin 3) k q) :=
    Finset.sum_congr rfl fun k _ => by
      rw [show lidx_main_v30 (ix2 p q) k = ix2 p k from funext fun a => match a with | ⟨0, _⟩ => rfl | ⟨1, _⟩ => rfl,
        show ridx_main_v30 (ix2 p q) k = ix2 k q from funext fun a => match a with | ⟨0, _⟩ => rfl | ⟨1, _⟩ => rfl,
        weight_entry]
  rw [hsum]
  rfl

end Cert.Gcn.Layer0

end
-- ==== Proof.StagesC.lean ====
/-
  The first layer.

  Under the precondition the float inputs the layers read are real numbers and the variances are not negative. Then the
  node and edge features are real, so is the first aggregation (gathering, weighting, summing into rows and dividing by a
  degree that is at least one keep entries real), and on real inputs the region's dense-and-rectify of the folded
  parameters is the reference's "linear, batch-norm, rectifier" stage: the layer law.
-/
import proofs.«111450_j42666205118859_2_alg».proof.Proof.StagesB
import proofs.«111450_j42666205118859_2_alg».proof.Proof.RegionB
import proofs.«111450_j42666205118859_2_alg».proof.Proof.Reals
import proofs.«111450_j42666205118859_2_alg».proof.Proof.AggReal
import proofs.«111450_j42666205118859_2_alg».proof.Proof.LayerCore
import proofs.«111450_j42666205118859_2_alg».proof.Proof.Layer0

noncomputable section

namespace Cert.Bridge

open Cert.KernelIdeal Cert.KernelIdeal.Gen Cert.KernelIdeal.Fold
open Idealize.ShloMosaic Idealize.ShloMosaic.TcCoe Idealize.SL.Sem Idealize.ShloMosaic.StableHlo
open Cert.ReferenceIdeal.ReadP
open Cert.Gcn

variable (m : (ℓ : Loc nD τ sig) → Buf (Elt Ideal) ℓ) (ρ : Dev nD → PrngReg) (c : Dev nD)

set_option maxHeartbeats 4000000

/-- The facts about one device's launch contents that the layer law and the realness of the aggregation use. -/
structure InputFacts : Prop where
  h0 : IsReal (S := S131072x64) (a0 m c)
  h1 : IsReal (S := S2097152x2) (a1 m c)
  h3 : IsReal (S := S64x128) (a3 m c)
  h4 : IsReal (S := S128) (a4 m c)
  h5 : IsReal (S := S2x128) (a5 m c)
  h6 : IsReal (S := S128) (a6 m c)
  h7 : IsReal (S := S3x128x128) (a7 m c)
  h8 : IsReal (S := S3x128) (a8 m c)
  h9 : IsReal (S := S3x128) (a9 m c)
  h10 : IsReal (S := S3x128) (a10 m c)
  h11 : IsReal (S := S3x128) (a11 m c)
  h12 : IsReal (S := S3x128) (a12 m c)
  hv : ∀ i, (0 : EReal) ≤ (a12 m c : FVec Ideal S3x128 .f32) i

/-- The node features are real: each is a finite sum of products of real inputs plus a real bias. -/
theorem nodes_real (hf : InputFacts m c) : IsReal (val_main_v3 (F := Ideal) (a0 m c) (a3 m c) (a4 m c)) := by
  rw [RefDense.ref_h0]
  exact IsReal.dense hf.h0 hf.h3 (fun j => hf.h4 _)

/-- The edge features are real. -/
theorem edges_real (hf : InputFacts m c) : IsReal (val_main_v7 (F := Ideal) (a1 m c) (a5 m c) (a6 m c)) := by
  rw [RefDense.ref_ea]
  exact IsReal.dense hf.h1 hf.h5 (fun j => hf.h6 _)

theorem agg0_real (hf : InputFacts m c) : IsReal (val_main_v27 (F := Ideal) (a0 m c) (a1 m c) (a3 m c) (a4 m c) (a5 m c) (a6 m c) (a17 m c) (a18 m c)) :=
  AggReal.agg0 _ _ _ _ _ _ _ _ (nodes_real m c hf) (edges_real m c hf)

theorem law0 (hf : InputFacts m c) : val_main_v57 (F := Ideal) (a0 m c) (a1 m c) (a3 m c) (a4 m c) (a5 m c) (a6 m c) (a7 m c) (a8 m c) (a9 m c) (a10 m c) (a11 m c) (a12 m c) (a17 m c) (a18 m c)
    = denseRelu (val_main_v27 (F := Ideal) (a0 m c) (a1 m c) (a3 m c) (a4 m c) (a5 m c) (a6 m c) (a17 m c) (a18 m c)) (Params.w0 (a7 m c) (a9 m c) (a12 m c)) (Params.b0 (a8 m c) (a9 m c) (a10 m c) (a11 m c) (a12 m c)) :=
  Layer0.layer0 _ _ _ _ _ _ _ _ _ _ _ _ _ _ (agg0_real m c hf) hf.h7 hf.h8 hf.h9 hf.h10 hf.h11 hf.h12 hf.hv

/-- The first layer's output. -/
theorem layer0_eq (hf : InputFacts m c) : W8 m ρ c (Proc.devRef .tc main_v39) = val_main_v57 (F := Ideal) (a0 m c) (a1 m c) (a3 m c) (a4 m c) (a5 m c) (a6 m c) (a7 m c) (a8 m c) (a9 m c) (a10 m c) (a11 m c) (a12 m c) (a17 m c) (a18 m c) := by
  have e : W8 m ρ c (Proc.devRef .tc main_v39) = denseRelu (V7 m ρ c main_v33) (V7 m ρ c main_v35) (V7 m ρ c main_v38) :=
    (W8_arr m ρ c 3).trans (RegionValueB.region2 (V7 m ρ) c)
  have e1 : V7 m ρ c main_v33 = _ := agg0_eq m ρ c
  have e2 : V7 m ρ c main_v35 = _ := W7_v35 m ρ c
  have e3 : V7 m ρ c main_v38 = _ := W7_v38 m ρ c
  rw [e, e1, e2, e3]
  exact (law0 m c hf).symm

theorem layer0_real (hf : InputFacts m c) : IsReal (val_main_v57 (F := Ideal) (a0 m c) (a1 m c) (a3 m c) (a4 m c) (a5 m c) (a6 m c) (a7 m c) (a8 m c) (a9 m c) (a10 m c) (a11 m c) (a12 m c) (a17 m c) (a18 m c)) := by
  rw [law0 m c hf]
  exact IsReal.denseRelu (agg0_real m c hf) (Layer.isReal_w0 hf.h7 hf.h9 hf.h12 hf.hv) (Layer.isReal_b0 hf.h8 hf.h9 hf.h10 hf.h11 hf.h12 hf.hv)

end Cert.Bridge

end
-- ==== Proof.Layer1.lean ====
/-
  Layer 1 of the reference is layer 1 of the kernel, entry by entry.

  The reference's layer is a chain of array operations: the slice `[1, :, :]` of the weights as a matrix, the product
  with the layer's input, then the bias, mean, scale and shift rows `[1, :]`, each sliced out, flattened and broadcast
  along the rows, and the rectifier against a broadcast zero. Read at the entry `(p, q)` each operand is one entry of an
  argument array: the weight `W[1, k, q]`, and `b[1, q]`, `mean[1, q]`, `beta[1, q]`, and
  `gamma[1, q] / sqrt (var[1, q] + eps)`, which is the kernel's `scale` at `(1, q)`. What is left is the
  folded layer at an entry in the reference's order of operations, which is `denseRelu_fold1`.
-/
import proofs.«111450_j42666205118859_2_alg».proof.Proof.LayerCore
import proofs.«111450_j42666205118859_2_alg».proof.Proof.RefRead

noncomputable section

open scoped BigOperators

namespace Cert.Gcn.Layer1

open Cert.ReferenceIdeal Cert.ReferenceIdeal.ReadP Idealize.ShloMosaic Idealize.ShloMosaic.ValueIdx
open Cert.Gcn Cert.Gcn.Layer

variable (x0 : (⟨S131072x64, .f32⟩ : BufTy).Contents (Elt Ideal)) (x1 : (⟨S2097152x2, .f32⟩ : BufTy).Contents (Elt Ideal)) (x3 : (⟨S64x128, .f32⟩ : BufTy).Contents (Elt Ideal))
  (x4 : (⟨S128, .f32⟩ : BufTy).Contents (Elt Ideal)) (x5 : (⟨S2x128, .f32⟩ : BufTy).Contents (Elt Ideal)) (x6 : (⟨S128, .f32⟩ : BufTy).Contents (Elt Ideal))
  (x7 : (⟨S3x128x128, .f32⟩ : BufTy).Contents (Elt Ideal)) (x8 x9 x10 x11 x12 : (⟨S3x128, .f32⟩ : BufTy).Contents (Elt Ideal))
  (x17 x18 : (⟨S2097152, .i32⟩ : BufTy).Contents (Elt Ideal))

/-- A row `[1, :]` of a `[3, 128]` array, flattened and broadcast along the rows, read at `(p, q)` sits at `(1, q)`:
    the index the slice, the flattening and the two broadcasts compose to. -/
theorem rowIdx (q : Fin 128) (j : S3x128.Idx) (h0 : (j 0).val = 1) (h1 : (j 1).val = q.val % 128) :
    j = ix2 (1 : Fin 3) q := by
  funext a
  match a with
  | ⟨0, _⟩ => exact Fin.ext h0
  | ⟨1, _⟩ => exact Fin.ext (h1.trans (Nat.mod_eq_of_lt q.isLt))

/-- The bias row of the layer at `(p, q)`. -/
theorem bias_entry (p : Fin 131072) (q : Fin 128) :
    val_main_v78 (F := Ideal) x8 (ix2 p q) = x8 (ix2 (1 : Fin 3) q) := by
  rw [val_main_v78_apply, val_main_v77_apply, val_main_v76_apply, val_main_v75_apply]
  exact congrArg x8 (rowIdx q _ rfl rfl)

/-- The running-mean row of the layer at `(p, q)`. -/
theorem mean_entry (p : Fin 131072) (q : Fin 128) :
    val_main_v83 (F := Ideal) x11 (ix2 p q) = x11 (ix2 (1 : Fin 3) q) := by
  rw [val_main_v83_apply, val_main_v82_apply, val_main_v81_apply, val_main_v80_apply]
  exact congrArg x11 (rowIdx q _ rfl rfl)

/-- The shift row of the layer at `(p, q)`. -/
theorem beta_entry (p : Fin 131072) (q : Fin 128) :
    val_main_v99 (F := Ideal) x10 (ix2 p q) = x10 (ix2 (1 : Fin 3) q) := by
  rw [val_main_v99_apply, val_main_v98_apply, val_main_v97_apply, val_main_v96_apply]
  exact congrArg x10 (rowIdx q _ rfl rfl)

/-- The reference's `gamma / sqrt (var + eps)` row of the layer at `(p, q)` is the kernel's `scale` at `(1, q)`. -/
theorem scale_entry (p : Fin 131072) (q : Fin 128) :
    val_main_v94 (F := Ideal) x9 x12 (ix2 p q) = Cert.KernelIdeal.Params.scale x9 x12 (ix2 (1 : Fin 3) q) := by
  rw [val_main_v94_apply, val_main_v93_apply, val_main_v92_apply, val_main_v86_apply, val_main_v85_apply,
    val_main_v91_apply, val_main_v90_apply, val_main_v88_apply, val_main_v87_apply, val_main_v89_apply,
    val_main_cst_8_apply, scale_apply,
    rowIdx q (idx_main_v85 (idx_main_v86 (idx_main_v93 (idx_main_v94 (ix2 p q))))) rfl rfl,
    rowIdx q (idx_main_v87 (idx_main_v88 (idx_main_v93 (idx_main_v94 (ix2 p q))))) rfl rfl]
  rfl

/-- The slice `[1, :, :]` of the weights, as a matrix, at `(k, q)`. -/
theorem weight_entry (k q : Fin 128) :
    val_main_v73 (F := Ideal) x7 (ix2 k q) = x7 (ix3 (1 : Fin 3) k q) := by
  rw [val_main_v73_apply, val_main_v72_apply]
  refine congrArg x7 (funext fun a => ?_)
  have hk := k.isLt
  have hq := q.isLt
  match a with
  | ⟨0, _⟩ => exact Fin.ext rfl
  | ⟨1, _⟩ => exact Fin.ext (by show (k.val * 128 + q.val) / 128 % 128 = k.val; omega)
  | ⟨2, _⟩ => exact Fin.ext (by show (k.val * 128 + q.val) % 128 = q.val; omega)

/-- The rectifier's broadcast zero. -/
theorem relu_zero (i : S131072x128.Idx) : val_main_call2_v0 (F := Ideal) i = 0 := by
  rw [val_main_call2_v0_apply, val_main_call2_cst_apply, Ideal.ofBits_def, Ideal.ofBits_zero_f32]

/-- THE LAYER LAW for the second layer. On real inputs (and a variance that is nowhere negative) the reference's
    "linear, then batch normalisation, then rectifier" is the kernel's one fully connected layer with the normalisation
    folded into its weights and bias, then the rectifier. -/
theorem layer1 (ha : IsReal (val_main_v71 (F := Ideal) x0 x1 x3 x4 x5 x6 x7 x8 x9 x10 x11 x12 x17 x18)) (h7 : IsReal x7) (h8 : IsReal x8)
    (h9 : IsReal x9) (h10 : IsReal x10) (h11 : IsReal x11) (h12 : IsReal x12) (hv : ∀ i, (0 : EReal) ≤ x12 i) :
    val_main_v101 (F := Ideal) x0 x1 x3 x4 x5 x6 x7 x8 x9 x10 x11 x12 x17 x18
      = denseRelu (val_main_v71 (F := Ideal) x0 x1 x3 x4 x5 x6 x7 x8 x9 x10 x11 x12 x17 x18)
          (Cert.KernelIdeal.Params.w1 x7 x9 x12) (Cert.KernelIdeal.Params.b1 x8 x9 x10 x11 x12) := by
  funext i
  obtain ⟨p, q, rfl⟩ : ∃ (p : Fin 131072) (q : Fin 128), i = ix2 p q := ⟨i 0, i 1, eq_ix2 i⟩
  refine Eq.trans ?_ (denseRelu_fold1 _ x7 x8 x9 x10 x11 x12 ha h7 h8 h9 h10 h11 h12 hv p q).symm
  rw [val_main_v101_apply, val_main_v100_apply, val_main_v95_apply, val_main_v84_apply, val_main_v79_apply, val_main_v74_apply,
    bias_entry, mean_entry, scale_entry, beta_entry, relu_zero]
  generalize val_main_v71 (F := Ideal) x0 x1 x3 x4 x5 x6 x7 x8 x9 x10 x11 x12 x17 x18 = A
  have hsum : (∑ k : Fin 128, A (lidx_main_v74 (ix2 p q) k) * val_main_v73 (F := Ideal) x7 (ridx_main_v74 (ix2 p q) k))
      = ∑ k : Fin 128, A (ix2 p k) * x7 (ix3 (1 : Fin 3) k q) :=
    Finset.sum_congr rfl fun k _ => by
      rw [show lidx_main_v74 (ix2 p q) k = ix2 p k from funext fun a => match a with | ⟨0, _⟩ => rfl | ⟨1, _⟩ => rfl,
        show ridx_main_v74 (ix2 p q) k = ix2 k q from funext fun a => match a with | ⟨0, _⟩ => rfl | ⟨1, _⟩ => rfl,
        weight_entry]
  rw [hsum]
  rfl

end Cert.Gcn.Layer1

end
-- ==== Proof.ChunksB.lean ====
/-
  The stretches of host operations that run before the second and before the third layer region, each read as
  functions of the arrays it finds.

  Either stretch does three things. It aggregates: for every edge it takes the features of the edge's source node
  (a negative source index counted from the end), multiplies them by the edge's features, sums the products into
  the rows of the target nodes, divides every row by the node's clipped degree and adds the node's own features.
  It cuts the layer's matrix out of the stack of three scaled weight matrices, and the layer's row out of the
  stack of three folded bias rows, the row as a one-row matrix. Nothing else of what the stretch finds is read.
-/
import proofs.«111450_j42666205118859_2_alg».proof.Proof.ChunkDefs

noncomputable section

namespace Cert.KernelIdeal.Chunks

open Cert.KernelIdeal Cert.KernelIdeal.Gen
open Idealize.ShloMosaic Idealize.ShloMosaic.TcCoe Idealize.SL.Sem Idealize.ShloMosaic.StableHlo

variable (V : Valuation τ sig (Elt Ideal))

/-! ## Before the second layer region -/

/-- The activations the second layer region is given: the aggregation of the first layer's result. -/
theorem seg3_v53 : @Eq (FVec Ideal S131072x128 .f32) (StableHlo.after hostOps3 V (Proc.devRef .tc main_v53))
    (Kagg (V (Proc.devRef .tc main_v39) : FVec Ideal S131072x128 .f32) (V (Proc.devRef .tc main_v3) : FVec Ideal S2097152x128 .f32) (V (Proc.devRef .tc main_v9) : FVec Ideal S131072x1 .f32) (V (Proc.devRef .tc main_arg17) : IVec S2097152 32) (V (Proc.devRef .tc main_arg18) : IVec S2097152 32)) := by
  after_results_simp <;> rfl

/-- Its weights: the second of the three scaled weight matrices. -/
theorem seg3_v55 : @Eq (FVec Ideal S128x128 .f32) (StableHlo.after hostOps3 V (Proc.devRef .tc main_v55)) (wSlice1 (V (Proc.devRef .tc main_v16) : FVec Ideal S3x128x128 .f32)) := by
  after_results_simp <;> rfl

/-- Its bias row: the second of the three folded bias rows. -/
theorem seg3_v58 : @Eq (FVec Ideal S1x128 .f32) (StableHlo.after hostOps3 V (Proc.devRef .tc main_v58)) (bSlice1 (V (Proc.devRef .tc main_v19) : FVec Ideal S3x128 .f32)) := by
  after_results_simp <;> rfl

/-! ## Before the third layer region -/

/-- The activations the third layer region is given: the aggregation of the second layer's result. -/
theorem seg4_v73 : @Eq (FVec Ideal S131072x128 .f32) (StableHlo.after hostOps4 V (Proc.devRef .tc main_v73))
    (Kagg (V (Proc.devRef .tc main_v59) : FVec Ideal S131072x128 .f32) (V (Proc.devRef .tc main_v3) : FVec Ideal S2097152x128 .f32) (V (Proc.devRef .tc main_v9) : FVec Ideal S131072x1 .f32) (V (Proc.devRef .tc main_arg17) : IVec S2097152 32) (V (Proc.devRef .tc main_arg18) : IVec S2097152 32)) := by
  after_results_simp <;> rfl

/-- Its weights: the third of the three scaled weight matrices. -/
theorem seg4_v75 : @Eq (FVec Ideal S128x128 .f32) (StableHlo.after hostOps4 V (Proc.devRef .tc main_v75)) (wSlice2 (V (Proc.devRef .tc main_v16) : FVec Ideal S3x128x128 .f32)) := by
  after_results_simp <;> rfl

/-- Its bias row: the third of the three folded bias rows. -/
theorem seg4_v78 : @Eq (FVec Ideal S1x128 .f32) (StableHlo.after hostOps4 V (Proc.devRef .tc main_v78)) (bSlice2 (V (Proc.devRef .tc main_v19) : FVec Ideal S3x128 .f32)) := by
  after_results_simp <;> rfl

end Cert.KernelIdeal.Chunks

end
-- ==== Proof.StagesD.lean ====
/-
  The 1 layer: the same three steps as the first — the aggregation of the previous layer's output (read from the
  arrays computed once: edge features, degree column, scaled weights, folded biases), its realness, and the layer law.
-/
import proofs.«111450_j42666205118859_2_alg».proof.Proof.StagesC
import proofs.«111450_j42666205118859_2_alg».proof.Proof.Layer1
import proofs.«111450_j42666205118859_2_alg».proof.Proof.ChunksB

noncomputable section

namespace Cert.Bridge

open Cert.KernelIdeal Cert.KernelIdeal.Gen Cert.KernelIdeal.Fold
open Idealize.ShloMosaic Idealize.ShloMosaic.TcCoe Idealize.SL.Sem Idealize.ShloMosaic.StableHlo
open Cert.ReferenceIdeal.ReadP
open Cert.Gcn

variable (m : (ℓ : Loc nD τ sig) → Buf (Elt Ideal) ℓ) (ρ : Dev nD → PrngReg) (c : Dev nD)

set_option maxHeartbeats 4000000

open Cert.KernelIdeal.Chunks

/-- The layer's input. -/
theorem agg1_eq (hf : InputFacts m c) : W9 m ρ c (Proc.devRef .tc main_v53) = val_main_v71 (F := Ideal) (a0 m c) (a1 m c) (a3 m c) (a4 m c) (a5 m c) (a6 m c) (a7 m c) (a8 m c) (a9 m c) (a10 m c) (a11 m c) (a12 m c) (a17 m c) (a18 m c) :=
  (seg3_v53 (W8 m ρ c)).trans (by
    rw [layer0_eq m ρ c hf, W8_v3_carry, edges_eq, W8_v9_carry, W7_v9, W8_arg17, W8_arg18]
    exact (agg1_same _ _ _ _ _ _ _ _ _ _ _ _ _ _).symm)

/-- The layer's weights and bias row. -/
theorem W9_v55 : W9 m ρ c (Proc.devRef .tc main_v55) = Params.w1 (a7 m c) (a9 m c) (a12 m c) :=
  (seg3_v55 (W8 m ρ c)).trans (by rw [W8_v16_carry, W7_v16]; exact w1_eq _ _ _)
theorem W9_v58 : W9 m ρ c (Proc.devRef .tc main_v58) = Params.b1 (a8 m c) (a9 m c) (a10 m c) (a11 m c) (a12 m c) :=
  (seg3_v58 (W8 m ρ c)).trans (by rw [W8_v19_carry, W7_v19]; exact b1_eq _ _ _ _ _)

theorem agg1_real (hf : InputFacts m c) : IsReal (val_main_v71 (F := Ideal) (a0 m c) (a1 m c) (a3 m c) (a4 m c) (a5 m c) (a6 m c) (a7 m c) (a8 m c) (a9 m c) (a10 m c) (a11 m c) (a12 m c) (a17 m c) (a18 m c)) :=
  AggReal.agg1 _ _ _ _ _ _ _ _ _ _ _ _ _ _ (layer0_real m c hf) (edges_real m c hf)

theorem law1 (hf : InputFacts m c) : val_main_v101 (F := Ideal) (a0 m c) (a1 m c) (a3 m c) (a4 m c) (a5 m c) (a6 m c) (a7 m c) (a8 m c) (a9 m c) (a10 m c) (a11 m c) (a12 m c) (a17 m c) (a18 m c)
    = denseRelu (val_main_v71 (F := Ideal) (a0 m c) (a1 m c) (a3 m c) (a4 m c) (a5 m c) (a6 m c) (a7 m c) (a8 m c) (a9 m c) (a10 m c) (a11 m c) (a12 m c) (a17 m c) (a18 m c)) (Params.w1 (a7 m c) (a9 m c) (a12 m c)) (Params.b1 (a8 m c) (a9 m c) (a10 m c) (a11 m c) (a12 m c)) :=
  Layer1.layer1 _ _ _ _ _ _ _ _ _ _ _ _ _ _ (agg1_real m c hf) hf.h7 hf.h8 hf.h9 hf.h10 hf.h11 hf.h12 hf.hv

/-- The layer's output. -/
theorem layer1_eq (hf : InputFacts m c) : W10 m ρ c (Proc.devRef .tc main_v59) = val_main_v101 (F := Ideal) (a0 m c) (a1 m c) (a3 m c) (a4 m c) (a5 m c) (a6 m c) (a7 m c) (a8 m c) (a9 m c) (a10 m c) (a11 m c) (a12 m c) (a17 m c) (a18 m c) := by
  have e : W10 m ρ c (Proc.devRef .tc main_v59) = denseRelu (V9 m ρ c main_v53) (V9 m ρ c main_v55) (V9 m ρ c main_v58) :=
    (W10_arr m ρ c 3).trans (RegionValueB.region3 (V9 m ρ) c)
  have e1 : V9 m ρ c main_v53 = _ := agg1_eq m ρ c hf
  have e2 : V9 m ρ c main_v55 = _ := W9_v55 m ρ c
  have e3 : V9 m ρ c main_v58 = _ := W9_v58 m ρ c
  rw [e, e1, e2, e3]
  exact (law1 m c hf).symm

theorem layer1_real (hf : InputFacts m c) : IsReal (val_main_v101 (F := Ideal) (a0 m c) (a1 m c) (a3 m c) (a4 m c) (a5 m c) (a6 m c) (a7 m c) (a8 m c) (a9 m c) (a10 m c) (a11 m c) (a12 m c) (a17 m c) (a18 m c)) := by
  rw [law1 m c hf]
  exact IsReal.denseRelu (agg1_real m c hf) (Layer.isReal_w1 hf.h7 hf.h9 hf.h12 hf.hv) (Layer.isReal_b1 hf.h8 hf.h9 hf.h10 hf.h11 hf.h12 hf.hv)

end Cert.Bridge

end
-- ==== Proof.Layer2.lean ====
/-
  Layer 2 of the reference is layer 2 of the kernel, entry by entry.

  The reference's layer is a chain of array operations: the slice `[2, :, :]` of the weights as a matrix, the product
  with the layer's input, then the bias, mean, scale and shift rows `[2, :]`, each sliced out, flattened and broadcast
  along the rows, and the rectifier against a broadcast zero. Read at the entry `(p, q)` each operand is one entry of an
  argument array: the weight `W[2, k, q]`, and `b[2, q]`, `mean[2, q]`, `beta[2, q]`, and
  `gamma[2, q] / sqrt (var[2, q] + eps)`, which is the kernel's `scale` at `(2, q)`. What is left is the
  folded layer at an entry in the reference's order of operations, which is `denseRelu_fold2`.
-/
import proofs.«111450_j42666205118859_2_alg».proof.Proof.LayerCore
import proofs.«111450_j42666205118859_2_alg».proof.Proof.RefRead

noncomputable section

open scoped BigOperators

namespace Cert.Gcn.Layer2

open Cert.ReferenceIdeal Cert.ReferenceIdeal.ReadP Idealize.ShloMosaic Idealize.ShloMosaic.ValueIdx
open Cert.Gcn Cert.Gcn.Layer

variable (x0 : (⟨S131072x64, .f32⟩ : BufTy).Contents (Elt Ideal)) (x1 : (⟨S2097152x2, .f32⟩ : BufTy).Contents (Elt Ideal)) (x3 : (⟨S64x128, .f32⟩ : BufTy).Contents (Elt Ideal))
  (x4 : (⟨S128, .f32⟩ : BufTy).Contents (Elt Ideal)) (x5 : (⟨S2x128, .f32⟩ : BufTy).Contents (Elt Ideal)) (x6 : (⟨S128, .f32⟩ : BufTy).Contents (Elt Ideal))
  (x7 : (⟨S3x128x128, .f32⟩ : BufTy).Contents (Elt Ideal)) (x8 x9 x10 x11 x12 : (⟨S3x128, .f32⟩ : BufTy).Contents (Elt Ideal))
  (x17 x18 : (⟨S2097152, .i32⟩ : BufTy).Contents (Elt Ideal))

/-- A row `[2, :]` of a `[3, 128]` array, flattened and broadcast along the rows, read at `(p, q)` sits at `(2, q)`:
    the index the slice, the flattening and the two broadcasts compose to. -/
theorem rowIdx (q : Fin 128) (j : S3x128.Idx) (h0 : (j 0).val = 2) (h1 : (j 1).val = q.val % 128) :
    j = ix2 (2 : Fin 3) q := by
  funext a
  match a with
  | ⟨0, _⟩ => exact Fin.ext h0
  | ⟨1, _⟩ => exact Fin.ext (h1.trans (Nat.mod_eq_of_lt q.isLt))

/-- The bias row of the layer at `(p, q)`. -/
theorem bias_entry (p : Fin 131072) (q : Fin 128) :
    val_main_v122 (F := Ideal) x8 (ix2 p q) = x8 (ix2 (2 : Fin 3) q) := by
  rw [val_main_v122_apply, val_main_v121_apply, val_main_v120_apply, val_main_v119_apply]
  exact congrArg x8 (rowIdx q _ rfl rfl)

/-- The running-mean row of the layer at `(p, q)`. -/
theorem mean_entry (p : Fin 131072) (q : Fin 128) :
    val_main_v127 (F := Ideal) x11 (ix2 p q) = x11 (ix2 (2 : Fin 3) q) := by
  rw [val_main_v127_apply, val_main_v126_apply, val_main_v125_apply, val_main_v124_apply]
  exact congrArg x11 (rowIdx q _ rfl rfl)

/-- The shift row of the layer at `(p, q)`. -/
theorem beta_entry (p : Fin 131072) (q : Fin 128) :
    val_main_v143 (F := Ideal) x10 (ix2 p q) = x10 (ix2 (2 : Fin 3) q) := by
  rw [val_main_v143_apply, val_main_v142_apply, val_main_v141_apply, val_main_v140_apply]
  exact congrArg x10 (rowIdx q _ rfl rfl)

/-- The reference's `gamma / sqrt (var + eps)` row of the layer at `(p, q)` is the kernel's `scale` at `(2, q)`. -/
theorem scale_entry (p : Fin 131072) (q : Fin 128) :
    val_main_v138 (F := Ideal) x9 x12 (ix2 p q) = Cert.KernelIdeal.Params.scale x9 x12 (ix2 (2 : Fin 3) q) := by
  rw [val_main_v138_apply, val_main_v137_apply, val_main_v136_apply, val_main_v130_apply, val_main_v129_apply,
    val_main_v135_apply, val_main_v134_apply, val_main_v132_apply, val_main_v131_apply, val_main_v133_apply,
    val_main_cst_12_apply, scale_apply,
    rowIdx q (idx_main_v129 (idx_main_v130 (idx_main_v137 (idx_main_v138 (ix2 p q))))) rfl rfl,
    rowIdx q (idx_main_v131 (idx_main_v132 (idx_main_v137 (idx_main_v138 (ix2 p q))))) rfl rfl]
  rfl

/-- The slice `[2, :, :]` of the weights, as a matrix, at `(k, q)`. -/
theorem weight_entry (k q : Fin 128) :
    val_main_v117 (F := Ideal) x7 (ix2 k q) = x7 (ix3 (2 : Fin 3) k q) := by
  rw [val_main_v117_apply, val_main_v116_apply]
  refine congrArg x7 (funext fun a => ?_)
  have hk := k.isLt
  have hq := q.isLt
  match a with
  | ⟨0, _⟩ => exact Fin.ext rfl
  | ⟨1, _⟩ => exact Fin.ext (by show (k.val * 128 + q.val) / 128 % 128 = k.val; omega)
  | ⟨2, _⟩ => exact Fin.ext (by show (k.val * 128 + q.val) % 128 = q.val; omega)

/-- The rectifier's broadcast zero. -/
theorem relu_zero (i : S131072x128.Idx) : val_main_call3_v0 (F := Ideal) i = 0 := by
  rw [val_main_call3_v0_apply, val_main_call3_cst_apply, Ideal.ofBits_def, Ideal.ofBits_zero_f32]

/-- THE LAYER LAW for the third layer. On real inputs (and a variance that is nowhere negative) the reference's
    "linear, then batch normalisation, then rectifier" is the kernel's one fully connected layer with the normalisation
    folded into its weights and bias, then the rectifier. -/
theorem layer2 (ha : IsReal (val_main_v115 (F := Ideal) x0 x1 x3 x4 x5 x6 x7 x8 x9 x10 x11 x12 x17 x18)) (h7 : IsReal x7) (h8 : IsReal x8)
    (h9 : IsReal x9) (h10 : IsReal x10) (h11 : IsReal x11) (h12 : IsReal x12) (hv : ∀ i, (0 : EReal) ≤ x12 i) :
    val_main_v145 (F := Ideal) x0 x1 x3 x4 x5 x6 x7 x8 x9 x10 x11 x12 x17 x18
      = denseRelu (val_main_v115 (F := Ideal) x0 x1 x3 x4 x5 x6 x7 x8 x9 x10 x11 x12 x17 x18)
          (Cert.KernelIdeal.Params.w2 x7 x9 x12) (Cert.KernelIdeal.Params.b2 x8 x9 x10 x11 x12) := by
  funext i
  obtain ⟨p, q, rfl⟩ : ∃ (p : Fin 131072) (q : Fin 128), i = ix2 p q := ⟨i 0, i 1, eq_ix2 i⟩
  refine Eq.trans ?_ (denseRelu_fold2 _ x7 x8 x9 x10 x11 x12 ha h7 h8 h9 h10 h11 h12 hv p q).symm
  rw [val_main_v145_apply, val_main_v144_apply, val_main_v139_apply, val_main_v128_apply, val_main_v123_apply, val_main_v118_apply,
    bias_entry, mean_entry, scale_entry, beta_entry, relu_zero]
  generalize val_main_v115 (F := Ideal) x0 x1 x3 x4 x5 x6 x7 x8 x9 x10 x11 x12 x17 x18 = A
  have hsum : (∑ k : Fin 128, A (lidx_main_v118 (ix2 p q) k) * val_main_v117 (F := Ideal) x7 (ridx_main_v118 (ix2 p q) k))
      = ∑ k : Fin 128, A (ix2 p k) * x7 (ix3 (2 : Fin 3) k q) :=
    Finset.sum_congr rfl fun k _ => by
      rw [show lidx_main_v118 (ix2 p q) k = ix2 p k from funext fun a => match a with | ⟨0, _⟩ => rfl | ⟨1, _⟩ => rfl,
        show ridx_main_v118 (ix2 p q) k = ix2 k q from funext fun a => match a with | ⟨0, _⟩ => rfl | ⟨1, _⟩ => rfl,
        weight_entry]
  rw [hsum]
  rfl

end Cert.Gcn.Layer2

end
-- ==== Proof.StagesE.lean ====
/-
  The 2 layer: the same three steps as the first — the aggregation of the previous layer's output (read from the
  arrays computed once: edge features, degree column, scaled weights, folded biases), its realness, and the layer law.
-/
import proofs.«111450_j42666205118859_2_alg».proof.Proof.StagesD
import proofs.«111450_j42666205118859_2_alg».proof.Proof.Layer2

noncomputable section

namespace Cert.Bridge

open Cert.KernelIdeal Cert.KernelIdeal.Gen Cert.KernelIdeal.Fold
open Idealize.ShloMosaic Idealize.ShloMosaic.TcCoe Idealize.SL.Sem Idealize.ShloMosaic.StableHlo
open Cert.ReferenceIdeal.ReadP
open Cert.Gcn

variable (m : (ℓ : Loc nD τ sig) → Buf (Elt Ideal) ℓ) (ρ : Dev nD → PrngReg) (c : Dev nD)

set_option maxHeartbeats 4000000

open Cert.KernelIdeal.Chunks

/-- The layer's input. -/
theorem agg2_eq (hf : InputFacts m c) : W11 m ρ c (Proc.devRef .tc main_v73) = val_main_v115 (F := Ideal) (a0 m c) (a1 m c) (a3 m c) (a4 m c) (a5 m c) (a6 m c) (a7 m c) (a8 m c) (a9 m c) (a10 m c) (a11 m c) (a12 m c) (a17 m c) (a18 m c) :=
  (seg4_v73 (W10 m ρ c)).trans (by
    rw [layer1_eq m ρ c hf, W10_v3_carry, W8_v3_carry, edges_eq, W10_v9_carry, W8_v9_carry, W7_v9, W10_arg17, W10_arg18]
    exact (agg2_same _ _ _ _ _ _ _ _ _ _ _ _ _ _).symm)

/-- The layer's weights and bias row. -/
theorem W11_v75 : W11 m ρ c (Proc.devRef .tc main_v75) = Params.w2 (a7 m c) (a9 m c) (a12 m c) :=
  (seg4_v75 (W10 m ρ c)).trans (by rw [W10_v16_carry, W8_v16_carry, W7_v16]; exact w2_eq _ _ _)
theorem W11_v78 : W11 m ρ c (Proc.devRef .tc main_v78) = Params.b2 (a8 m c) (a9 m c) (a10 m c) (a11 m c) (a12 m c) :=
  (seg4_v78 (W10 m ρ c)).trans (by rw [W10_v19_carry, W8_v19_carry, W7_v19]; exact b2_eq _ _ _ _ _)

theorem agg2_real (hf : InputFacts m c) : IsReal (val_main_v115 (F := Ideal) (a0 m c) (a1 m c) (a3 m c) (a4 m c) (a5 m c) (a6 m c) (a7 m c) (a8 m c) (a9 m c) (a10 m c) (a11 m c) (a12 m c) (a17 m c) (a18 m c)) :=
  AggReal.agg2 _ _ _ _ _ _ _ _ _ _ _ _ _ _ (layer1_real m c hf) (edges_real m c hf)

theorem law2 (hf : InputFacts m c) : val_main_v145 (F := Ideal) (a0 m c) (a1 m c) (a3 m c) (a4 m c) (a5 m c) (a6 m c) (a7 m c) (a8 m c) (a9 m c) (a10 m c) (a11 m c) (a12 m c) (a17 m c) (a18 m c)
    = denseRelu (val_main_v115 (F := Ideal) (a0 m c) (a1 m c) (a3 m c) (a4 m c) (a5 m c) (a6 m c) (a7 m c) (a8 m c) (a9 m c) (a10 m c) (a11 m c) (a12 m c) (a17 m c) (a18 m c)) (Params.w2 (a7 m c) (a9 m c) (a12 m c)) (Params.b2 (a8 m c) (a9 m c) (a10 m c) (a11 m c) (a12 m c)) :=
  Layer2.layer2 _ _ _ _ _ _ _ _ _ _ _ _ _ _ (agg2_real m c hf) hf.h7 hf.h8 hf.h9 hf.h10 hf.h11 hf.h12 hf.hv

/-- The layer's output. -/
theorem layer2_eq (hf : InputFacts m c) : W12 m ρ c (Proc.devRef .tc main_v79) = val_main_v145 (F := Ideal) (a0 m c) (a1 m c) (a3 m c) (a4 m c) (a5 m c) (a6 m c) (a7 m c) (a8 m c) (a9 m c) (a10 m c) (a11 m c) (a12 m c) (a17 m c) (a18 m c) := by
  have e : W12 m ρ c (Proc.devRef .tc main_v79) = denseRelu (V11 m ρ c main_v73) (V11 m ρ c main_v75) (V11 m ρ c main_v78) :=
    (W12_arr m ρ c 3).trans (RegionValueB.region4 (V11 m ρ) c)
  have e1 : V11 m ρ c main_v73 = _ := agg2_eq m ρ c hf
  have e2 : V11 m ρ c main_v75 = _ := W11_v75 m ρ c
  have e3 : V11 m ρ c main_v78 = _ := W11_v78 m ρ c
  rw [e, e1, e2, e3]
  exact (law2 m c hf).symm

theorem layer2_real (hf : InputFacts m c) : IsReal (val_main_v145 (F := Ideal) (a0 m c) (a1 m c) (a3 m c) (a4 m c) (a5 m c) (a6 m c) (a7 m c) (a8 m c) (a9 m c) (a10 m c) (a11 m c) (a12 m c) (a17 m c) (a18 m c)) := by
  rw [law2 m c hf]
  exact IsReal.denseRelu (agg2_real m c hf) (Layer.isReal_w2 hf.h7 hf.h9 hf.h12 hf.hv) (Layer.isReal_b2 hf.h8 hf.h9 hf.h10 hf.h11 hf.h12 hf.hv)

end Cert.Bridge

end
-- ==== Proof.PreFacts.lean ====
/-
  The precondition, read back.

  The precondition is one truth value: the conjunction, over the seventeen float arrays, of "every entry has absolute
  value strictly below plus infinity", and last of "every entry of the variance array is at least zero". Over the
  extended reals the absolute value of x is max x (-x), which is plus infinity exactly at the two infinities, so the first
  kind of conjunct says that every entry is a real number. This module turns the truth value being one into those
  statements, array by array.
-/
import proofs.«111450_j42666205118859_2_alg».proof.Pre_finite_inputs
import proofs.«111450_j42666205118859_2_alg».proof.Proof.Spec
import Idealize.ShloMosaic.Lib.ReduceAll
import Idealize.ShloMosaic.Lib.ValueIdx
import Idealize.ShloMosaic.PureOps.Ideal.Laws

noncomputable section

namespace Cert.Gcn.PreFacts

open Idealize.ShloMosaic Idealize.ShloMosaic.ValueIdx
open Cert.Pre_finite_inputs

/-! ## Scalars -/

/-- The 32-bit pattern with all exponent bits set, sign and fraction clear, denotes plus infinity. -/
theorem ofBits_inf_f32 : Ideal.ofBits .f32 0x7F800000#32 = ⊤ := by simp [Ideal.ofBits, Ideal.ieee]

/-- An extended real whose absolute value max x (-x) is below plus infinity is a real number: at either
    infinity one of x and -x is plus infinity. -/
theorem real_of_abs_lt_top (x : EReal) (h : max x (-x) < ⊤) : ∃ r : ℝ, x = (r : EReal) := by
  induction x with
  | bot => simp at h
  | coe r => exact ⟨r, rfl⟩
  | top => simp at h

/-- The one-bit word of a decidable proposition is one exactly when the proposition holds. -/
theorem ofBool_decide_eq_one (p : Prop) [Decidable p] : BitVec.ofBool (decide p) = 1#1 ↔ p := by
  by_cases h : p
  · rw [decide_eq_true h]; exact ⟨fun _ => h, fun _ => rfl⟩
  · rw [decide_eq_false h]; exact ⟨fun e => absurd e (by decide), fun e => absurd e h⟩

/-- The comparison "less than" answers one exactly when x < y. -/
theorem cmp_olt_eq_one (x y : EReal) : Ideal.cmp .olt x y = 1#1 ↔ x < y := ofBool_decide_eq_one _

/-- The comparison "at least" answers one exactly when y ≤ x. -/
theorem cmp_oge_eq_one (x y : EReal) : Ideal.cmp .oge x y = 1#1 ↔ y ≤ x := ofBool_decide_eq_one _

/-- The conjunction of two arrays of words, read at an index, is the conjunction of the two entries. -/
theorem andi_at {s : Shape} {w : Nat} (x y : IVec s w) (i : s.Idx) : andi x y i = IntOp.andi (x i) (y i) := rfl

/-! ## One conjunct, over an arbitrary shape -/

/-- "All entries of |a| are below plus infinity" is one: then every entry of a is a real number. The reduction
    runs over every axis, so each index of a reduces into the single index of the scalar result, and the entry
    compared there is max (a i) (-(a i)) against the broadcast infinity. -/
theorem isReal_of_all {S : Shape} {axes : List (Fin S.rank)} (a : FVec Ideal S .f32)
    (hb : S_.BroadcastsInDim S (![] : Fin 0 → Fin S.rank)) (hr : S.ReducesTo axes S_) (hS : 0 < S_.numel) (j : S_.Idx)
    (h : Host.reduce IntOp.andi (cmpf .olt (Host.absf a) (broadcastInDim S ![] hb (constant S_ .f32 0x7F800000#32)))
          (constantI S_ 1 1#1) hr hS j = 1#1) : IsReal a := by
  intro i
  have e := Host.reduce_andi_eq_one _ _ hr hS j h i (funext fun d => d.elim0)
  have e' : Ideal.cmp .olt (max (a i) (-(a i))) (Ideal.ofBits .f32 0x7F800000#32) = 1#1 := e
  rw [ofBits_inf_f32, cmp_olt_eq_one] at e'
  exact real_of_abs_lt_top _ e'

/-- "All entries of a are at least zero" is one: then every entry of a is at least zero. -/
theorem nonneg_of_all {S : Shape} {axes : List (Fin S.rank)} (a : FVec Ideal S .f32)
    (hb : S_.BroadcastsInDim S (![] : Fin 0 → Fin S.rank)) (hr : S.ReducesTo axes S_) (hS : 0 < S_.numel) (j : S_.Idx)
    (h : Host.reduce IntOp.andi (cmpf .oge a (broadcastInDim S ![] hb (constant S_ .f32 0x00000000#32)))
          (constantI S_ 1 1#1) hr hS j = 1#1) : ∀ i, (0 : EReal) ≤ a i := by
  intro i
  have e := Host.reduce_andi_eq_one _ _ hr hS j h i (funext fun d => d.elim0)
  have e' : Ideal.cmp .oge (a i) (Ideal.ofBits .f32 0x00000000#32) = 1#1 := e
  rw [Ideal.ofBits_zero_f32, cmp_oge_eq_one] at e'
  exact e'

/-! ## The whole predicate -/

/-- The predicate being one gives all eighteen conjuncts: each of the seventeen float arrays has only real entries,
    and the thirteenth (the variance) has only entries that are at least zero. The truth value is read at its single
    index, the chain of conjunctions is split from the outside, and each conjunct goes through the two lemmas above. -/
theorem decode_all [Cert.Pre_finite_inputs.Facts] (a0 : FVec Ideal Cert.Pre_finite_inputs.S131072x64 .f32) (a1 : FVec Ideal Cert.Pre_finite_inputs.S2097152x2 .f32) (a2 : FVec Ideal Cert.Pre_finite_inputs.S64x6 .f32) (a3 : FVec Ideal Cert.Pre_finite_inputs.S64x128 .f32) (a4 : FVec Ideal Cert.Pre_finite_inputs.S128 .f32) (a5 : FVec Ideal Cert.Pre_finite_inputs.S2x128 .f32) (a6 : FVec Ideal Cert.Pre_finite_inputs.S128 .f32) (a7 : FVec Ideal Cert.Pre_finite_inputs.S3x128x128 .f32) (a8 : FVec Ideal Cert.Pre_finite_inputs.S3x128 .f32) (a9 : FVec Ideal Cert.Pre_finite_inputs.S3x128 .f32) (a10 : FVec Ideal Cert.Pre_finite_inputs.S3x128 .f32) (a11 : FVec Ideal Cert.Pre_finite_inputs.S3x128 .f32) (a12 : FVec Ideal Cert.Pre_finite_inputs.S3x128 .f32) (a13 : FVec Ideal Cert.Pre_finite_inputs.S6x32 .f32) (a14 : FVec Ideal Cert.Pre_finite_inputs.S32 .f32) (a15 : FVec Ideal Cert.Pre_finite_inputs.S160x128 .f32) (a16 : FVec Ideal Cert.Pre_finite_inputs.S128 .f32) (a17 : IVec Cert.Pre_finite_inputs.S2097152 32) (a18 : IVec Cert.Pre_finite_inputs.S2097152 32) (a19 : IVec Cert.Pre_finite_inputs.S131072 32)
    (h : Cert.Pre_finite_inputs.fn (F := Ideal) a0 a1 a2 a3 a4 a5 a6 a7 a8 a9 a10 a11 a12 a13 a14 a15 a16 a17 a18 a19 = fun _ => 1#1) :
    (IsReal a0 ∧ IsReal a1 ∧ IsReal a2 ∧ IsReal a3 ∧ IsReal a4 ∧ IsReal a5 ∧ IsReal a6 ∧ IsReal a7 ∧ IsReal a8 ∧ IsReal a9 ∧ IsReal a10 ∧ IsReal a11 ∧ IsReal a12 ∧ IsReal a13 ∧ IsReal a14 ∧ IsReal a15 ∧ IsReal a16) ∧ (∀ i, (0 : EReal) ≤ a12 i) := by
  have h0 := congrFun h ix0
  dsimp only [fn, fn_part1, fn_part2, fn_part3, fn_part4, fn_part5] at h0
  simp only [andi_at, IntOp.andi_eq_one] at h0
  obtain ⟨⟨⟨⟨⟨⟨⟨⟨⟨⟨⟨⟨⟨⟨⟨⟨⟨p0, p1⟩, p2⟩, p3⟩, p4⟩, p5⟩, p6⟩, p7⟩, p8⟩, p9⟩, p10⟩, p11⟩, p12⟩, p13⟩, p14⟩, p15⟩, p16⟩, q⟩ := h0
  exact ⟨⟨isReal_of_all a0 _ _ _ _ p0,
    isReal_of_all a1 _ _ _ _ p1,
    isReal_of_all a2 _ _ _ _ p2,
    isReal_of_all a3 _ _ _ _ p3,
    isReal_of_all a4 _ _ _ _ p4,
    isReal_of_all a5 _ _ _ _ p5,
    isReal_of_all a6 _ _ _ _ p6,
    isReal_of_all a7 _ _ _ _ p7,
    isReal_of_all a8 _ _ _ _ p8,
    isReal_of_all a9 _ _ _ _ p9,
    isReal_of_all a10 _ _ _ _ p10,
    isReal_of_all a11 _ _ _ _ p11,
    isReal_of_all a12 _ _ _ _ p12,
    isReal_of_all a13 _ _ _ _ p13,
    isReal_of_all a14 _ _ _ _ p14,
    isReal_of_all a15 _ _ _ _ p15,
    isReal_of_all a16 _ _ _ _ p16⟩,
    nonneg_of_all a12 _ _ _ _ q⟩

/-- The part of it the layers use: the node features, the edge features, and every weight, bias and normalisation
    array from the fourth to the thirteenth are real, and the variance is nonnegative. -/
theorem decode [Cert.Pre_finite_inputs.Facts] (a0 : FVec Ideal Cert.Pre_finite_inputs.S131072x64 .f32) (a1 : FVec Ideal Cert.Pre_finite_inputs.S2097152x2 .f32) (a2 : FVec Ideal Cert.Pre_finite_inputs.S64x6 .f32) (a3 : FVec Ideal Cert.Pre_finite_inputs.S64x128 .f32) (a4 : FVec Ideal Cert.Pre_finite_inputs.S128 .f32) (a5 : FVec Ideal Cert.Pre_finite_inputs.S2x128 .f32) (a6 : FVec Ideal Cert.Pre_finite_inputs.S128 .f32) (a7 : FVec Ideal Cert.Pre_finite_inputs.S3x128x128 .f32) (a8 : FVec Ideal Cert.Pre_finite_inputs.S3x128 .f32) (a9 : FVec Ideal Cert.Pre_finite_inputs.S3x128 .f32) (a10 : FVec Ideal Cert.Pre_finite_inputs.S3x128 .f32) (a11 : FVec Ideal Cert.Pre_finite_inputs.S3x128 .f32) (a12 : FVec Ideal Cert.Pre_finite_inputs.S3x128 .f32) (a13 : FVec Ideal Cert.Pre_finite_inputs.S6x32 .f32) (a14 : FVec Ideal Cert.Pre_finite_inputs.S32 .f32) (a15 : FVec Ideal Cert.Pre_finite_inputs.S160x128 .f32) (a16 : FVec Ideal Cert.Pre_finite_inputs.S128 .f32) (a17 : IVec Cert.Pre_finite_inputs.S2097152 32) (a18 : IVec Cert.Pre_finite_inputs.S2097152 32) (a19 : IVec Cert.Pre_finite_inputs.S131072 32)
    (h : Cert.Pre_finite_inputs.fn (F := Ideal) a0 a1 a2 a3 a4 a5 a6 a7 a8 a9 a10 a11 a12 a13 a14 a15 a16 a17 a18 a19 = fun _ => 1#1) :
    IsReal a0 ∧ IsReal a1 ∧ IsReal a3 ∧ IsReal a4 ∧ IsReal a5 ∧ IsReal a6 ∧ IsReal a7 ∧ IsReal a8 ∧ IsReal a9 ∧ IsReal a10 ∧ IsReal a11 ∧ IsReal a12 ∧ (∀ i, (0 : EReal) ≤ a12 i) := by
  obtain ⟨⟨r0, r1, _, r3, r4, r5, r6, r7, r8, r9, r10, r11, r12, _⟩, q⟩ :=
    decode_all a0 a1 a2 a3 a4 a5 a6 a7 a8 a9 a10 a11 a12 a13 a14 a15 a16 a17 a18 a19 h
  exact ⟨r0, r1, r3, r4, r5, r6, r7, r8, r9, r10, r11, r12, q⟩

end Cert.Gcn.PreFacts

end
-- ==== Proof.ChunksT.lean ====
/-
  The five stretches of host operations that close the kernel's program, read as one function of arrays.

  After the last region the program (i) sums the node features into their graphs' rows and counts each graph's nodes,
  (ii) clips the counts below at one, (iii) divides the sums by the counts spread over the columns and, beside that,
  projects the global features and adds the projection's bias, (iv) rectifies the projection, and (v) joins the two
  halves along the columns, applies the output layer and adds its bias. Each stretch is read here on its own, for
  arbitrary contents `V` of the buffers it starts from: the buffers it computes as plain terms of the buffers it
  reads, and every buffer a later stretch still needs as untouched. Chaining the five readings gives the closing
  chain `Ktail` of the arrays the first stretch finds.
-/
import proofs.«111450_j42666205118859_2_alg».proof.Proof.ChunkDefs

noncomputable section

namespace Cert.KernelIdeal.Chunks

open Cert.KernelIdeal Cert.KernelIdeal.Gen
open Idealize.ShloMosaic Idealize.ShloMosaic.TcCoe Idealize.SL.Sem Idealize.ShloMosaic.StableHlo

variable (V : Valuation τ sig (Elt Ideal))

/-! ## The first closing stretch: the per-graph sums -/

/-- The node features summed into their graphs' rows. -/
theorem ct_v82 : @Eq (FVec Ideal S64x128 .f32) (StableHlo.after hostOps5 V (Proc.devRef .tc main_v82))
    (Host.scatterAdd scatter_S64x128_S131072x1_S131072x128_1_0_0_1
      (broadcastInDim S64x128 ![] bcast_S_S64x128 (constant (F := Ideal) S_ .f32 0x00000000#32))
      (broadcastInDim S131072x1 ![0] bcast_S131072_S131072x1_0 (V (Proc.devRef .tc main_arg19) : IVec S131072 32))
      (V (Proc.devRef .tc main_v79) : FVec Ideal S131072x128 .f32)) := by
  after_results_simp

/-- The number of nodes of every graph: ones summed into the graphs' entries. -/
theorem ct_v86 : @Eq (FVec Ideal S64 .f32) (StableHlo.after hostOps5 V (Proc.devRef .tc main_v86))
    (Host.scatterAdd scatter_S64_S131072x1_S131072_n_0_0_1
      (broadcastInDim S64 ![] bcast_S_S64 (constant (F := Ideal) S_ .f32 0x00000000#32))
      (broadcastInDim S131072x1 ![0] bcast_S131072_S131072x1_0 (V (Proc.devRef .tc main_arg19) : IVec S131072 32))
      (broadcastInDim S131072 ![] bcast_S_S131072 (constant (F := Ideal) S_ .f32 0x3F800000#32))) := by
  after_results_simp

/-- The scalar one the clip below compares against. -/
theorem ct_cst14 : @Eq (FVec Ideal S_ .f32) (StableHlo.after hostOps5 V (Proc.devRef .tc main_cst_14))
    (constant (F := Ideal) S_ .f32 0x3F800000#32) := by
  after_results_simp

/-- The first stretch writes none of the arguments the later ones read. -/
theorem ct_keep5_arg2 : @Eq (FVec Ideal S64x6 .f32) (StableHlo.after hostOps5 V (Proc.devRef .tc main_arg2)) (V (Proc.devRef .tc main_arg2) : FVec Ideal S64x6 .f32) := by
  after_results_simp
theorem ct_keep5_arg13 : @Eq (FVec Ideal S6x32 .f32) (StableHlo.after hostOps5 V (Proc.devRef .tc main_arg13)) (V (Proc.devRef .tc main_arg13) : FVec Ideal S6x32 .f32) := by
  after_results_simp
theorem ct_keep5_arg14 : @Eq (FVec Ideal S32 .f32) (StableHlo.after hostOps5 V (Proc.devRef .tc main_arg14)) (V (Proc.devRef .tc main_arg14) : FVec Ideal S32 .f32) := by
  after_results_simp
theorem ct_keep5_arg15 : @Eq (FVec Ideal S160x128 .f32) (StableHlo.after hostOps5 V (Proc.devRef .tc main_arg15)) (V (Proc.devRef .tc main_arg15) : FVec Ideal S160x128 .f32) := by
  after_results_simp
theorem ct_keep5_arg16 : @Eq (FVec Ideal S128 .f32) (StableHlo.after hostOps5 V (Proc.devRef .tc main_arg16)) (V (Proc.devRef .tc main_arg16) : FVec Ideal S128 .f32) := by
  after_results_simp

/-! ## The second closing stretch: the graph sizes clipped below at one -/

theorem ct_v87 : @Eq (FVec Ideal S64 .f32) (StableHlo.after hostOps5_1 V (Proc.devRef .tc main_v87))
    (maximumf (broadcastInDim S64 ![] bcast_S_S64 (id (V (Proc.devRef .tc main_cst_14) : FVec Ideal S_ .f32))) (V (Proc.devRef .tc main_v86) : FVec Ideal S64 .f32)) := by
  after_results_simp <;> rfl

/-- It writes neither the per-graph sums nor the arguments. -/
theorem ct_keep51_v82 : @Eq (FVec Ideal S64x128 .f32) (StableHlo.after hostOps5_1 V (Proc.devRef .tc main_v82)) (V (Proc.devRef .tc main_v82) : FVec Ideal S64x128 .f32) := by
  after_results_simp
theorem ct_keep51_arg2 : @Eq (FVec Ideal S64x6 .f32) (StableHlo.after hostOps5_1 V (Proc.devRef .tc main_arg2)) (V (Proc.devRef .tc main_arg2) : FVec Ideal S64x6 .f32) := by
  after_results_simp
theorem ct_keep51_arg13 : @Eq (FVec Ideal S6x32 .f32) (StableHlo.after hostOps5_1 V (Proc.devRef .tc main_arg13)) (V (Proc.devRef .tc main_arg13) : FVec Ideal S6x32 .f32) := by
  after_results_simp
theorem ct_keep51_arg14 : @Eq (FVec Ideal S32 .f32) (StableHlo.after hostOps5_1 V (Proc.devRef .tc main_arg14)) (V (Proc.devRef .tc main_arg14) : FVec Ideal S32 .f32) := by
  after_results_simp
theorem ct_keep51_arg15 : @Eq (FVec Ideal S160x128 .f32) (StableHlo.after hostOps5_1 V (Proc.devRef .tc main_arg15)) (V (Proc.devRef .tc main_arg15) : FVec Ideal S160x128 .f32) := by
  after_results_simp
theorem ct_keep51_arg16 : @Eq (FVec Ideal S128 .f32) (StableHlo.after hostOps5_1 V (Proc.devRef .tc main_arg16)) (V (Proc.devRef .tc main_arg16) : FVec Ideal S128 .f32) := by
  after_results_simp

/-! ## The third closing stretch: the per-graph means, and the projected global features before the rectifier -/

theorem ct_v90 : @Eq (FVec Ideal S64x128 .f32) (StableHlo.after hostOps5_2 V (Proc.devRef .tc main_v90))
    (Host.divf (V (Proc.devRef .tc main_v82) : FVec Ideal S64x128 .f32)
      (broadcastInDim S64x128 ![0, 1] bcast_S64x1_S64x128_0_1 (broadcastInDim S64x1 ![0] bcast_S64_S64x1_0 (V (Proc.devRef .tc main_v87) : FVec Ideal S64 .f32)))) := by
  after_results_simp

theorem ct_v94 : @Eq (FVec Ideal S64x32 .f32) (StableHlo.after hostOps5_2 V (Proc.devRef .tc main_v94))
    (addf (Host.dotGeneral (φ₁ := .f32) (φ₂ := .f32) dot_S64x6_S6x32_S64x32_1_0_0_1_n_n none (V (Proc.devRef .tc main_arg2) : FVec Ideal S64x6 .f32) (V (Proc.devRef .tc main_arg13) : FVec Ideal S6x32 .f32))
      (broadcastInDim S64x32 ![0, 1] bcast_S1x32_S64x32_0_1 (broadcastInDim S1x32 ![1] bcast_S32_S1x32_1 (V (Proc.devRef .tc main_arg14) : FVec Ideal S32 .f32)))) := by
  after_results_simp <;> rfl

/-- It writes neither of the output layer's arguments. -/
theorem ct_keep52_arg15 : @Eq (FVec Ideal S160x128 .f32) (StableHlo.after hostOps5_2 V (Proc.devRef .tc main_arg15)) (V (Proc.devRef .tc main_arg15) : FVec Ideal S160x128 .f32) := by
  after_results_simp
theorem ct_keep52_arg16 : @Eq (FVec Ideal S128 .f32) (StableHlo.after hostOps5_2 V (Proc.devRef .tc main_arg16)) (V (Proc.devRef .tc main_arg16) : FVec Ideal S128 .f32) := by
  after_results_simp

/-! ## The fourth closing stretch: the rectifier -/

theorem ct_v95 : @Eq (FVec Ideal S64x32 .f32) (StableHlo.after hostOps5_3 V (Proc.devRef .tc main_v95))
    (maximumf (V (Proc.devRef .tc main_v94) : FVec Ideal S64x32 .f32) (broadcastInDim S64x32 ![] bcast_S_S64x32 (constant (F := Ideal) S_ .f32 0x00000000#32))) := by
  after_results_simp <;> rfl

/-- It writes neither the means nor the output layer's arguments. -/
theorem ct_keep53_v90 : @Eq (FVec Ideal S64x128 .f32) (StableHlo.after hostOps5_3 V (Proc.devRef .tc main_v90)) (V (Proc.devRef .tc main_v90) : FVec Ideal S64x128 .f32) := by
  after_results_simp
theorem ct_keep53_arg15 : @Eq (FVec Ideal S160x128 .f32) (StableHlo.after hostOps5_3 V (Proc.devRef .tc main_arg15)) (V (Proc.devRef .tc main_arg15) : FVec Ideal S160x128 .f32) := by
  after_results_simp
theorem ct_keep53_arg16 : @Eq (FVec Ideal S128 .f32) (StableHlo.after hostOps5_3 V (Proc.devRef .tc main_arg16)) (V (Proc.devRef .tc main_arg16) : FVec Ideal S128 .f32) := by
  after_results_simp

/-! ## The last stretch: the two halves joined, through the output layer -/

theorem ct_v100 : @Eq (FVec Ideal S64x128 .f32) (StableHlo.after hostOps5_4 V (Proc.devRef .tc main_v100))
    (addf (Host.dotGeneral (φ₁ := .f32) (φ₂ := .f32) dot_S64x160_S160x128_S64x128_1_0_0_1_n_n none
        (concatenate (α := Ideal .f32) S64x160 1 [⟨S64x128, (V (Proc.devRef .tc main_v90) : FVec Ideal S64x128 .f32)⟩, ⟨S64x32, (V (Proc.devRef .tc main_v95) : FVec Ideal S64x32 .f32)⟩] concatenates_S64x128_S64x32_S64x160_d1)
        (V (Proc.devRef .tc main_arg15) : FVec Ideal S160x128 .f32))
      (broadcastInDim S64x128 ![0, 1] bcast_S1x128_S64x128_0_1 (broadcastInDim S1x128 ![1] bcast_S128_S1x128_1 (V (Proc.devRef .tc main_arg16) : FVec Ideal S128 .f32)))) := by
  after_results_simp <;> rfl

/-! ## The five stretches together -/

/-- After the five closing stretches the result buffer holds the closing chain `Ktail` of the last layer's node
    features, the global features and the output parameters as the first of them finds them. -/
theorem seg5_v100 : @Eq (FVec Ideal S64x128 .f32) (StableHlo.after hostOps5_4 (StableHlo.after hostOps5_3 (StableHlo.after hostOps5_2 (StableHlo.after hostOps5_1 (StableHlo.after hostOps5 V)))) (Proc.devRef .tc main_v100))
    (Ktail (V (Proc.devRef .tc main_v79) : FVec Ideal S131072x128 .f32) (V (Proc.devRef .tc main_arg2) : FVec Ideal S64x6 .f32) (V (Proc.devRef .tc main_arg13) : FVec Ideal S6x32 .f32) (V (Proc.devRef .tc main_arg14) : FVec Ideal S32 .f32) (V (Proc.devRef .tc main_arg15) : FVec Ideal S160x128 .f32) (V (Proc.devRef .tc main_arg16) : FVec Ideal S128 .f32) (V (Proc.devRef .tc main_arg19) : IVec S131072 32)) := by
  rw [ct_v100]
  rw [ct_keep53_v90, ct_v95, ct_keep53_arg15, ct_keep53_arg16]
  rw [ct_v90, ct_v94, ct_keep52_arg15, ct_keep52_arg16]
  rw [ct_keep51_v82, ct_v87, ct_keep51_arg2, ct_keep51_arg13, ct_keep51_arg14, ct_keep51_arg15, ct_keep51_arg16]
  rw [ct_v82, ct_v86, ct_cst14, ct_keep5_arg2, ct_keep5_arg13, ct_keep5_arg14, ct_keep5_arg15, ct_keep5_arg16]
  rfl

end Cert.KernelIdeal.Chunks

end
-- ==== Proof.Bridge.lean ====
/-
  The kernel program's result is the reference's.

  After the last layer both programs run the same closing stretch on the same last-layer output, so the kernel program's
  result buffer at the end of its run — the last boundary's contents — is the reference's result term of the launch
  contents of the arguments. The precondition enters only through the realness of the inputs the layers read and the
  sign of the variances.
-/
import proofs.«111450_j42666205118859_2_alg».proof.Proof.StagesE
import proofs.«111450_j42666205118859_2_alg».proof.Proof.PreFacts
import proofs.«111450_j42666205118859_2_alg».proof.Proof.ChunksT
import proofs.«111450_j42666205118859_2_alg».proof.Defs
import proofs.«111450_j42666205118859_2_alg».proof.Proof.Gen.Pre_finite_inputs

noncomputable section

namespace Cert.Bridge

open Cert.KernelIdeal Cert.KernelIdeal.Gen Cert.KernelIdeal.Fold
open Idealize.ShloMosaic Idealize.ShloMosaic.TcCoe Idealize.SL.Sem Idealize.ShloMosaic.StableHlo
open Cert.ReferenceIdeal.ReadP
open Cert.Gcn

variable (m : (ℓ : Loc nD τ sig) → Buf (Elt Ideal) ℓ) (ρ : Dev nD → PrngReg) (c : Dev nD)

set_option maxHeartbeats 4000000

open Cert.KernelIdeal.Chunks

/-- After the closing stretch: the result buffer, given the facts about the inputs. -/
theorem tail_eq (hf : InputFacts m c) : W17 m ρ c (Proc.devRef .tc main_v100) = val_main_v166 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) :=
  (seg5_v100 (W12 m ρ c)).trans (by
    rw [layer2_eq m ρ c hf, W12_arg2, W12_arg13, W12_arg14, W12_arg15, W12_arg16, W12_arg19]
    exact (tail_same _ _ _ _ _ _ _ _ _ _ _ _ _ _ _ _ _ _ _ _).symm)

/-- The precondition, read on one device: the float inputs the layers use are real and no variance is negative. -/
theorem inputFacts (hpre : Cert.Pre_KernelIdeal m) : InputFacts m c := by
  obtain ⟨h0, h1, h3, h4, h5, h6, h7, h8, h9, h10, h11, h12, hv⟩ :=
    PreFacts.decode _ _ _ _ _ _ _ _ _ _ _ _ _ _ _ _ _ _ _ _ (hpre c)
  exact ⟨h0, h1, h3, h4, h5, h6, h7, h8, h9, h10, h11, h12, hv⟩

end Cert.Bridge

namespace Cert.Bridge

open Cert.KernelIdeal Cert.KernelIdeal.Gen
open Idealize.ShloMosaic Idealize.ShloMosaic.TcCoe Idealize.SL.Sem
open Cert.ReferenceIdeal.ReadP

/-- Under the precondition, on every device, the kernel program's result buffer ends at the reference's result term of
    the arguments' launch contents. -/
theorem result_eq (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.KernelIdeal.Gen.W17 m ρ c (Proc.devRef .tc Cert.KernelIdeal.main_v100)
      = val_main_v166 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) :=
  tail_eq m ρ c (inputFacts m c hpre)

end Cert.Bridge

end
-- ==== Proof.lean ====
/-
  The certificate of a three-layer graph-convolution encoder against its plain reference, over the extended reals.

  Three of the five claims say only that a program runs and leaves its argument arrays as they were. For the two
  kernel programs that is the run of the host program with its five dense-layer regions; for the reference it is its
  run with the statement about the result dropped. Nothing was rewritten on the way to the extended reals, so the
  fourth claim is empty.

  The fifth claim is the equality of the two results under the precondition (every float input a real number, the
  variance nonnegative). Call G the reference's composed function of the twenty argument arrays. The kernel's run
  ends at the contents of its last boundary, and the bridge lemma says that this is G of the kernel's arguments: each
  region is a dense layer, with or without the rectifier, of what the host operations around it gather and
  scatter. The reference's run ends at G of the reference's arguments. The two argument lists agree entry by entry,
  and G respects that, so both programs end at G of the kernel's arguments.
-/
import proofs.«111450_j42666205118859_2_alg».proof.Defs
import proofs.«111450_j42666205118859_2_alg».proof.Proof.Gen.Kernel
import proofs.«111450_j42666205118859_2_alg».proof.Proof.Gen.Kernel.Skeleton
import proofs.«111450_j42666205118859_2_alg».proof.Proof.Gen.Kernel.Launch
import proofs.«111450_j42666205118859_2_alg».proof.Proof.Gen.Kernel.Points
import proofs.«111450_j42666205118859_2_alg».proof.Proof.Gen.Kernel.Frame
import proofs.«111450_j42666205118859_2_alg».proof.Proof.Gen.KernelIdeal
import proofs.«111450_j42666205118859_2_alg».proof.Proof.Gen.KernelIdeal.Skeleton
import proofs.«111450_j42666205118859_2_alg».proof.Proof.Gen.KernelIdeal.Launch
import proofs.«111450_j42666205118859_2_alg».proof.Proof.Gen.KernelIdeal.Points
import proofs.«111450_j42666205118859_2_alg».proof.Proof.Gen.KernelIdeal.Frame
import proofs.«111450_j42666205118859_2_alg».proof.Proof.Gen.ReferenceIdeal
import proofs.«111450_j42666205118859_2_alg».proof.Proof.Gen.Pre_finite_inputs
import proofs.«111450_j42666205118859_2_alg».proof.Proof.KernelRun
import proofs.«111450_j42666205118859_2_alg».proof.Proof.RefRun
import proofs.«111450_j42666205118859_2_alg».proof.Proof.RefRead
import proofs.«111450_j42666205118859_2_alg».proof.Proof.Congr
import proofs.«111450_j42666205118859_2_alg».proof.Proof.Bridge
import Idealize.ShloMosaic.Adequacy
import Idealize.ShloMosaic.Init

noncomputable section

namespace Cert.Proof

open Idealize.ShloMosaic Idealize.SL.Sem

/-- The bit-exact kernel program runs and leaves its arguments as they were. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The reference runs and leaves its arguments as they were: its run, with the statement about the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- No operation was rewritten on the way to the extended reals: there is nothing to preserve. -/
theorem preserves : Cert.preserves_Kernel_KernelIdeal := trivial

/-- Both programs end with the same array. The common value is the reference's composed function applied to the
    kernel's arguments: the kernel's run ends at its last boundary, which is that function of its own arguments; the
    reference's run ends at the same function of the reference's arguments, and the two argument lists agree entry by entry. -/
theorem algebraic : Cert.algebraic_KernelIdeal_ReferenceIdeal := fun m ρ m' ρ' hpre hagree =>
  ⟨fun c => Cert.ReferenceIdeal.ReadP.val_main_v166 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)),
    (θ_run Cert.KernelIdeal.defs _ _).mono
      (fun _ h c => ⟨(h c).1.trans (Cert.Bridge.result_eq m ρ hpre c), (h c).2⟩)
      (Cert.KernelIdeal.ValueRun.run (F := Ideal) m ρ),
    (θ_run Cert.ReferenceIdeal.defs _ _).mono
      (fun _ h c => ⟨((h c).1.trans (Cert.ReferenceIdeal.ReadP.val_main_v166_eq m' c)).trans
          (Cert.Gcn.val166_congr (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2.1 (hagree c).2.2.2.2.2.2.2.2.2.2.2.2.2.2.2.1 (hagree c).2.2.2.2.2.2.2.2.2.2.2.2.2.2.2.2.1 (hagree c).2.2.2.2.2.2.2.2.2.2.2.2.2.2.2.2.2.1 (hagree c).2.2.2.2.2.2.2.2.2.2.2.2.2.2.2.2.2.2.1 (hagree c).2.2.2.2.2.2.2.2.2.2.2.2.2.2.2.2.2.2.2),
        (h c).2⟩)
      (Cert.ReferenceIdeal.ValueP.run (F := Ideal) m' ρ')⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
